-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S15x64 : Shape := ⟨2, ![15, 64]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S15x64 : S_.BroadcastsInDim S15x64 (![] : Fin 0 → Fin S15x64.rank)
  reducesTo_S15x64_S_d0_1 : S15x64.ReducesTo [0, 1] S_

variable [Facts]

def fn_part2 {F : FTy → Type} [FloatOps F] (main_arg7 : FVec F S15x64 .f32) (main_v33 : IVec S_ 1) : IVec S_ 1 :=
  let main_v34 : FVec F S15x64 .f32 := Host.absf main_arg7
  let main_cst_12 : FVec F S_ .f32 := constant S_ .f32 0x7F800000#32
  let main_v35 : FVec F S15x64 .f32 := broadcastInDim S15x64 ![] bcast_S_S15x64 main_cst_12
  let main_v36 : IVec S15x64 1 := cmpf .olt main_v34 main_v35
  let main_c_13 : IVec S_ 1 := constantI S_ 1 1#1
  let main_v37 : IVec S_ 1 := (fun x v => Host.reduce IntOp.andi x v reducesTo_S15x64_S_d0_1 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S64x128 .f32) (main_arg7 : FVec F S15x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000 .f32) (main_arg2 : FVec F S128x128 .f32) (main_arg3 : FVec F S128 .f32) (main_arg4 : FVec F S128 .f32) (main_arg5 : FVec F S128 .f32) (main_arg6 : FVec F S64x128 .f32) (main_arg7 : FVec F S15x64 .f32) (main_arg8 : IVec S800000 32) (main_arg9 : IVec S800000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S15x64 : Shape := ⟨2, ![15, 64]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S128x1 : Shape := ⟨2, ![128, 1]⟩
abbrev S128x15 : Shape := ⟨2, ![128, 15]⟩
abbrev S128x64 : Shape := ⟨2, ![128, 64]⟩
abbrev S64x15 : Shape := ⟨2, ![64, 15]⟩

abbrev nBuf : Space → Nat
  | .hbm => 99
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S15x64, .f32⟩
  | .hbm, ⟨8, _⟩ => ⟨S800000, .i32⟩
  | .hbm, ⟨9, _⟩ => ⟨S800000, .i32⟩
  | .hbm, ⟨10, _⟩ => ⟨S50000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S1x128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S50000x128, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S128, .f32⟩
  | .hbm, ⟨85, _⟩ => ⟨S50000x1, .i32⟩
  | .hbm, ⟨86, _⟩ => ⟨S128, .f32⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128x128, .f32⟩
  | .hbm, ⟨93, _⟩ => ⟨S50000x1, .i32⟩
  | .hbm, ⟨94, _⟩ => ⟨S128x128, .f32⟩
  | .hbm, ⟨95, _⟩ => ⟨S128x1, .f32⟩
  | .hbm, ⟨96, _⟩ => ⟨S128x128, .f32⟩
  | .hbm, ⟨97, _⟩ => ⟨S128x128, .f32⟩
  | .hbm, ⟨98, _⟩ => ⟨S128x15, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S64x128, .f32⟩
  | .local _ .vmem, ⟨26, _⟩ => ⟨S15x64, .f32⟩
  | .local _ .vmem, ⟨27, _⟩ => ⟨S128x15, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_v31_2 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v55 : Ref sig .tc := ⟨.hbm, 90, rfl⟩
abbrev main_cst_14 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem1_0 : DmaSem sig := 23
abbrev cc3_sem2_0 : DmaSem sig := 24
abbrev cc3_sem3_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_15 : BitVec 32 := 0#32
  let v28 : BitVec 1 := Scalar.cmpi .ne v27 c0_i32_15
  v28

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S15x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x15 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S128x128_S128x128 : S128x128.ShapeCasts S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S15x64_S15x64_0_0 : ∀ a, (![0, 0] : Fin 2 → Nat) a + S15x64.size a ≤ S15x64.size a
  h_S15x64 : 0 < S15x64.numel
  transposes_S15x64_p1_0_S64x15 : S15x64.Transposes [1, 0] S64x15
  inb_S128x15_S128x15_0_0 : ∀ a, (![0, 0] : Fin 2 → Nat) a + S128x15.size a ≤ S128x15.size a
  h_S128x15 : 0 < S128x15.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x64_S128x64_1_0_0_1_n_n_wf : DotDims.WF S128x128 S128x64 S128x64 [1] [0] [0] [1] [] []
  dot_S128x64_S64x15_S128x15_1_0_0_1_n_n_wf : DotDims.WF S128x64 S64x15 S128x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x128.size a ≤ S128x128.size a
  hwx3_0 : ∀ i : grid3.Coords, EltTy.bits .f32 = 32 ∨ (Rect.block (s := S128x128) S128x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S15x64.size a ≤ S15x64.size a
  hwx3_2 : ∀ i : grid3.Coords, EltTy.bits .f32 = 32 ∨ (Rect.block (s := S15x64) S15x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x15.size a ≤ S128x15.size a
  hwx3_3 : ∀ i : grid3.Coords, EltTy.bits .f32 = 32 ∨ (Rect.block (s := S128x15) S128x15.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x15_S128x15_1_0_0_1_n_n : DotDims S128x64 S64x15 S128x15 where
  lhsContracting := [1]
  rhsContracting := [0]
  lhsNonContracting := [0]
  rhsNonContracting := [1]
  lhsBatch := []
  rhsBatch := []
  wf := dot_S128x64_S64x15_S128x15_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S5000x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31_1) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31_2) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v31_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61) S128x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S15x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S128x15.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S15x64 : Shape := ⟨2, ![15, 64]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128x1 : Shape := ⟨2, ![128, 1]⟩
abbrev S128x64 : Shape := ⟨2, ![128, 64]⟩
abbrev S64x15 : Shape := ⟨2, ![64, 15]⟩
abbrev S128x15 : Shape := ⟨2, ![128, 15]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S15x64, .f32⟩
  | .hbm, ⟨8, _⟩ => ⟨S800000, .i32⟩
  | .hbm, ⟨9, _⟩ => ⟨S800000, .i32⟩
  | .hbm, ⟨10, _⟩ => ⟨S50000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x128, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x1, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .i1⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S128, .f32⟩
  | .hbm, ⟨97, _⟩ => ⟨S50000x1, .i32⟩
  | .hbm, ⟨98, _⟩ => ⟨S128, .f32⟩
  | .hbm, ⟨99, _⟩ => ⟨S_, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S_, .f32⟩
  | .hbm, ⟨104, _⟩ => ⟨S128x128, .f32⟩
  | .hbm, ⟨105, _⟩ => ⟨S50000x1, .i32⟩
  | .hbm, ⟨106, _⟩ => ⟨S128x128, .f32⟩
  | .hbm, ⟨107, _⟩ => ⟨S128x1, .f32⟩
  | .hbm, ⟨108, _⟩ => ⟨S128x128, .f32⟩
  | .hbm, ⟨109, _⟩ => ⟨S128x128, .f32⟩
  | .hbm, ⟨110, _⟩ => ⟨S128x64, .f32⟩
  | .hbm, ⟨111, _⟩ => ⟨S128x64, .f32⟩
  | .hbm, ⟨112, _⟩ => ⟨S_, .f32⟩
  | .hbm, ⟨113, _⟩ => ⟨S128x64, .f32⟩
  | .hbm, ⟨114, _⟩ => ⟨S128x64, .i1⟩
  | .hbm, ⟨115, _⟩ => ⟨S_, .f32⟩
  | .hbm, ⟨116, _⟩ => ⟨S128x64, .f32⟩
  | .hbm, ⟨117, _⟩ => ⟨S128x64, .f32⟩
  | .hbm, ⟨118, _⟩ => ⟨S128x64, .f32⟩
  | .hbm, ⟨119, _⟩ => ⟨S64x15, .f32⟩
  | .hbm, ⟨120, _⟩ => ⟨S128x15, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_cst_13 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_cst_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_17 : Ref sig .tc := ⟨.hbm, 99, rfl⟩
abbrev main_call3_v0 : Ref sig .tc := ⟨.hbm, 100, rfl⟩
abbrev main_call3_v1 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_cst_20 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S64x128_S128x64_1_0 : S64x128.Transposes [1, 0] S128x64
  bcast_S_S128x64 : S_.BroadcastsInDim S128x64 (![] : Fin 0 → Fin S128x64.rank)
  transposes_S15x64_S64x15_1_0 : S15x64.Transposes [1, 0] S64x15
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x64_S128x64_1_0_0_1_n_n_wf : DotDims.WF S128x128 S128x64 S128x64 [1] [0] [0] [1] [] []
  dot_S128x64_S64x15_S128x15_1_0_0_1_n_n_wf : DotDims.WF S128x64 S64x15 S128x15 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x15_S128x15_1_0_0_1_n_n : DotDims S128x64 S64x15 S128x15 where
  lhsContracting := [1]
  rhsContracting := [0]
  lhsNonContracting := [0]
  rhsNonContracting := [1]
  lhsBatch := []
  rhsBatch := []
  wf := dot_S128x64_S64x15_S128x15_1_0_0_1_n_n_wf

class Facts : Prop extends Facts₀ where

variable [Facts]
-- ==== Proof.Bits.Region0.lean ====
/- Region 0 of @main, kernel half, at any float interpretation `F`.

   Everything is stated at a parameter `V`: the contents of the core's buffers at the moment the region is
   entered.  A window's block at a grid point is what its index map selects out of its array as `V` holds it.
   The body reads every input block whole and overwrites its output buffer whole with one value computed
   from those blocks, so the buffer it leaves is a closed function of the input blocks. -/
import proofs.«125197_j20590073217153_1_alg».proof.Proof.Gen.Kernel.Launch
import proofs.«125197_j20590073217153_1_alg».proof.Proof.Gen.Kernel.Skeleton
import proofs.«125197_j20590073217153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## Blocks -/

/-- The block of window `w` at grid point `t`: the part of the window's array, as `V` holds it, that the
    window's index map selects at `t`. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input buffer holds its block

  For proof data whose array for the window is `V`'s and whose body hands the block back untouched, the
  buffer the body is given holds the block at every point: where the window was fetched, because the fetch
  put it there; where it was not, because the block index has not moved since the last fetch.  Windows 0 and 2
  move with the grid and are fetched at every point; window 1, the 128×128 matrix, has a constant index map, is
  fetched once at the first point, and holds that same block at all ten points. -/

theorem holds0_0 {c : Dev nD} (D : Dat τ (Elt F) Unit ℕ (UR sig nD τ) ℕ cfg0 c) (hA : D.A 0 = V c (Pipeline.arrRef spec0 0))
    (hkept : ∀ t, D.after 0 t = block0 V c 0 t) (t : Fin cfg0.N) (d) : D.before 0 t d = block0 V c 0 t := by
  refine (D.before_in_eq_fetched 0 rfl (fun _ => rfl) (fun _ _ _ => rfl) (fun s => ?_) t d).trans ?_
  · rw [hkept]; unfold Dat.blockOf block0; rw [hA]; try rfl
  · unfold Dat.fetched Dat.blockOf block0; rw [hA]; try rfl

theorem holds0_1 {c : Dev nD} (D : Dat τ (Elt F) Unit ℕ (UR sig nD τ) ℕ cfg0 c) (hA : D.A 1 = V c (Pipeline.arrRef spec0 1))
    (hkept : ∀ t, D.after 1 t = block0 V c 1 t) (t : Fin cfg0.N) (d) : D.before 1 t d = block0 V c 1 t := by
  refine (D.before_in_eq_fetched 1 rfl (fun _ => rfl) (fun _ _ _ => rfl) (fun s => ?_) t d).trans ?_
  · rw [hkept]; unfold Dat.blockOf block0; rw [hA]; try rfl
  · unfold Dat.fetched Dat.blockOf block0; rw [hA]; try rfl

theorem holds0_2 {c : Dev nD} (D : Dat τ (Elt F) Unit ℕ (UR sig nD τ) ℕ cfg0 c) (hA : D.A 2 = V c (Pipeline.arrRef spec0 2))
    (hkept : ∀ t, D.after 2 t = block0 V c 2 t) (t : Fin cfg0.N) (d) : D.before 2 t d = block0 V c 2 t := by
  refine (D.before_in_eq_fetched 2 rfl (fun _ => rfl) (fun _ _ _ => rfl) (fun s => ?_) t d).trans ?_
  · rw [hkept]; unfold Dat.blockOf block0; rw [hA]; try rfl
  · unfold Dat.fetched Dat.blockOf block0; rw [hA]; try rfl

/-! ## The rectangles the body reads and writes through: each buffer, whole -/

abbrev whole0_a : Rect S5000x128 := Rect.unit (s := S5000x128) ![0, 0] S5000x128.size inb_S5000x128_S5000x128_0_0
abbrev whole0_w : Rect S128x128 := Rect.unit (s := S128x128) ![0, 0] S128x128.size inb_S128x128_S128x128_0_0
abbrev whole0_n : Rect S5000x1 := Rect.unit (s := S5000x1) ![0, 0] S5000x1.size inb_S5000x1_S5000x1_0_0

/-! ## What the body leaves in the output buffer -/

/-- The 5000×128 output buffer after the body, as a function of the three input blocks (5000×128, 128×128,
    5000×1): the single store's value, laid over the whole buffer. -/
def stored0 (x0 : Vec F S5000x128 .f32) (x1 : Vec F S128x128 .f32) (x2 : Vec F S5000x1 .f32) : Vec F S5000x128 .f32 :=
  View.canon [⟨whole0_a, k0_pay1 (View.ld x0 whole0_a) (View.ld x1 whole0_w) (View.ld x2 whole0_n)⟩]

/-- The one stored rectangle is the whole buffer, so every index of the buffer lies under it. -/
theorem covered0 (p : Vec F S5000x128 .f32) (y : S5000x128.Idx) :
    ∃ pc ∈ ([⟨whole0_a, p⟩] : List (View.Piece (Elt F) S5000x128 .f32)), y ∈ pc.1.set :=
  View.cover_of_tiled [⟨whole0_a, p⟩] S5000x128.size (by rfl) y

/-! ## The body's triple -/

set_option maxHeartbeats 1000000 in
/-- Run on whole buffers — the three inputs reading `x0`, `x1`, `x2`, the output holding anything — the body
    terminates with the inputs unchanged and the output reading `stored0 x0 x1 x2`. -/
theorem triple0 (c : Dev nD) (E : Set ℕ) (i : grid0.Coords)
    (a0 : Memref sig .tc .vmem S5000x128 .f32) (w0 : a0.IsWhole) (a1 : Memref sig .tc .vmem S128x128 .f32) (w1 : a1.IsWhole)
    (a2 : Memref sig .tc .vmem S5000x1 .f32) (w2 : a2.IsWhole) (a3 : Memref sig .tc .vmem S5000x128 .f32) (w3 : a3.IsWhole)
    (x0 : Vec F S5000x128 .f32) (x1 : Vec F S128x128 .f32) (x2 : Vec F S5000x1 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (stored0 x0 x1 x2)) -∗ K ⟨⟩))
      ⊢ wp frame (wpE (defs₀ (F := F)) Variants.none c none) E (cc0__proj_kernel i a0 w0 a1 w1 a2 w2 a3 w3) K := by
  simp only [cc0__proj_kernel_eq_skeleton]; unfold cc0__proj_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covered0 _)

/-! ## The proof data -/

/-- The region's proof data on core `c`: every array as `V` holds it; after the body at point `t` each input
    buffer still at its block and the output buffer at `stored0` of the three blocks; the invariant that of a
    body which touches nothing but its windows; full shares; nothing owed. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => stored0 (block0 V c 0 t) (block0 V c 1 t) (block0 V c 2 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = block0 V c 0 t := by dsimp only [data0]
theorem data0_after_1 (c : Dev nD) (t : Fin cfg0.N) : (data0 V c).after 1 t = block0 V c 1 t := by dsimp only [data0]
theorem data0_after_2 (c : Dev nD) (t : Fin cfg0.N) : (data0 V c).after 2 t = block0 V c 2 t := by dsimp only [data0]
theorem data0_after_3 (c : Dev nD) (t : Fin cfg0.N) :
    (data0 V c).after 3 t = stored0 (block0 V c 0 t) (block0 V c 1 t) (block0 V c 2 t) := by
  dsimp only [data0]

theorem data0_before_0 (c : Dev nD) (t : Fin cfg0.N) (d) : (data0 V c).before 0 t d = block0 V c 0 t :=
  holds0_0 V (data0 V c) (data0_A V c 0) (data0_after_0 V c) t d
theorem data0_before_1 (c : Dev nD) (t : Fin cfg0.N) (d) : (data0 V c).before 1 t d = block0 V c 1 t :=
  holds0_1 V (data0 V c) (data0_A V c 1) (data0_after_1 V c) t d
theorem data0_before_2 (c : Dev nD) (t : Fin cfg0.N) (d) : (data0 V c).before 2 t d = block0 V c 2 t :=
  holds0_2 V (data0 V c) (data0_A V c 2) (data0_after_2 V c) t d

/-! ## The body obligation -/

/-- What the pipeline hands the body at point `t`: the invariant, what is owed, and each window's current
    buffer at what it held before the body. -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- What it must hand back: the same, each buffer at what the proof data says the body leaves. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any point: the input buffers hold their blocks, so the triple applies at those blocks; the
    invariant and what is owed are not read and pass through. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [data0_before_0, data0_before_1, data0_before_2]
  rw [show (data0 V c).Φ t.succ = (data0 V c).Φ t.castSucc from rfl,
    show (data0 V c).owesAt () t.succ = (data0 V c).owesAt () t.castSucc from rfl,
    data0_after_0, data0_after_1, data0_after_2, data0_after_3]
  iintro ⟨HΦ, Ho, ⟨%d0, H0⟩, ⟨%d1, H1⟩, ⟨%d2, H2⟩, ⟨%d3, H3⟩⟩
  iapply (triple0 c Set.univ _ _ _ _ _ _ _ _ _ (block0 V c 0 t) (block0 V c 1 t) (block0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem obligation0 (c : Dev nD) : BodyObligation (data0 (F := F) V c) (defs₀ (F := F)) Variants.none () Set.univ := fun t => by
  rw [bigSep_W0, bigSep_W0]
  exact body0 V c t

end Cert.Kernel.Hand

end
-- ==== Proof.Bits.Region1Runs.lean ====
/- Region 1 (the statistics kernel): what its three control cases share — the two conditionals decided over the
   grid, where the two small output windows are idle, the memrefs the body is called with, and the algebra of
   accesses through the whole-buffer rectangle. -/
import proofs.«125197_j20590073217153_1_alg».proof.Proof.Gen.Kernel.Launch
import proofs.«125197_j20590073217153_1_alg».proof.Proof.Gen.Kernel.Skeleton
import proofs.«125197_j20590073217153_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the statistics kernel, over the grid -/

/-- The first conditional (reset of the two accumulators), as a proposition of the grid coordinates. -/
abbrev cond1_0 (i : grid1.Coords) : Prop :=
  (Scalar.cmpi .ne (Scalar.extui (Scalar.cmpi .eq (BitVec.ofNat 32 (i 0).val) 0#32)) 0#32) = 1#1

/-- It holds exactly at the first grid point. -/
theorem hcond1_0 : ∀ t : Fin cfg1.N, cond1_0 (grid1.coords t) ↔ t.val = 0 :=
  (by decide +kernel : ∀ t : Fin grid1.N, cond1_0 (grid1.coords t) ↔ t.val = 0)

/-- The second conditional (copy of the accumulators to the two small outputs). -/
abbrev cond1_1 (i : grid1.Coords) : Prop := k1_cond2 i = 1#1

/-- It holds exactly at the last grid point. -/
theorem hcond1_1 : ∀ t : Fin cfg1.N, cond1_1 (grid1.coords t) ↔ t.val = 9 :=
  (by decide +kernel : ∀ t : Fin grid1.N, cond1_1 (grid1.coords t) ↔ t.val = 9)

/-! ## Whole-shape accesses

Every access of the kernel goes through the rectangle at zero offsets that spans the whole buffer, so a load reads the
contents, a store (the last one) leaves its payload, and a load after one store reads that store's payload. -/

section WholeAccess

variable {sg : RefSig} {κ : Kind} {sp : Space} {Val : EltTy → Type} [∀ e, Nonempty (Val e)] {S : Shape} {e : EltTy}

theorem readAt_whole (v : View sg κ sp S e) (f : v.ty.Contents Val) {off : Fin S.rank → ℕ} (h : off = fun _ => 0)
    (inb : ∀ a, off a + S.size a ≤ S.size a) :
    v.readAt Val (Rect.unit (s := S) off S.size inb).toLoadRect f = v.read Val f :=
  (View.readAt_eq_ld v f _).trans (View.ld_unit_zero h inb _)

theorem read_last_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit (s := S) off S.size inb, w⟩ : View.Piece Val S e) :: L)) = w :=
  (View.read_writes_eq_canon v f _ fun y => ⟨_, List.mem_cons_self, View.mem_set_unit_zero h inb y⟩).trans
    (View.canon_cons_unit_zero h inb w L)

theorem off5000 : (![0, 0] : Fin S5000x128.rank → ℕ) = fun _ => 0 := by funext a; fin_cases a <;> rfl
theorem off1 : (![0, 0] : Fin S1x128.rank → ℕ) = fun _ => 0 := by funext a; fin_cases a <;> rfl

end WholeAccess

/-! ## Where the windows are idle

Windows 0 (the input block) and 1 (the rectified block) are used at every point. Windows 2 and 3 (the column sums and the
column sums of squares) are stored only under the second conditional: elsewhere they are idle and not written back. -/

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two accumulators: whole scoped buffers of the kernel's own, carried from point to point. -/
abbrev scM1_0 : Memref sig .tc .vmem S1x128 .f32 := Memref.whole cc1_scratch0
abbrev scM1_1 : Memref sig .tc .vmem S1x128 .f32 := Memref.whole cc1_scratch1

end Cert.Kernel.Hand

end
-- ==== Proof.Bits.Region1RunA.lean ====
/- Region 1, the first grid point: both accumulators are reset, then the block is rectified and accumulated. -/
import proofs.«125197_j20590073217153_1_alg».proof.Proof.Bits.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (first conditional taken, second not). The input buffer holds `x0`; the two idle
    outputs are handed back as found; the rectified block is left in output 1, and the accumulators, zeroed and then
    added to, hold the block's column sums and column sums of squares over the zero vectors. -/
theorem sound_kernel1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S5000x128 .f32) (xi2 xi3 : Vec F S1x128 .f32) (E : Set ℕ) (K : PUnit → sProp 𝕄) :
    iprop(owns (c : Thread nD τ) arg1 fullShare x0 ∗ (∃ d, owns (c : Thread nD τ) arg2 fullShare d) ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare (k1_pay3 x0)
            ∗ owns (c : Thread nD τ) arg3 fullShare xi2 ∗ owns (c : Thread nD τ) arg4 fullShare xi3
            ∗ owns (c : Thread nD τ) arg5 fullShare (k1_pay4 x0 k1_pay1)
            ∗ owns (c : Thread nD τ) arg6 fullShare (k1_pay5 x0 k1_pay2)) -∗ K ⟨⟩))
      ⊢ wp frame (wpE (defs₀ (F := F)) Variants.none c none) E (cc1__stats_kernel i arg1 harg1 arg2 harg2 arg3 harg3 arg4 harg4 arg5 harg5 arg6 harg6) K := by
    simp only [cc1__stats_kernel_eq_skeleton]; unfold cc1__stats_kernel_skel
    unfold owns
    iintro ⟨⟨%f0, %hf0, H0⟩, ⟨%d1, %f1, -, H1⟩, ⟨%f2, %hf2, H2⟩, ⟨%f3, %hf3, H3⟩, ⟨%ds0, %fs0, -, HS0⟩, ⟨%ds1, %fs1, -, HS1⟩, Hk⟩
    subst hf0 hf2 hf3
    sl_exec (disch := first | exact hc0 | exact hc1)
    sl_step
    iapply Hk
    isplitl [H0]
    · iexists _; isplitr; · ipureintro; rfl
      iexact H0
    isplitl [H1]
    · iexists _; isplitr
      swap; · iexact H1
      ipureintro
      sl_unfold_run_names
      rw [read_last_whole _ _ off5000, readAt_whole _ _ off5000]
    isplitl [H2]
    · iexists _; isplitr; · ipureintro; rfl
      iexact H2
    isplitl [H3]
    · iexists _; isplitr; · ipureintro; rfl
      iexact H3
    isplitl [HS0]
    · iexists _; isplitr
      swap; · iexact HS0
      ipureintro
      sl_unfold_run_names
      rw [read_last_whole _ _ off1, readAt_whole _ _ off5000, View.readCov_unit_zero _ off1]
    iexists _; isplitr
    swap; · iexact HS1
    ipureintro
    sl_unfold_run_names
    rw [read_last_whole _ _ off1, readAt_whole _ _ off5000, View.readCov_unit_zero _ off1]

end Cert.Kernel.Hand

end
-- ==== Proof.Bits.Region1RunB.lean ====
/- Region 1, a middle grid point: the block is rectified and added to the carried accumulators. -/
import proofs.«125197_j20590073217153_1_alg».proof.Proof.Bits.Region1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (neither conditional taken). The accumulators come in at `xs0`, `xs1` and leave with
    the block's column sums and column sums of squares added; the two idle outputs are handed back as found. -/
theorem sound_kernel1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S5000x128 .f32) (xi2 xi3 xs0 xs1 : Vec F S1x128 .f32) (E : Set ℕ) (K : PUnit → sProp 𝕄) :
    iprop(owns (c : Thread nD τ) arg1 fullShare x0 ∗ (∃ d, owns (c : Thread nD τ) arg2 fullShare d) ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare (k1_pay3 x0)
            ∗ owns (c : Thread nD τ) arg3 fullShare xi2 ∗ owns (c : Thread nD τ) arg4 fullShare xi3
            ∗ owns (c : Thread nD τ) arg5 fullShare (k1_pay4 x0 xs0)
            ∗ owns (c : Thread nD τ) arg6 fullShare (k1_pay5 x0 xs1)) -∗ K ⟨⟩))
      ⊢ wp frame (wpE (defs₀ (F := F)) Variants.none c none) E (cc1__stats_kernel i arg1 harg1 arg2 harg2 arg3 harg3 arg4 harg4 arg5 harg5 arg6 harg6) K := by
    simp only [cc1__stats_kernel_eq_skeleton]; unfold cc1__stats_kernel_skel
    unfold owns
    iintro ⟨⟨%f0, %hf0, H0⟩, ⟨%d1, %f1, -, H1⟩, ⟨%f2, %hf2, H2⟩, ⟨%f3, %hf3, H3⟩, ⟨%fs0, %hfs0, HS0⟩, ⟨%fs1, %hfs1, HS1⟩, Hk⟩
    subst hf0 hf2 hf3 hfs0 hfs1
    sl_exec (disch := first | exact hc0 | exact hc1)
    sl_step
    iapply Hk
    isplitl [H0]
    · iexists _; isplitr; · ipureintro; rfl
      iexact H0
    isplitl [H1]
    · iexists _; isplitr
      swap; · iexact H1
      ipureintro
      sl_unfold_run_names
      rw [read_last_whole _ _ off5000, readAt_whole _ _ off5000]
    isplitl [H2]
    · iexists _; isplitr; · ipureintro; rfl
      iexact H2
    isplitl [H3]
    · iexists _; isplitr; · ipureintro; rfl
      iexact H3
    isplitl [HS0]
    · iexists _; isplitr
      swap; · iexact HS0
      ipureintro
      sl_unfold_run_names
      rw [read_last_whole _ _ off1, readAt_whole _ _ off5000, readAt_whole _ _ off1]
    iexists _; isplitr
    swap; · iexact HS1
    ipureintro
    sl_unfold_run_names
    rw [read_last_whole _ _ off1, readAt_whole _ _ off5000, readAt_whole _ _ off1]

end Cert.Kernel.Hand

end
-- ==== Proof.Bits.Region1RunC.lean ====
/- Region 1, the last grid point: after the accumulation the two accumulators are copied to outputs 2 and 3. -/
import proofs.«125197_j20590073217153_1_alg».proof.Proof.Bits.Region1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (second conditional taken, first not). As at a middle point, and then outputs 2 and 3
    receive the accumulators just written. -/
theorem sound_kernel1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S5000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare (k1_pay3 x0)
            ∗ owns (c : Thread nD τ) arg3 fullShare (k1_pay4 x0 xs0) ∗ owns (c : Thread nD τ) arg4 fullShare (k1_pay5 x0 xs1)
            ∗ owns (c : Thread nD τ) arg5 fullShare (k1_pay4 x0 xs0)
            ∗ owns (c : Thread nD τ) arg6 fullShare (k1_pay5 x0 xs1)) -∗ K ⟨⟩))
      ⊢ wp frame (wpE (defs₀ (F := F)) Variants.none c none) E (cc1__stats_kernel i arg1 harg1 arg2 harg2 arg3 harg3 arg4 harg4 arg5 harg5 arg6 harg6) K := by
    simp only [cc1__stats_kernel_eq_skeleton]; unfold cc1__stats_kernel_skel
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, Hk⟩
    subst hf0 hfs0 hfs1
    sl_exec (disch := first | exact hc0 | exact hc1)
    sl_step
    iapply Hk
    isplitl [H0]
    · iexists _; isplitr; · ipureintro; rfl
      iexact H0
    isplitl [H1]
    · iexists _; isplitr
      swap; · iexact H1
      ipureintro
      sl_unfold_run_names
      rw [read_last_whole _ _ off5000, readAt_whole _ _ off5000]
    isplitl [H2]
    · iexists _; isplitr
      swap; · iexact H2
      ipureintro
      sl_unfold_run_names
      rw [read_last_whole _ _ off1, View.readCov_unit_zero _ off1, readAt_whole _ _ off5000, readAt_whole _ _ off1]
    isplitl [H3]
    · iexists _; isplitr
      swap; · iexact H3
      ipureintro
      sl_unfold_run_names
      rw [read_last_whole _ _ off1, View.readCov_unit_zero _ off1, readAt_whole _ _ off5000, readAt_whole _ _ off1]
    isplitl [HS0]
    · iexists _; isplitr
      swap; · iexact HS0
      ipureintro
      sl_unfold_run_names
      rw [read_last_whole _ _ off1, readAt_whole _ _ off5000, readAt_whole _ _ off1]
    iexists _; isplitr
    swap; · iexact HS1
    ipureintro
    sl_unfold_run_names
    rw [read_last_whole _ _ off1, readAt_whole _ _ off5000, readAt_whole _ _ off1]

end Cert.Kernel.Hand

end
-- ==== Proof.Bits.Region1.lean ====
/- Region 1 (the statistics kernel) as a pipeline region entered at buffer contents V: what the two accumulators
   and the three outputs hold point by point, the proof data, the body obligation, and the invariant's two ends. -/
import proofs.«125197_j20590073217153_1_alg».proof.Proof.Bits.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers beside the two accumulators -/

/-- The core's scoped buffers that are neither a staging buffer of this region nor one of its two accumulators, each
    whole at some contents: they pass through the region untouched. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg2_0), ((c : Thread nD τ).loc cc3_stg2_0) ↦{fullShare} f)
      ∗ (∃ f : Buf (Elt F) ((c : Thread nD τ).loc cc3_stg3_0), ((c : Thread nD τ).loc cc3_stg3_0) ↦{fullShare} f))

/-- Two propositions that entail each other are equal. -/
theorem eq_of_entails {P Q : sProp 𝕄} (h₁ : P ⊢ Q) (h₂ : Q ⊢ P) : P = Q := BI.equiv_iff.mp ⟨h₁, h₂⟩

/-- The class invariant with the two accumulators named: the scoped rest is the two accumulators at some contents
    beside the other scoped buffers. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ rest1 (F := F) c ∗ (∃ r, prngReg c r)) := by
  unfold Pipeline.ΦA rest1; rw [scopedRest1_eq]; simp only [scM1_0, scM1_1, owns_whole]
  refine eq_of_entails ?_ ?_
  · iintro ⟨⟨A0, A1, A2, A3, A4, A5, A6, A7, A8, A9, A10, A11, A12, A13, A14, A15, A16, A17, A18, A19, A20, A21⟩, Hg⟩
    isplitl [A7]; · iexact A7
    isplitl [A8]; · iexact A8
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    iexact A21
  · iintro ⟨A7, A8, ⟨A0, A1, A2, A3, A4, A5, A6, A9, A10, A11, A12, A13, A14, A15, A16, A17, A18, A19, A20, A21⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    iexact A21

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-! ## What is carried from point to point -/

/-- The two accumulators after point `n`: at the first point the column sums (and column sums of squares) of the
    rectified block over the zero vectors; afterwards those of the point's block over what the point before left. -/
def acc1 (c : Dev nD) : (n : ℕ) → n < cfg1.N → Vec F S1x128 .f32 × Vec F S1x128 .f32
  | 0, hn => (k1_pay4 (block1 V c 0 ⟨0, hn⟩) k1_pay1, k1_pay5 (block1 V c 0 ⟨0, hn⟩) k1_pay2)
  | n + 1, hn => (k1_pay4 (block1 V c 0 ⟨n + 1, hn⟩) (acc1 c n (Nat.lt_of_succ_lt hn)).1,
      k1_pay5 (block1 V c 0 ⟨n + 1, hn⟩) (acc1 c n (Nat.lt_of_succ_lt hn)).2)

/-- After point `n`: the three output buffers (the rectified block; the two sums, which only the last point stores and
    writes back — elsewhere these two components are not consulted) and the two accumulators. -/
def carried1 (c : Dev nD) (n : ℕ) (hn : n < cfg1.N) :
    (Vec F S5000x128 .f32 × Vec F S1x128 .f32 × Vec F S1x128 .f32) × (Vec F S1x128 .f32 × Vec F S1x128 .f32) :=
  ((k1_pay3 (block1 V c 0 ⟨n, hn⟩), (acc1 V c n hn).1, (acc1 V c n hn).2), acc1 V c n hn)

/-- At the first point: the accumulators are the block's sums over the zero vectors. -/
theorem carried1_A (c : Dev nD) (t : Fin cfg1.N) (h0 : t.val = 0) (h1 : ¬t.val = 9) :
    carried1 V c t.val t.isLt
      = ((k1_pay3 (block1 V c 0 t), k1_pay4 (block1 V c 0 t) k1_pay1, k1_pay5 (block1 V c 0 t) k1_pay2),
         (k1_pay4 (block1 V c 0 t) k1_pay1, k1_pay5 (block1 V c 0 t) k1_pay2)) := by
  obtain ⟨n, hn⟩ := t
  cases n with
  | zero => rfl
  | succ n => exact absurd h0 (Nat.succ_ne_zero n)

/-- At a middle point: the accumulators are the block's sums over what the point before left. -/
theorem carried1_B (c : Dev nD) (t : Fin cfg1.N) (h0 : ¬t.val = 0) (h1 : ¬t.val = 9) :
    carried1 V c t.val t.isLt
      = ((k1_pay3 (block1 V c 0 t),
          k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2),
         (k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2)) := by
  obtain ⟨n, hn⟩ := t
  cases n with
  | zero => exact absurd rfl h0
  | succ n => rfl

/-- At the last point: as at a middle point, and output buffers 2 and 3 hold the accumulators just written. -/
theorem carried1_C (c : Dev nD) (t : Fin cfg1.N) (h0 : ¬t.val = 0) (h1 : t.val = 9) :
    carried1 V c t.val t.isLt
      = ((k1_pay3 (block1 V c 0 t),
          k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2),
         (k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2)) := by
  obtain ⟨n, hn⟩ := t
  cases n with
  | zero => exact absurd rfl h0
  | succ n => rfl

/-! ## The invariant -/

/-- Before position `n`: at the region's entry the class invariant (every scoped buffer at some contents); afterwards
    the two accumulators at what the point before left, the other scoped buffers at some contents, and the generator
    register at some state. -/
def Phi1 (c : Dev nD) : (n : ℕ) → n ≤ cfg1.N → sProp 𝕄
  | 0, _ => Pipeline.ΦA spec1 c
  | n + 1, hn => iprop(owns (c : Thread nD τ) scM1_0 fullShare (carried1 V c n hn).2.1 ∗ owns (c : Thread nD τ) scM1_1 fullShare (carried1 V c n hn).2.2
      ∗ rest1 (F := F) c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1_0 fullShare (carried1 V c n hn).2.1 ∗ owns (c : Thread nD τ) scM1_1 fullShare (carried1 V c n hn).2.2
      ∗ rest1 (F := F) c ∗ (∃ r, prngReg c r)) := rfl

theorem Phi1_pos (c : Dev nD) (n : ℕ) (h : n ≤ cfg1.N) (hz : n ≠ 0) :
    Phi1 V c n h = iprop(owns (c : Thread nD τ) scM1_0 fullShare (carried1 V c (n - 1) (by omega)).2.1 ∗ owns (c : Thread nD τ) scM1_1 fullShare (carried1 V c (n - 1) (by omega)).2.2
      ∗ rest1 (F := F) c ∗ (∃ r, prngReg c r)) := by
  cases n with
  | zero => exact absurd rfl hz
  | succ n => rfl

/-! ## The proof data -/

/-- The proof data of the region on core `c`: the arrays as the region finds them; after the body at point `t` the
    input's buffer at its block and the outputs' at `carried1`'s components; the invariant `Phi1`; nothing owed;
    full shares. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => (carried1 V c t.val t.isLt).1.1
    | ⟨2, _⟩ => (carried1 V c t.val t.isLt).1.2.1
    | ⟨3, _⟩ => (carried1 V c t.val t.isLt).1.2.2
  Φ t := Phi1 V c t.val (Nat.le_of_lt_succ t.isLt)
  q _ := fullShare
  owed _ := 0

theorem data1_A (c : Dev nD) (w : Fin cfg1.W) : (data1 V c).A w = V c (Pipeline.arrRef spec1 w) := by
  dsimp only [data1]

theorem Phi1_castSucc (c : Dev nD) (t : Fin cfg1.N) :
    (data1 V c).Φ t.castSucc = Phi1 V c t.val (Nat.le_of_lt t.isLt) := by
  dsimp only [data1]; simp only [Fin.coe_castSucc]

theorem data1_after_0 (c : Dev nD) (t : Fin cfg1.N) : (data1 V c).after 0 t = block1 V c 0 t := by dsimp only [data1]
theorem data1_after_1 (c : Dev nD) (t : Fin cfg1.N) : (data1 V c).after 1 t = (carried1 V c t.val t.isLt).1.1 := by dsimp only [data1]
theorem data1_after_2 (c : Dev nD) (t : Fin cfg1.N) : (data1 V c).after 2 t = (carried1 V c t.val t.isLt).1.2.1 := by dsimp only [data1]
theorem data1_after_3 (c : Dev nD) (t : Fin cfg1.N) : (data1 V c).after 3 t = (carried1 V c t.val t.isLt).1.2.2 := by dsimp only [data1]

theorem before1_0 (c : Dev nD) (t : Fin cfg1.N) (d) : (data1 V c).before 0 t d = block1 V c 0 t :=
  before1_0_of V (data1 V c) (data1_A V c 0) (data1_after_0 V c) t d

/-! ## The body obligation -/

def bodyPre1 (c : Dev nD) (t : Fin cfg1.N) : sProp 𝕄 :=
  iprop((data1 V c).Φ t.castSucc ∗ (data1 V c).owesAt () t.castSucc
    ∗ (∃ d, owns (c : Thread nD τ) (ms1_0 t) fullShare ((data1 V c).before 0 t d))
    ∗ (∃ d, owns (c : Thread nD τ) (ms1_1 t) fullShare ((data1 V c).before 1 t d))
    ∗ (∃ d, owns (c : Thread nD τ) (ms1_2 t) fullShare ((data1 V c).before 2 t d))
    ∗ (∃ d, owns (c : Thread nD τ) (ms1_3 t) fullShare ((data1 V c).before 3 t d)))

def bodyPost1 (c : Dev nD) (t : Fin cfg1.N) : sProp 𝕄 :=
  iprop((data1 V c).Φ t.succ ∗ (data1 V c).owesAt () t.succ
    ∗ (data1 V c).leavesExact 0 t
    ∗ (data1 V c).leavesExact 1 t
    ∗ (data1 V c).leavesExact 2 t
    ∗ (data1 V c).leavesExact 3 t)

set_option maxHeartbeats 4800000 in
/-- The body at any point, by the point's case: the input's memref holds its block; the invariant hands the body the two
    accumulators (at anything at the first point, at what the point before left afterwards) and takes them back at this
    point's contents; the other scoped buffers, the generator register and the core's tallies pass through; outputs 2 and
    3 are handed back as found except at the last point, where they receive the accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (data1 V c).owesAt () t.succ = (data1 V c).owesAt () t.castSucc from rfl]
  rw [show (data1 V c).Φ t.succ = Phi1 V c (t.val + 1) t.isLt from rfl, Phi1_succ]
  have hN : t.val < 10 := lt_of_lt_of_eq t.isLt (show cfg1.N = 10 from N_1)
  rw [show (data1 V c).leavesExact 0 t = owns (c : Thread nD τ) (ms1_0 t) fullShare ((data1 V c).after 0 t) from by
      unfold Dat.leavesExact; rw [liveAt1_0 t], data1_after_0]
  rw [show (data1 V c).leavesExact 1 t = owns (c : Thread nD τ) (ms1_1 t) fullShare ((data1 V c).after 1 t) from by
      unfold Dat.leavesExact; rw [liveAt1_1 t], data1_after_1]
  by_cases h0 : t.val = 0
  · have h1 : ¬t.val = 9 := by omega
    have hc0 : cond1_0 (grid1.coords t) := (hcond1_0 t).mpr h0
    have hc1 : ¬cond1_1 (grid1.coords t) := fun h => h1 ((hcond1_1 t).mp h)
    rw [Dat.leavesExact_idle (data1 V c) 2 t (idleAt1_2 t hc1) (noFlush1_2 t hc1),
      Dat.leavesExact_idle (data1 V c) 3 t (idleAt1_3 t hc1) (noFlush1_3 t hc1)]
    rw [carried1_A V c t h0 h1]; dsimp only
    rw [Phi1_castSucc V c t, Phi1_zero V c _ _ h0, PhiA1_eq]
    iintro ⟨⟨HS0, HS1, Hr, Hg⟩, Ho, ⟨%d0, H0⟩, ⟨%d1, H1⟩, ⟨%d2, H2⟩, ⟨%d3, H3⟩⟩
    iapply (sound_kernel1_A c (grid1.coords t) _ _ _ _ _ _ _ _ _ _ _ _ hc0 hc1 (block1 V c 0 t) _ _ Set.univ _)
    isplitl [H0]; · iexact H0
    isplitl [H1]; · iexists _; iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexists _; iexact H2
    iexists _; iexact H3
  · have hc0 : ¬cond1_0 (grid1.coords t) := fun h => h0 ((hcond1_0 t).mp h)
    by_cases h1 : t.val = 9
    · have hc1 : cond1_1 (grid1.coords t) := (hcond1_1 t).mpr h1
      rw [show (data1 V c).leavesExact 2 t = owns (c : Thread nD τ) (ms1_2 t) fullShare ((data1 V c).after 2 t) from by
          unfold Dat.leavesExact; rw [liveAt1_2 t hc1], data1_after_2]
      rw [show (data1 V c).leavesExact 3 t = owns (c : Thread nD τ) (ms1_3 t) fullShare ((data1 V c).after 3 t) from by
          unfold Dat.leavesExact; rw [liveAt1_3 t hc1], data1_after_3]
      rw [carried1_C V c t h0 h1]; dsimp only
      rw [Phi1_castSucc V c t, Phi1_pos V c _ _ h0]
      iintro ⟨⟨HS0, HS1, Hr, Hg⟩, Ho, ⟨%d0, H0⟩, ⟨%d1, H1⟩, ⟨%d2, H2⟩, ⟨%d3, H3⟩⟩
      iapply (sound_kernel1_C c (grid1.coords t) _ _ _ _ _ _ _ _ _ _ _ _ hc0 hc1 (block1 V c 0 t) _ _ Set.univ _)
      isplitl [H0]; · iexact H0
      isplitl [H1]; · iexists _; iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (data1 V c) 2 t (idleAt1_2 t hc1) (noFlush1_2 t hc1),
        Dat.leavesExact_idle (data1 V c) 3 t (idleAt1_3 t hc1) (noFlush1_3 t hc1)]
      rw [carried1_B V c t h0 h1]; dsimp only
      rw [Phi1_castSucc V c t, Phi1_pos V c _ _ h0]
      iintro ⟨⟨HS0, HS1, Hr, Hg⟩, Ho, ⟨%d0, H0⟩, ⟨%d1, H1⟩, ⟨%d2, H2⟩, ⟨%d3, H3⟩⟩
      iapply (sound_kernel1_B c (grid1.coords t) _ _ _ _ _ _ _ _ _ _ _ _ hc0 hc1 (block1 V c 0 t) _ _ _ _ Set.univ _)
      isplitl [H0]; · iexact H0
      isplitl [H1]; · iexists _; iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem obligation1 (c : Dev nD) : BodyObligation (data1 (F := F) V c) (defs₀ (F := F)) Variants.none () Set.univ := fun t => by
  rw [bigSep_W1, bigSep_W1]
  exact sound_body1 V c t

/-! ## The invariant's two ends -/

/-- What the launch hands the region is the invariant before the first point. -/
theorem enter1 (c : Dev nD) : Pipeline.ΦA spec1 c ⊢ (data1 V c).Φ 0 := by
  rw [show (data1 V c).Φ 0 = Phi1 V c 0 (Nat.zero_le _) from rfl, Phi1_zero V c 0 _ rfl]
  try exact Idealize.SL.BI.Entails.refl _

/-- After any point but the first the invariant gives the class invariant back: what the accumulators hold is forgotten. -/
theorem Phi1_out (c : Dev nD) (t : Fin (cfg1.N + 1)) (ht : t.val ≠ 0) : (data1 V c).Φ t ⊢ Pipeline.ΦA spec1 c := by
  rw [show (data1 V c).Φ t = Phi1 V c t.val (Nat.le_of_lt_succ t.isLt) from rfl, Phi1_pos V c _ _ ht, PhiA1_eq]
  iintro ⟨HS0, HS1, Hr, Hg⟩
  isplitl [HS0]; · iexists _; iexact HS0
  isplitl [HS1]; · iexists _; iexact HS1
  isplitl [Hr]; · iexact Hr
  iexact Hg

/-- The same after the last point. -/
theorem leave1 (c : Dev nD) : (data1 V c).Φ (Fin.last cfg1.N) ⊢ Pipeline.ΦA spec1 c :=
  Phi1_out V c _ (by rw [Fin.val_last]; have : cfg1.N = 10 := N_1; omega)

end Region1

end Cert.Kernel.Hand

end
-- ==== Proof.Bits.Region2.lean ====
/- Region 2 of @main, kernel half, at any float interpretation `F`.

   Everything is stated at a parameter `V`: the contents of the core's buffers at the moment the region is
   entered.  A window's block at a grid point is what its index map selects out of its array as `V` holds it.
   The body reads every input block whole and overwrites its output buffer whole with one value computed
   from those blocks, so the buffer it leaves is a closed function of the input blocks. -/
import proofs.«125197_j20590073217153_1_alg».proof.Proof.Gen.Kernel.Launch
import proofs.«125197_j20590073217153_1_alg».proof.Proof.Gen.Kernel.Skeleton
import proofs.«125197_j20590073217153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## Blocks -/

/-- The block of window `w` at grid point `t`: the part of the window's array, as `V` holds it, that the
    window's index map selects at `t`. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input buffer holds its block

  For proof data whose array for the window is `V`'s and whose body hands the block back untouched, the
  buffer the body is given holds the block at every point: where the window was fetched, because the fetch
  put it there; where it was not, because the block index has not moved since the last fetch.  Window 0 moves
  with the grid and is fetched at every point; windows 1 to 5 have a constant index map, are fetched once at
  the first point, and hold that same block at all ten points. -/

theorem holds2_0 {c : Dev nD} (D : Dat τ (Elt F) Unit ℕ (UR sig nD τ) ℕ cfg2 c) (hA : D.A 0 = V c (Pipeline.arrRef spec2 0))
    (hkept : ∀ t, D.after 0 t = block2 V c 0 t) (t : Fin cfg2.N) (d) : D.before 0 t d = block2 V c 0 t := by
  refine (D.before_in_eq_fetched 0 rfl (fun _ => rfl) (fun _ _ _ => rfl) (fun s => ?_) t d).trans ?_
  · rw [hkept]; unfold Dat.blockOf block2; rw [hA]; try rfl
  · unfold Dat.fetched Dat.blockOf block2; rw [hA]; try rfl

theorem holds2_1 {c : Dev nD} (D : Dat τ (Elt F) Unit ℕ (UR sig nD τ) ℕ cfg2 c) (hA : D.A 1 = V c (Pipeline.arrRef spec2 1))
    (hkept : ∀ t, D.after 1 t = block2 V c 1 t) (t : Fin cfg2.N) (d) : D.before 1 t d = block2 V c 1 t := by
  refine (D.before_in_eq_fetched 1 rfl (fun _ => rfl) (fun _ _ _ => rfl) (fun s => ?_) t d).trans ?_
  · rw [hkept]; unfold Dat.blockOf block2; rw [hA]; try rfl
  · unfold Dat.fetched Dat.blockOf block2; rw [hA]; try rfl

theorem holds2_2 {c : Dev nD} (D : Dat τ (Elt F) Unit ℕ (UR sig nD τ) ℕ cfg2 c) (hA : D.A 2 = V c (Pipeline.arrRef spec2 2))
    (hkept : ∀ t, D.after 2 t = block2 V c 2 t) (t : Fin cfg2.N) (d) : D.before 2 t d = block2 V c 2 t := by
  refine (D.before_in_eq_fetched 2 rfl (fun _ => rfl) (fun _ _ _ => rfl) (fun s => ?_) t d).trans ?_
  · rw [hkept]; unfold Dat.blockOf block2; rw [hA]; try rfl
  · unfold Dat.fetched Dat.blockOf block2; rw [hA]; try rfl

theorem holds2_3 {c : Dev nD} (D : Dat τ (Elt F) Unit ℕ (UR sig nD τ) ℕ cfg2 c) (hA : D.A 3 = V c (Pipeline.arrRef spec2 3))
    (hkept : ∀ t, D.after 3 t = block2 V c 3 t) (t : Fin cfg2.N) (d) : D.before 3 t d = block2 V c 3 t := by
  refine (D.before_in_eq_fetched 3 rfl (fun _ => rfl) (fun _ _ _ => rfl) (fun s => ?_) t d).trans ?_
  · rw [hkept]; unfold Dat.blockOf block2; rw [hA]; try rfl
  · unfold Dat.fetched Dat.blockOf block2; rw [hA]; try rfl

theorem holds2_4 {c : Dev nD} (D : Dat τ (Elt F) Unit ℕ (UR sig nD τ) ℕ cfg2 c) (hA : D.A 4 = V c (Pipeline.arrRef spec2 4))
    (hkept : ∀ t, D.after 4 t = block2 V c 4 t) (t : Fin cfg2.N) (d) : D.before 4 t d = block2 V c 4 t := by
  refine (D.before_in_eq_fetched 4 rfl (fun _ => rfl) (fun _ _ _ => rfl) (fun s => ?_) t d).trans ?_
  · rw [hkept]; unfold Dat.blockOf block2; rw [hA]; try rfl
  · unfold Dat.fetched Dat.blockOf block2; rw [hA]; try rfl

theorem holds2_5 {c : Dev nD} (D : Dat τ (Elt F) Unit ℕ (UR sig nD τ) ℕ cfg2 c) (hA : D.A 5 = V c (Pipeline.arrRef spec2 5))
    (hkept : ∀ t, D.after 5 t = block2 V c 5 t) (t : Fin cfg2.N) (d) : D.before 5 t d = block2 V c 5 t := by
  refine (D.before_in_eq_fetched 5 rfl (fun _ => rfl) (fun _ _ _ => rfl) (fun s => ?_) t d).trans ?_
  · rw [hkept]; unfold Dat.blockOf block2; rw [hA]; try rfl
  · unfold Dat.fetched Dat.blockOf block2; rw [hA]; try rfl

/-! ## The rectangles the body reads and writes through: each buffer, whole -/

abbrev whole2_a : Rect S5000x128 := Rect.unit (s := S5000x128) ![0, 0] S5000x128.size inb_S5000x128_S5000x128_0_0
abbrev whole2_v : Rect S1x128 := Rect.unit (s := S1x128) ![0, 0] S1x128.size inb_S1x128_S1x128_0_0

/-! ## What the body leaves in the output buffer -/

/-- The 5000×128 output buffer after the body, as a function of the six input blocks in window order (one
    5000×128 block and five 1×128 rows): the single store's value, laid over the whole buffer.  The stored
    value reads the rows in the order the body loads them: window 5's first, then windows 1 to 4. -/
def stored2 (x0 : Vec F S5000x128 .f32) (x1 : Vec F S1x128 .f32) (x2 : Vec F S1x128 .f32) (x3 : Vec F S1x128 .f32)
    (x4 : Vec F S1x128 .f32) (x5 : Vec F S1x128 .f32) : Vec F S5000x128 .f32 :=
  View.canon [⟨whole2_a, k2_pay1 (View.ld x0 whole2_a) (View.ld x5 whole2_v) (View.ld x1 whole2_v) (View.ld x2 whole2_v)
    (View.ld x3 whole2_v) (View.ld x4 whole2_v)⟩]

/-- The one stored rectangle is the whole buffer, so every index of the buffer lies under it. -/
theorem covered2 (p : Vec F S5000x128 .f32) (y : S5000x128.Idx) :
    ∃ pc ∈ ([⟨whole2_a, p⟩] : List (View.Piece (Elt F) S5000x128 .f32)), y ∈ pc.1.set :=
  View.cover_of_tiled [⟨whole2_a, p⟩] S5000x128.size (by rfl) y

/-! ## The body's triple -/

set_option maxHeartbeats 1000000 in
/-- Run on whole buffers — the six inputs reading `x0` … `x5`, the output holding anything — the body
    terminates with the inputs unchanged and the output reading `stored2 x0 … x5`. -/
theorem triple2 (c : Dev nD) (E : Set ℕ) (i : grid2.Coords)
    (a0 : Memref sig .tc .vmem S5000x128 .f32) (w0 : a0.IsWhole) (a1 : Memref sig .tc .vmem S1x128 .f32) (w1 : a1.IsWhole)
    (a2 : Memref sig .tc .vmem S1x128 .f32) (w2 : a2.IsWhole) (a3 : Memref sig .tc .vmem S1x128 .f32) (w3 : a3.IsWhole)
    (a4 : Memref sig .tc .vmem S1x128 .f32) (w4 : a4.IsWhole) (a5 : Memref sig .tc .vmem S1x128 .f32) (w5 : a5.IsWhole)
    (a6 : Memref sig .tc .vmem S5000x128 .f32) (w6 : a6.IsWhole)
    (x0 : Vec F S5000x128 .f32) (x1 : Vec F S1x128 .f32) (x2 : Vec F S1x128 .f32) (x3 : Vec F S1x128 .f32)
    (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (stored2 x0 x1 x2 x3 x4 x5)) -∗ K ⟨⟩))
      ⊢ wp frame (wpE (defs₀ (F := F)) Variants.none c none) E
          (cc2__normalize_kernel i a0 w0 a1 w1 a2 w2 a3 w3 a4 w4 a5 w5 a6 w6) K := by
  simp only [cc2__normalize_kernel_eq_skeleton]; unfold cc2__normalize_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0; subst e1; subst e2; subst e3; subst e4; subst e5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  ipureintro
  exact View.read_writes_eq_canon _ _ _ (covered2 _)

/-! ## The proof data -/

/-- The region's proof data on core `c`: every array as `V` holds it; after the body at point `t` each input
    buffer still at its block and the output buffer at `stored2` of the six blocks; the invariant that of a
    body which touches nothing but its windows; full shares; nothing owed. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => block2 V c 3 t
    | ⟨4, _⟩ => block2 V c 4 t
    | ⟨5, _⟩ => block2 V c 5 t
    | ⟨6, _⟩ => stored2 (block2 V c 0 t) (block2 V c 1 t) (block2 V c 2 t) (block2 V c 3 t) (block2 V c 4 t) (block2 V c 5 t)
  Φ _ := Pipeline.ΦA spec2 c
  q _ := fullShare
  owed _ := 0

theorem data2_A (c : Dev nD) (w : Fin cfg2.W) : (data2 V c).A w = V c (Pipeline.arrRef spec2 w) := by
  dsimp only [data2]

theorem data2_after_0 (c : Dev nD) (t : Fin cfg2.N) : (data2 V c).after 0 t = block2 V c 0 t := by dsimp only [data2]
theorem data2_after_1 (c : Dev nD) (t : Fin cfg2.N) : (data2 V c).after 1 t = block2 V c 1 t := by dsimp only [data2]
theorem data2_after_2 (c : Dev nD) (t : Fin cfg2.N) : (data2 V c).after 2 t = block2 V c 2 t := by dsimp only [data2]
theorem data2_after_3 (c : Dev nD) (t : Fin cfg2.N) : (data2 V c).after 3 t = block2 V c 3 t := by dsimp only [data2]
theorem data2_after_4 (c : Dev nD) (t : Fin cfg2.N) : (data2 V c).after 4 t = block2 V c 4 t := by dsimp only [data2]
theorem data2_after_5 (c : Dev nD) (t : Fin cfg2.N) : (data2 V c).after 5 t = block2 V c 5 t := by dsimp only [data2]
theorem data2_after_6 (c : Dev nD) (t : Fin cfg2.N) :
    (data2 V c).after 6 t = stored2 (block2 V c 0 t) (block2 V c 1 t) (block2 V c 2 t) (block2 V c 3 t) (block2 V c 4 t) (block2 V c 5 t) := by
  dsimp only [data2]

theorem data2_before_0 (c : Dev nD) (t : Fin cfg2.N) (d) : (data2 V c).before 0 t d = block2 V c 0 t :=
  holds2_0 V (data2 V c) (data2_A V c 0) (data2_after_0 V c) t d
theorem data2_before_1 (c : Dev nD) (t : Fin cfg2.N) (d) : (data2 V c).before 1 t d = block2 V c 1 t :=
  holds2_1 V (data2 V c) (data2_A V c 1) (data2_after_1 V c) t d
theorem data2_before_2 (c : Dev nD) (t : Fin cfg2.N) (d) : (data2 V c).before 2 t d = block2 V c 2 t :=
  holds2_2 V (data2 V c) (data2_A V c 2) (data2_after_2 V c) t d
theorem data2_before_3 (c : Dev nD) (t : Fin cfg2.N) (d) : (data2 V c).before 3 t d = block2 V c 3 t :=
  holds2_3 V (data2 V c) (data2_A V c 3) (data2_after_3 V c) t d
theorem data2_before_4 (c : Dev nD) (t : Fin cfg2.N) (d) : (data2 V c).before 4 t d = block2 V c 4 t :=
  holds2_4 V (data2 V c) (data2_A V c 4) (data2_after_4 V c) t d
theorem data2_before_5 (c : Dev nD) (t : Fin cfg2.N) (d) : (data2 V c).before 5 t d = block2 V c 5 t :=
  holds2_5 V (data2 V c) (data2_A V c 5) (data2_after_5 V c) t d

/-! ## The body obligation -/

/-- What the pipeline hands the body at point `t`: the invariant, what is owed, and each window's current
    buffer at what it held before the body. -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d))
    ∗ (∃ d, owns (c : Thread nD τ) (st2_6 t) fullShare ((data2 V c).before 6 t d)))

/-- What it must hand back: the same, each buffer at what the proof data says the body leaves. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t)
    ∗ owns (c : Thread nD τ) (st2_6 t) fullShare ((data2 V c).after 6 t))

/-- The body at any point: the input buffers hold their blocks, so the triple applies at those blocks; the
    invariant and what is owed are not read and pass through. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [data2_before_0, data2_before_1, data2_before_2, data2_before_3, data2_before_4, data2_before_5]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5, data2_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple2 c Set.univ _ _ _ _ _ _ _ _ _ _ _ _ _ _ _ (block2 V c 0 t) (block2 V c 1 t) (block2 V c 2 t) (block2 V c 3 t) (block2 V c 4 t) (block2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem obligation2 (c : Dev nD) : BodyObligation (data2 (F := F) V c) (defs₀ (F := F)) Variants.none () Set.univ := fun t => by
  rw [bigSep_W2, bigSep_W2]
  exact body2 V c t

end Cert.Kernel.Hand

end
-- ==== Proof.Bits.Region3.lean ====
/- Region 3 of @main, kernel half, at any float interpretation `F`.

   Everything is stated at a parameter `V`: the contents of the core's buffers at the moment the region is
   entered.  A window's block at a grid point is what its index map selects out of its array as `V` holds it.
   The body reads every input block whole and overwrites its output buffer whole with one value computed
   from those blocks, so the buffer it leaves is a closed function of the input blocks. -/
import proofs.«125197_j20590073217153_1_alg».proof.Proof.Gen.Kernel.Launch
import proofs.«125197_j20590073217153_1_alg».proof.Proof.Gen.Kernel.Skeleton
import proofs.«125197_j20590073217153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## Blocks -/

/-- The block of window `w` at grid point `t`: the part of the window's array, as `V` holds it, that the
    window's index map selects at `t`. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input buffer holds its block

  For proof data whose array for the window is `V`'s and whose body hands the block back untouched, the
  buffer the body is given holds the block at every point: where the window was fetched, because the fetch
  put it there; where it was not, because the block index has not moved since the last fetch. -/

theorem holds3_0 {c : Dev nD} (D : Dat τ (Elt F) Unit ℕ (UR sig nD τ) ℕ cfg3 c) (hA : D.A 0 = V c (Pipeline.arrRef spec3 0))
    (hkept : ∀ t, D.after 0 t = block3 V c 0 t) (t : Fin cfg3.N) (d) : D.before 0 t d = block3 V c 0 t := by
  refine (D.before_in_eq_fetched 0 rfl (fun _ => rfl) (fun _ _ _ => rfl) (fun s => ?_) t d).trans ?_
  · rw [hkept]; unfold Dat.blockOf block3; rw [hA]; try rfl
  · unfold Dat.fetched Dat.blockOf block3; rw [hA]; try rfl

theorem holds3_1 {c : Dev nD} (D : Dat τ (Elt F) Unit ℕ (UR sig nD τ) ℕ cfg3 c) (hA : D.A 1 = V c (Pipeline.arrRef spec3 1))
    (hkept : ∀ t, D.after 1 t = block3 V c 1 t) (t : Fin cfg3.N) (d) : D.before 1 t d = block3 V c 1 t := by
  refine (D.before_in_eq_fetched 1 rfl (fun _ => rfl) (fun _ _ _ => rfl) (fun s => ?_) t d).trans ?_
  · rw [hkept]; unfold Dat.blockOf block3; rw [hA]; try rfl
  · unfold Dat.fetched Dat.blockOf block3; rw [hA]; try rfl

theorem holds3_2 {c : Dev nD} (D : Dat τ (Elt F) Unit ℕ (UR sig nD τ) ℕ cfg3 c) (hA : D.A 2 = V c (Pipeline.arrRef spec3 2))
    (hkept : ∀ t, D.after 2 t = block3 V c 2 t) (t : Fin cfg3.N) (d) : D.before 2 t d = block3 V c 2 t := by
  refine (D.before_in_eq_fetched 2 rfl (fun _ => rfl) (fun _ _ _ => rfl) (fun s => ?_) t d).trans ?_
  · rw [hkept]; unfold Dat.blockOf block3; rw [hA]; try rfl
  · unfold Dat.fetched Dat.blockOf block3; rw [hA]; try rfl

/-! ## The rectangles the body reads and writes through: each buffer, whole -/

abbrev whole3_x : Rect S128x128 := Rect.unit (s := S128x128) ![0, 0] S128x128.size inb_S128x128_S128x128_0_0
abbrev whole3_w1 : Rect S64x128 := Rect.unit (s := S64x128) ![0, 0] S64x128.size inb_S64x128_S64x128_0_0
abbrev whole3_w2 : Rect S15x64 := Rect.unit (s := S15x64) ![0, 0] S15x64.size inb_S15x64_S15x64_0_0
abbrev whole3_y : Rect S128x15 := Rect.unit (s := S128x15) ![0, 0] S128x15.size inb_S128x15_S128x15_0_0

/-! ## What the body leaves in the output buffer -/

/-- The 128×15 output buffer after the body, as a function of the three input blocks (128×128, 64×128, 15×64):
    the single store's value, laid over the whole buffer. -/
def stored3 (x0 : Vec F S128x128 .f32) (x1 : Vec F S64x128 .f32) (x2 : Vec F S15x64 .f32) : Vec F S128x15 .f32 :=
  View.canon [⟨whole3_y, k3_pay1 (View.ld x0 whole3_x) (View.ld x1 whole3_w1) (View.ld x2 whole3_w2)⟩]

/-- The one stored rectangle is the whole buffer, so every index of the buffer lies under it. -/
theorem covered3 (p : Vec F S128x15 .f32) (y : S128x15.Idx) :
    ∃ pc ∈ ([⟨whole3_y, p⟩] : List (View.Piece (Elt F) S128x15 .f32)), y ∈ pc.1.set :=
  View.cover_of_tiled [⟨whole3_y, p⟩] S128x15.size (by rfl) y

/-! ## The body's triple -/

set_option maxHeartbeats 1000000 in
/-- Run on whole buffers — the three inputs reading `x0`, `x1`, `x2`, the output holding anything — the body
    terminates with the inputs unchanged and the output reading `stored3 x0 x1 x2`. -/
theorem triple3 (c : Dev nD) (E : Set ℕ) (i : grid3.Coords)
    (a0 : Memref sig .tc .vmem S128x128 .f32) (w0 : a0.IsWhole) (a1 : Memref sig .tc .vmem S64x128 .f32) (w1 : a1.IsWhole)
    (a2 : Memref sig .tc .vmem S15x64 .f32) (w2 : a2.IsWhole) (a3 : Memref sig .tc .vmem S128x15 .f32) (w3 : a3.IsWhole)
    (x0 : Vec F S128x128 .f32) (x1 : Vec F S64x128 .f32) (x2 : Vec F S15x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (stored3 x0 x1 x2)) -∗ K ⟨⟩))
      ⊢ wp frame (wpE (defs₀ (F := F)) Variants.none c none) E (cc3__mlp_kernel i a0 w0 a1 w1 a2 w2 a3 w3) K := by
  simp only [cc3__mlp_kernel_eq_skeleton]; unfold cc3__mlp_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covered3 _)

/-! ## The proof data -/

/-- The region's proof data on core `c`: every array as `V` holds it; after the body at point `t` each input
    buffer still at its block and the output buffer at `stored3` of the three blocks; the invariant that of a
    body which touches nothing but its windows; full shares; nothing owed. -/
def data3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => stored3 (block3 V c 0 t) (block3 V c 1 t) (block3 V c 2 t)
  Φ _ := Pipeline.ΦA spec3 c
  q _ := fullShare
  owed _ := 0

theorem data3_A (c : Dev nD) (w : Fin cfg3.W) : (data3 V c).A w = V c (Pipeline.arrRef spec3 w) := by
  dsimp only [data3]

theorem data3_after_0 (c : Dev nD) (t : Fin cfg3.N) : (data3 V c).after 0 t = block3 V c 0 t := by dsimp only [data3]
theorem data3_after_1 (c : Dev nD) (t : Fin cfg3.N) : (data3 V c).after 1 t = block3 V c 1 t := by dsimp only [data3]
theorem data3_after_2 (c : Dev nD) (t : Fin cfg3.N) : (data3 V c).after 2 t = block3 V c 2 t := by dsimp only [data3]
theorem data3_after_3 (c : Dev nD) (t : Fin cfg3.N) :
    (data3 V c).after 3 t = stored3 (block3 V c 0 t) (block3 V c 1 t) (block3 V c 2 t) := by dsimp only [data3]

theorem data3_before_0 (c : Dev nD) (t : Fin cfg3.N) (d) : (data3 V c).before 0 t d = block3 V c 0 t :=
  holds3_0 V (data3 V c) (data3_A V c 0) (data3_after_0 V c) t d
theorem data3_before_1 (c : Dev nD) (t : Fin cfg3.N) (d) : (data3 V c).before 1 t d = block3 V c 1 t :=
  holds3_1 V (data3 V c) (data3_A V c 1) (data3_after_1 V c) t d
theorem data3_before_2 (c : Dev nD) (t : Fin cfg3.N) (d) : (data3 V c).before 2 t d = block3 V c 2 t :=
  holds3_2 V (data3 V c) (data3_A V c 2) (data3_after_2 V c) t d

/-! ## The body obligation -/

/-- What the pipeline hands the body at point `t`: the invariant, what is owed, and each window's current
    buffer at what it held before the body. -/
def pre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d)))

/-- What it must hand back: the same, each buffer at what the proof data says the body leaves. -/
def post3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t))

/-- The body at any point: the input buffers hold their blocks, so the triple applies at those blocks; the
    invariant and what is owed are not read and pass through. -/
theorem body3 (c : Dev nD) (t : Fin cfg3.N) :
    pre3 V c t ⊢ wp frame (wpE (defs₀ (F := F)) Variants.none c none) Set.univ (bodyAt3 t) (fun _ => post3 V c t) := by
  unfold pre3 post3 bodyAt3
  simp only [data3_before_0, data3_before_1, data3_before_2]
  rw [show (data3 V c).Φ t.succ = (data3 V c).Φ t.castSucc from rfl,
    show (data3 V c).owesAt () t.succ = (data3 V c).owesAt () t.castSucc from rfl,
    data3_after_0, data3_after_1, data3_after_2, data3_after_3]
  iintro ⟨HΦ, Ho, ⟨%d0, H0⟩, ⟨%d1, H1⟩, ⟨%d2, H2⟩, ⟨%d3, H3⟩⟩
  iapply (triple3 c Set.univ _ _ _ _ _ _ _ _ _ (block3 V c 0 t) (block3 V c 1 t) (block3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem obligation3 (c : Dev nD) : BodyObligation (data3 (F := F) V c) (defs₀ (F := F)) Variants.none () Set.univ := fun t => by
  rw [bigSep_W3, bigSep_W3]
  exact body3 V c t

end Cert.Kernel.Hand

end
-- ==== Proof.Bits.Run.lean ====
/-
  The whole program as a chain of fourteen segments: ten stretches of host operations and four kernel regions.
  Between two segments a core holds every unscoped buffer at a known valuation: the launch memory, then each host
  stretch folded over it, then, after a region, that region's window arrays at what its pipeline leaves (the inputs
  as entered, each output's write-backs folded over the grid) and every other buffer as entered.  One run theorem
  states that every weakly fair execution terminates with every unscoped buffer at the last valuation; the frame
  claim (arguments unchanged) and the result's value are read off that valuation.
  Everything here is stated at any float instance, so the same text serves the word-level and the idealized program.
-/
import proofs.«125197_j20590073217153_1_alg».proof.Proof.Gen.Kernel.Launch
import proofs.«125197_j20590073217153_1_alg».proof.Proof.Gen.Kernel.Skeleton
import proofs.«125197_j20590073217153_1_alg».proof.Proof.Gen.Kernel.Points
import proofs.«125197_j20590073217153_1_alg».proof.Proof.Gen.Kernel.Regions
import proofs.«125197_j20590073217153_1_alg».proof.Proof.Bits.Region0
import proofs.«125197_j20590073217153_1_alg».proof.Proof.Bits.Region1
import proofs.«125197_j20590073217153_1_alg».proof.Proof.Bits.Region2
import proofs.«125197_j20590073217153_1_alg».proof.Proof.Bits.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- After the host stretch `hostOps0`. -/
abbrev B1 : Dev nD → Valuation τ sig (Elt F) := fun c => StableHlo.after hostOps0 (B0 m c)
/-- After the host stretch `hostOps0_1`. -/
abbrev B2 : Dev nD → Valuation τ sig (Elt F) := fun c => StableHlo.after hostOps0_1 (B1 m c)
/-- After the host stretch `hostOps0_2`. -/
abbrev B3 : Dev nD → Valuation τ sig (Elt F) := fun c => StableHlo.after hostOps0_2 (B2 m c)
/-- After the host stretch `hostOps0_3`. -/
abbrev B4 : Dev nD → Valuation τ sig (Elt F) := fun c => StableHlo.after hostOps0_3 (B3 m c)
/-- After the host stretch `hostOps0_4`. -/
abbrev B5 : Dev nD → Valuation τ sig (Elt F) := fun c => StableHlo.after hostOps0_4 (B4 m c)
/-- Region 0's entry contents read at the TensorCore's references. -/
abbrev E5 : (c : Dev nD) → (b : Ref sig .tc) → Buf (Elt F) ((c : Thread nD τ).loc b) := fun c b => B5 m c b
/-- After region 0: its window arrays at what the pipeline leaves, every other buffer as entered. -/
def B6 (c : Dev nD) : Valuation τ sig (Elt F) :=
  Pipeline.withArrays spec0 c (B5 m c) fun w => (data0 (E5 m) c).arrAt w cfg0.N
theorem B6_arr (c : Dev nD) (w : Fin cfg0.W) :
    B6 m c (Proc.devRef .tc (Pipeline.arrRef spec0 w)) = (data0 (E5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
/-- Region 0's exit contents read at the TensorCore's references. -/
abbrev X6 : (c : Dev nD) → (b : Ref sig .tc) → Buf (Elt F) ((c : Thread nD τ).loc b) := fun c b => B6 m c b
theorem left0 (c : Dev nD) (w : Fin cfg0.W) : (data0 (E5 m) c).arrAt w cfg0.N = X6 m c (Pipeline.arrRef spec0 w) :=
  (B6_arr m c w).symm
theorem kept0 (c : Dev nD) : ∀ b, b ∉ Finset.univ.image (Pipeline.arrRef spec0) → X6 m c b = E5 m c b :=
  fun b hb => B6_of_ne m c b fun w e => hb (Finset.mem_image.mpr ⟨w, Finset.mem_univ _, e⟩)
/-- After the host stretch `hostOps1`. -/
abbrev B7 : Dev nD → Valuation τ sig (Elt F) := fun c => StableHlo.after hostOps1 (B6 m c)
/-- Region 1's entry contents read at the TensorCore's references. -/
abbrev E7 : (c : Dev nD) → (b : Ref sig .tc) → Buf (Elt F) ((c : Thread nD τ).loc b) := fun c b => B7 m c b
/-- After region 1: its window arrays at what the pipeline leaves, every other buffer as entered. -/
def B8 (c : Dev nD) : Valuation τ sig (Elt F) :=
  Pipeline.withArrays spec1 c (B7 m c) fun w => (data1 (E7 m) c).arrAt w cfg1.N
theorem B8_arr (c : Dev nD) (w : Fin cfg1.W) :
    B8 m c (Proc.devRef .tc (Pipeline.arrRef spec1 w)) = (data1 (E7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
/-- Region 1's exit contents read at the TensorCore's references. -/
abbrev X8 : (c : Dev nD) → (b : Ref sig .tc) → Buf (Elt F) ((c : Thread nD τ).loc b) := fun c b => B8 m c b
theorem left1 (c : Dev nD) (w : Fin cfg1.W) : (data1 (E7 m) c).arrAt w cfg1.N = X8 m c (Pipeline.arrRef spec1 w) :=
  (B8_arr m c w).symm
theorem kept1 (c : Dev nD) : ∀ b, b ∉ Finset.univ.image (Pipeline.arrRef spec1) → X8 m c b = E7 m c b :=
  fun b hb => B8_of_ne m c b fun w e => hb (Finset.mem_image.mpr ⟨w, Finset.mem_univ _, e⟩)
/-- After the host stretch `hostOps2`. -/
abbrev B9 : Dev nD → Valuation τ sig (Elt F) := fun c => StableHlo.after hostOps2 (B8 m c)
/-- Region 2's entry contents read at the TensorCore's references. -/
abbrev E9 : (c : Dev nD) → (b : Ref sig .tc) → Buf (Elt F) ((c : Thread nD τ).loc b) := fun c b => B9 m c b
/-- After region 2: its window arrays at what the pipeline leaves, every other buffer as entered. -/
def B10 (c : Dev nD) : Valuation τ sig (Elt F) :=
  Pipeline.withArrays spec2 c (B9 m c) fun w => (data2 (E9 m) c).arrAt w cfg2.N
theorem B10_arr (c : Dev nD) (w : Fin cfg2.W) :
    B10 m c (Proc.devRef .tc (Pipeline.arrRef spec2 w)) = (data2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
/-- Region 2's exit contents read at the TensorCore's references. -/
abbrev X10 : (c : Dev nD) → (b : Ref sig .tc) → Buf (Elt F) ((c : Thread nD τ).loc b) := fun c b => B10 m c b
theorem left2 (c : Dev nD) (w : Fin cfg2.W) : (data2 (E9 m) c).arrAt w cfg2.N = X10 m c (Pipeline.arrRef spec2 w) :=
  (B10_arr m c w).symm
theorem kept2 (c : Dev nD) : ∀ b, b ∉ Finset.univ.image (Pipeline.arrRef spec2) → X10 m c b = E9 m c b :=
  fun b hb => B10_of_ne m c b fun w e => hb (Finset.mem_image.mpr ⟨w, Finset.mem_univ _, e⟩)
/-- After the host stretch `hostOps3`. -/
abbrev B11 : Dev nD → Valuation τ sig (Elt F) := fun c => StableHlo.after hostOps3 (B10 m c)
/-- After the host stretch `hostOps3_1`. -/
abbrev B12 : Dev nD → Valuation τ sig (Elt F) := fun c => StableHlo.after hostOps3_1 (B11 m c)
/-- After the host stretch `hostOps3_2`. -/
abbrev B13 : Dev nD → Valuation τ sig (Elt F) := fun c => StableHlo.after hostOps3_2 (B12 m c)
/-- Region 3's entry contents read at the TensorCore's references. -/
abbrev E13 : (c : Dev nD) → (b : Ref sig .tc) → Buf (Elt F) ((c : Thread nD τ).loc b) := fun c b => B13 m c b
/-- After region 3: its window arrays at what the pipeline leaves, every other buffer as entered. -/
def B14 (c : Dev nD) : Valuation τ sig (Elt F) :=
  Pipeline.withArrays spec3 c (B13 m c) fun w => (data3 (E13 m) c).arrAt w cfg3.N
theorem B14_arr (c : Dev nD) (w : Fin cfg3.W) :
    B14 m c (Proc.devRef .tc (Pipeline.arrRef spec3 w)) = (data3 (E13 m) c).arrAt w cfg3.N := by
  unfold B14; exact Pipeline.withArrays_arr spec3 launch3.win.arr_inj c _ _ w
theorem B14_of_ne (c : Dev nD) (b : Ref sig .tc) (hb : ∀ w, Pipeline.arrRef spec3 w ≠ b) :
    B14 m c (Proc.devRef .tc b) = B13 m c (Proc.devRef .tc b) := by
  unfold B14; exact Pipeline.withArrays_of_ne spec3 c _ _ b hb
/-- Region 3's exit contents read at the TensorCore's references. -/
abbrev X14 : (c : Dev nD) → (b : Ref sig .tc) → Buf (Elt F) ((c : Thread nD τ).loc b) := fun c b => B14 m c b
theorem left3 (c : Dev nD) (w : Fin cfg3.W) : (data3 (E13 m) c).arrAt w cfg3.N = X14 m c (Pipeline.arrRef spec3 w) :=
  (B14_arr m c w).symm
theorem kept3 (c : Dev nD) : ∀ b, b ∉ Finset.univ.image (Pipeline.arrRef spec3) → X14 m c b = E13 m c b :=
  fun b hb => B14_of_ne m c b fun w e => hb (Finset.mem_image.mpr ⟨w, Finset.mem_univ _, e⟩)

/-! ## A buffer no segment writes keeps its launch contents -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B4_of (c : Dev nD) (r : Ref sig .tc) (h : r ∉ hostOps0_3_W) : B4 m c r = B3 m c r :=
  StableHlo.after_of_writes_sub hostOps0_3 _ hostOps0_3_writes h
theorem B5_of (c : Dev nD) (r : Ref sig .tc) (h : r ∉ hostOps0_4_W) : B5 m c r = B4 m c r :=
  StableHlo.after_of_writes_sub hostOps0_4 _ hostOps0_4_writes h
theorem B7_of (c : Dev nD) (r : Ref sig .tc) (h : r ∉ hostOps1_W) : B7 m c r = B6 m c r :=
  StableHlo.after_of_writes_sub hostOps1 _ hostOps1_writes h
theorem B9_of (c : Dev nD) (r : Ref sig .tc) (h : r ∉ hostOps2_W) : B9 m c r = B8 m c r :=
  StableHlo.after_of_writes_sub hostOps2 _ hostOps2_writes h
theorem B11_of (c : Dev nD) (r : Ref sig .tc) (h : r ∉ hostOps3_W) : B11 m c r = B10 m c r :=
  StableHlo.after_of_writes_sub hostOps3 _ hostOps3_writes h
theorem B12_of (c : Dev nD) (r : Ref sig .tc) (h : r ∉ hostOps3_1_W) : B12 m c r = B11 m c r :=
  StableHlo.after_of_writes_sub hostOps3_1 _ hostOps3_1_writes h
theorem B13_of (c : Dev nD) (r : Ref sig .tc) (h : r ∉ hostOps3_2_W) : B13 m c r = B12 m c r :=
  StableHlo.after_of_writes_sub hostOps3_2 _ hostOps3_2_writes h
/-- `main_arg0` reaches the end as launched: no host stretch writes it, and a region at most reads it through an input window. -/
theorem B14_main_arg0 (c : Dev nD) : B14 m c (Proc.devRef .tc main_arg0) = m ((c : Thread nD τ).loc main_arg0) :=
  calc B14 m c (Proc.devRef .tc main_arg0)
    _ = B13 m c (Proc.devRef .tc main_arg0) := B14_of_ne m c main_arg0 (by decide)
    _ = B12 m c (Proc.devRef .tc main_arg0) := B13_of m c main_arg0 (by decide)
    _ = B11 m c (Proc.devRef .tc main_arg0) := B12_of m c main_arg0 (by decide)
    _ = B10 m c (Proc.devRef .tc main_arg0) := B11_of m c main_arg0 (by decide)
    _ = B9 m c (Proc.devRef .tc main_arg0) := B10_of_ne m c main_arg0 (by decide)
    _ = B8 m c (Proc.devRef .tc main_arg0) := B9_of m c main_arg0 (by decide)
    _ = B7 m c (Proc.devRef .tc main_arg0) := B8_of_ne m c main_arg0 (by decide)
    _ = B6 m c (Proc.devRef .tc main_arg0) := B7_of m c main_arg0 (by decide)
    _ = B5 m c (Proc.devRef .tc main_arg0) := (B6_arr m c 0).trans (((data0 (E5 m) c).arrAt_in 0 rfl _).trans (data0_A (E5 m) c 0))
    _ = B4 m c (Proc.devRef .tc main_arg0) := B5_of m c main_arg0 (by decide)
    _ = B3 m c (Proc.devRef .tc main_arg0) := B4_of m c main_arg0 (by decide)
    _ = B2 m c (Proc.devRef .tc main_arg0) := B3_of m c main_arg0 (by decide)
    _ = B1 m c (Proc.devRef .tc main_arg0) := B2_of m c main_arg0 (by decide)
    _ = B0 m c (Proc.devRef .tc main_arg0) := B1_of m c main_arg0 (by decide)
    _ = m ((c : Thread nD τ).loc main_arg0) := rfl
/-- `main_arg1` reaches the end as launched: no host stretch writes it, and a region at most reads it through an input window. -/
theorem B14_main_arg1 (c : Dev nD) : B14 m c (Proc.devRef .tc main_arg1) = m ((c : Thread nD τ).loc main_arg1) :=
  calc B14 m c (Proc.devRef .tc main_arg1)
    _ = B13 m c (Proc.devRef .tc main_arg1) := B14_of_ne m c main_arg1 (by decide)
    _ = B12 m c (Proc.devRef .tc main_arg1) := B13_of m c main_arg1 (by decide)
    _ = B11 m c (Proc.devRef .tc main_arg1) := B12_of m c main_arg1 (by decide)
    _ = B10 m c (Proc.devRef .tc main_arg1) := B11_of m c main_arg1 (by decide)
    _ = B9 m c (Proc.devRef .tc main_arg1) := B10_of_ne m c main_arg1 (by decide)
    _ = B8 m c (Proc.devRef .tc main_arg1) := B9_of m c main_arg1 (by decide)
    _ = B7 m c (Proc.devRef .tc main_arg1) := B8_of_ne m c main_arg1 (by decide)
    _ = B6 m c (Proc.devRef .tc main_arg1) := B7_of m c main_arg1 (by decide)
    _ = B5 m c (Proc.devRef .tc main_arg1) := B6_of_ne m c main_arg1 (by decide)
    _ = B4 m c (Proc.devRef .tc main_arg1) := B5_of m c main_arg1 (by decide)
    _ = B3 m c (Proc.devRef .tc main_arg1) := B4_of m c main_arg1 (by decide)
    _ = B2 m c (Proc.devRef .tc main_arg1) := B3_of m c main_arg1 (by decide)
    _ = B1 m c (Proc.devRef .tc main_arg1) := B2_of m c main_arg1 (by decide)
    _ = B0 m c (Proc.devRef .tc main_arg1) := B1_of m c main_arg1 (by decide)
    _ = m ((c : Thread nD τ).loc main_arg1) := rfl
/-- `main_arg2` reaches the end as launched: no host stretch writes it, and a region at most reads it through an input window. -/
theorem B14_main_arg2 (c : Dev nD) : B14 m c (Proc.devRef .tc main_arg2) = m ((c : Thread nD τ).loc main_arg2) :=
  calc B14 m c (Proc.devRef .tc main_arg2)
    _ = B13 m c (Proc.devRef .tc main_arg2) := B14_of_ne m c main_arg2 (by decide)
    _ = B12 m c (Proc.devRef .tc main_arg2) := B13_of m c main_arg2 (by decide)
    _ = B11 m c (Proc.devRef .tc main_arg2) := B12_of m c main_arg2 (by decide)
    _ = B10 m c (Proc.devRef .tc main_arg2) := B11_of m c main_arg2 (by decide)
    _ = B9 m c (Proc.devRef .tc main_arg2) := B10_of_ne m c main_arg2 (by decide)
    _ = B8 m c (Proc.devRef .tc main_arg2) := B9_of m c main_arg2 (by decide)
    _ = B7 m c (Proc.devRef .tc main_arg2) := B8_of_ne m c main_arg2 (by decide)
    _ = B6 m c (Proc.devRef .tc main_arg2) := B7_of m c main_arg2 (by decide)
    _ = B5 m c (Proc.devRef .tc main_arg2) := (B6_arr m c 1).trans (((data0 (E5 m) c).arrAt_in 1 rfl _).trans (data0_A (E5 m) c 1))
    _ = B4 m c (Proc.devRef .tc main_arg2) := B5_of m c main_arg2 (by decide)
    _ = B3 m c (Proc.devRef .tc main_arg2) := B4_of m c main_arg2 (by decide)
    _ = B2 m c (Proc.devRef .tc main_arg2) := B3_of m c main_arg2 (by decide)
    _ = B1 m c (Proc.devRef .tc main_arg2) := B2_of m c main_arg2 (by decide)
    _ = B0 m c (Proc.devRef .tc main_arg2) := B1_of m c main_arg2 (by decide)
    _ = m ((c : Thread nD τ).loc main_arg2) := rfl
/-- `main_arg3` reaches the end as launched: no host stretch writes it, and a region at most reads it through an input window. -/
theorem B14_main_arg3 (c : Dev nD) : B14 m c (Proc.devRef .tc main_arg3) = m ((c : Thread nD τ).loc main_arg3) :=
  calc B14 m c (Proc.devRef .tc main_arg3)
    _ = B13 m c (Proc.devRef .tc main_arg3) := B14_of_ne m c main_arg3 (by decide)
    _ = B12 m c (Proc.devRef .tc main_arg3) := B13_of m c main_arg3 (by decide)
    _ = B11 m c (Proc.devRef .tc main_arg3) := B12_of m c main_arg3 (by decide)
    _ = B10 m c (Proc.devRef .tc main_arg3) := B11_of m c main_arg3 (by decide)
    _ = B9 m c (Proc.devRef .tc main_arg3) := B10_of_ne m c main_arg3 (by decide)
    _ = B8 m c (Proc.devRef .tc main_arg3) := B9_of m c main_arg3 (by decide)
    _ = B7 m c (Proc.devRef .tc main_arg3) := B8_of_ne m c main_arg3 (by decide)
    _ = B6 m c (Proc.devRef .tc main_arg3) := B7_of m c main_arg3 (by decide)
    _ = B5 m c (Proc.devRef .tc main_arg3) := B6_of_ne m c main_arg3 (by decide)
    _ = B4 m c (Proc.devRef .tc main_arg3) := B5_of m c main_arg3 (by decide)
    _ = B3 m c (Proc.devRef .tc main_arg3) := B4_of m c main_arg3 (by decide)
    _ = B2 m c (Proc.devRef .tc main_arg3) := B3_of m c main_arg3 (by decide)
    _ = B1 m c (Proc.devRef .tc main_arg3) := B2_of m c main_arg3 (by decide)
    _ = B0 m c (Proc.devRef .tc main_arg3) := B1_of m c main_arg3 (by decide)
    _ = m ((c : Thread nD τ).loc main_arg3) := rfl
/-- `main_arg4` reaches the end as launched: no host stretch writes it, and a region at most reads it through an input window. -/
theorem B14_main_arg4 (c : Dev nD) : B14 m c (Proc.devRef .tc main_arg4) = m ((c : Thread nD τ).loc main_arg4) :=
  calc B14 m c (Proc.devRef .tc main_arg4)
    _ = B13 m c (Proc.devRef .tc main_arg4) := B14_of_ne m c main_arg4 (by decide)
    _ = B12 m c (Proc.devRef .tc main_arg4) := B13_of m c main_arg4 (by decide)
    _ = B11 m c (Proc.devRef .tc main_arg4) := B12_of m c main_arg4 (by decide)
    _ = B10 m c (Proc.devRef .tc main_arg4) := B11_of m c main_arg4 (by decide)
    _ = B9 m c (Proc.devRef .tc main_arg4) := B10_of_ne m c main_arg4 (by decide)
    _ = B8 m c (Proc.devRef .tc main_arg4) := B9_of m c main_arg4 (by decide)
    _ = B7 m c (Proc.devRef .tc main_arg4) := B8_of_ne m c main_arg4 (by decide)
    _ = B6 m c (Proc.devRef .tc main_arg4) := B7_of m c main_arg4 (by decide)
    _ = B5 m c (Proc.devRef .tc main_arg4) := B6_of_ne m c main_arg4 (by decide)
    _ = B4 m c (Proc.devRef .tc main_arg4) := B5_of m c main_arg4 (by decide)
    _ = B3 m c (Proc.devRef .tc main_arg4) := B4_of m c main_arg4 (by decide)
    _ = B2 m c (Proc.devRef .tc main_arg4) := B3_of m c main_arg4 (by decide)
    _ = B1 m c (Proc.devRef .tc main_arg4) := B2_of m c main_arg4 (by decide)
    _ = B0 m c (Proc.devRef .tc main_arg4) := B1_of m c main_arg4 (by decide)
    _ = m ((c : Thread nD τ).loc main_arg4) := rfl
/-- `main_arg5` reaches the end as launched: no host stretch writes it, and a region at most reads it through an input window. -/
theorem B14_main_arg5 (c : Dev nD) : B14 m c (Proc.devRef .tc main_arg5) = m ((c : Thread nD τ).loc main_arg5) :=
  calc B14 m c (Proc.devRef .tc main_arg5)
    _ = B13 m c (Proc.devRef .tc main_arg5) := B14_of_ne m c main_arg5 (by decide)
    _ = B12 m c (Proc.devRef .tc main_arg5) := B13_of m c main_arg5 (by decide)
    _ = B11 m c (Proc.devRef .tc main_arg5) := B12_of m c main_arg5 (by decide)
    _ = B10 m c (Proc.devRef .tc main_arg5) := B11_of m c main_arg5 (by decide)
    _ = B9 m c (Proc.devRef .tc main_arg5) := B10_of_ne m c main_arg5 (by decide)
    _ = B8 m c (Proc.devRef .tc main_arg5) := B9_of m c main_arg5 (by decide)
    _ = B7 m c (Proc.devRef .tc main_arg5) := B8_of_ne m c main_arg5 (by decide)
    _ = B6 m c (Proc.devRef .tc main_arg5) := B7_of m c main_arg5 (by decide)
    _ = B5 m c (Proc.devRef .tc main_arg5) := B6_of_ne m c main_arg5 (by decide)
    _ = B4 m c (Proc.devRef .tc main_arg5) := B5_of m c main_arg5 (by decide)
    _ = B3 m c (Proc.devRef .tc main_arg5) := B4_of m c main_arg5 (by decide)
    _ = B2 m c (Proc.devRef .tc main_arg5) := B3_of m c main_arg5 (by decide)
    _ = B1 m c (Proc.devRef .tc main_arg5) := B2_of m c main_arg5 (by decide)
    _ = B0 m c (Proc.devRef .tc main_arg5) := B1_of m c main_arg5 (by decide)
    _ = m ((c : Thread nD τ).loc main_arg5) := rfl
/-- `main_arg6` reaches the end as launched: no host stretch writes it, and a region at most reads it through an input window. -/
theorem B14_main_arg6 (c : Dev nD) : B14 m c (Proc.devRef .tc main_arg6) = m ((c : Thread nD τ).loc main_arg6) :=
  calc B14 m c (Proc.devRef .tc main_arg6)
    _ = B13 m c (Proc.devRef .tc main_arg6) := (B14_arr m c 1).trans (((data3 (E13 m) c).arrAt_in 1 rfl _).trans (data3_A (E13 m) c 1))
    _ = B12 m c (Proc.devRef .tc main_arg6) := B13_of m c main_arg6 (by decide)
    _ = B11 m c (Proc.devRef .tc main_arg6) := B12_of m c main_arg6 (by decide)
    _ = B10 m c (Proc.devRef .tc main_arg6) := B11_of m c main_arg6 (by decide)
    _ = B9 m c (Proc.devRef .tc main_arg6) := B10_of_ne m c main_arg6 (by decide)
    _ = B8 m c (Proc.devRef .tc main_arg6) := B9_of m c main_arg6 (by decide)
    _ = B7 m c (Proc.devRef .tc main_arg6) := B8_of_ne m c main_arg6 (by decide)
    _ = B6 m c (Proc.devRef .tc main_arg6) := B7_of m c main_arg6 (by decide)
    _ = B5 m c (Proc.devRef .tc main_arg6) := B6_of_ne m c main_arg6 (by decide)
    _ = B4 m c (Proc.devRef .tc main_arg6) := B5_of m c main_arg6 (by decide)
    _ = B3 m c (Proc.devRef .tc main_arg6) := B4_of m c main_arg6 (by decide)
    _ = B2 m c (Proc.devRef .tc main_arg6) := B3_of m c main_arg6 (by decide)
    _ = B1 m c (Proc.devRef .tc main_arg6) := B2_of m c main_arg6 (by decide)
    _ = B0 m c (Proc.devRef .tc main_arg6) := B1_of m c main_arg6 (by decide)
    _ = m ((c : Thread nD τ).loc main_arg6) := rfl
/-- `main_arg7` reaches the end as launched: no host stretch writes it, and a region at most reads it through an input window. -/
theorem B14_main_arg7 (c : Dev nD) : B14 m c (Proc.devRef .tc main_arg7) = m ((c : Thread nD τ).loc main_arg7) :=
  calc B14 m c (Proc.devRef .tc main_arg7)
    _ = B13 m c (Proc.devRef .tc main_arg7) := (B14_arr m c 2).trans (((data3 (E13 m) c).arrAt_in 2 rfl _).trans (data3_A (E13 m) c 2))
    _ = B12 m c (Proc.devRef .tc main_arg7) := B13_of m c main_arg7 (by decide)
    _ = B11 m c (Proc.devRef .tc main_arg7) := B12_of m c main_arg7 (by decide)
    _ = B10 m c (Proc.devRef .tc main_arg7) := B11_of m c main_arg7 (by decide)
    _ = B9 m c (Proc.devRef .tc main_arg7) := B10_of_ne m c main_arg7 (by decide)
    _ = B8 m c (Proc.devRef .tc main_arg7) := B9_of m c main_arg7 (by decide)
    _ = B7 m c (Proc.devRef .tc main_arg7) := B8_of_ne m c main_arg7 (by decide)
    _ = B6 m c (Proc.devRef .tc main_arg7) := B7_of m c main_arg7 (by decide)
    _ = B5 m c (Proc.devRef .tc main_arg7) := B6_of_ne m c main_arg7 (by decide)
    _ = B4 m c (Proc.devRef .tc main_arg7) := B5_of m c main_arg7 (by decide)
    _ = B3 m c (Proc.devRef .tc main_arg7) := B4_of m c main_arg7 (by decide)
    _ = B2 m c (Proc.devRef .tc main_arg7) := B3_of m c main_arg7 (by decide)
    _ = B1 m c (Proc.devRef .tc main_arg7) := B2_of m c main_arg7 (by decide)
    _ = B0 m c (Proc.devRef .tc main_arg7) := B1_of m c main_arg7 (by decide)
    _ = m ((c : Thread nD τ).loc main_arg7) := rfl
/-- `main_arg8` reaches the end as launched: no host stretch writes it, and a region at most reads it through an input window. -/
theorem B14_main_arg8 (c : Dev nD) : B14 m c (Proc.devRef .tc main_arg8) = m ((c : Thread nD τ).loc main_arg8) :=
  calc B14 m c (Proc.devRef .tc main_arg8)
    _ = B13 m c (Proc.devRef .tc main_arg8) := B14_of_ne m c main_arg8 (by decide)
    _ = B12 m c (Proc.devRef .tc main_arg8) := B13_of m c main_arg8 (by decide)
    _ = B11 m c (Proc.devRef .tc main_arg8) := B12_of m c main_arg8 (by decide)
    _ = B10 m c (Proc.devRef .tc main_arg8) := B11_of m c main_arg8 (by decide)
    _ = B9 m c (Proc.devRef .tc main_arg8) := B10_of_ne m c main_arg8 (by decide)
    _ = B8 m c (Proc.devRef .tc main_arg8) := B9_of m c main_arg8 (by decide)
    _ = B7 m c (Proc.devRef .tc main_arg8) := B8_of_ne m c main_arg8 (by decide)
    _ = B6 m c (Proc.devRef .tc main_arg8) := B7_of m c main_arg8 (by decide)
    _ = B5 m c (Proc.devRef .tc main_arg8) := B6_of_ne m c main_arg8 (by decide)
    _ = B4 m c (Proc.devRef .tc main_arg8) := B5_of m c main_arg8 (by decide)
    _ = B3 m c (Proc.devRef .tc main_arg8) := B4_of m c main_arg8 (by decide)
    _ = B2 m c (Proc.devRef .tc main_arg8) := B3_of m c main_arg8 (by decide)
    _ = B1 m c (Proc.devRef .tc main_arg8) := B2_of m c main_arg8 (by decide)
    _ = B0 m c (Proc.devRef .tc main_arg8) := B1_of m c main_arg8 (by decide)
    _ = m ((c : Thread nD τ).loc main_arg8) := rfl
/-- `main_arg9` reaches the end as launched: no host stretch writes it, and a region at most reads it through an input window. -/
theorem B14_main_arg9 (c : Dev nD) : B14 m c (Proc.devRef .tc main_arg9) = m ((c : Thread nD τ).loc main_arg9) :=
  calc B14 m c (Proc.devRef .tc main_arg9)
    _ = B13 m c (Proc.devRef .tc main_arg9) := B14_of_ne m c main_arg9 (by decide)
    _ = B12 m c (Proc.devRef .tc main_arg9) := B13_of m c main_arg9 (by decide)
    _ = B11 m c (Proc.devRef .tc main_arg9) := B12_of m c main_arg9 (by decide)
    _ = B10 m c (Proc.devRef .tc main_arg9) := B11_of m c main_arg9 (by decide)
    _ = B9 m c (Proc.devRef .tc main_arg9) := B10_of_ne m c main_arg9 (by decide)
    _ = B8 m c (Proc.devRef .tc main_arg9) := B9_of m c main_arg9 (by decide)
    _ = B7 m c (Proc.devRef .tc main_arg9) := B8_of_ne m c main_arg9 (by decide)
    _ = B6 m c (Proc.devRef .tc main_arg9) := B7_of m c main_arg9 (by decide)
    _ = B5 m c (Proc.devRef .tc main_arg9) := B6_of_ne m c main_arg9 (by decide)
    _ = B4 m c (Proc.devRef .tc main_arg9) := B5_of m c main_arg9 (by decide)
    _ = B3 m c (Proc.devRef .tc main_arg9) := B4_of m c main_arg9 (by decide)
    _ = B2 m c (Proc.devRef .tc main_arg9) := B3_of m c main_arg9 (by decide)
    _ = B1 m c (Proc.devRef .tc main_arg9) := B2_of m c main_arg9 (by decide)
    _ = B0 m c (Proc.devRef .tc main_arg9) := B1_of m c main_arg9 (by decide)
    _ = m ((c : Thread nD τ).loc main_arg9) := rfl
/-- `main_arg10` reaches the end as launched: no host stretch writes it, and a region at most reads it through an input window. -/
theorem B14_main_arg10 (c : Dev nD) : B14 m c (Proc.devRef .tc main_arg10) = m ((c : Thread nD τ).loc main_arg10) :=
  calc B14 m c (Proc.devRef .tc main_arg10)
    _ = B13 m c (Proc.devRef .tc main_arg10) := B14_of_ne m c main_arg10 (by decide)
    _ = B12 m c (Proc.devRef .tc main_arg10) := B13_of m c main_arg10 (by decide)
    _ = B11 m c (Proc.devRef .tc main_arg10) := B12_of m c main_arg10 (by decide)
    _ = B10 m c (Proc.devRef .tc main_arg10) := B11_of m c main_arg10 (by decide)
    _ = B9 m c (Proc.devRef .tc main_arg10) := B10_of_ne m c main_arg10 (by decide)
    _ = B8 m c (Proc.devRef .tc main_arg10) := B9_of m c main_arg10 (by decide)
    _ = B7 m c (Proc.devRef .tc main_arg10) := B8_of_ne m c main_arg10 (by decide)
    _ = B6 m c (Proc.devRef .tc main_arg10) := B7_of m c main_arg10 (by decide)
    _ = B5 m c (Proc.devRef .tc main_arg10) := B6_of_ne m c main_arg10 (by decide)
    _ = B4 m c (Proc.devRef .tc main_arg10) := B5_of m c main_arg10 (by decide)
    _ = B3 m c (Proc.devRef .tc main_arg10) := B4_of m c main_arg10 (by decide)
    _ = B2 m c (Proc.devRef .tc main_arg10) := B3_of m c main_arg10 (by decide)
    _ = B1 m c (Proc.devRef .tc main_arg10) := B2_of m c main_arg10 (by decide)
    _ = B0 m c (Proc.devRef .tc main_arg10) := B1_of m c main_arg10 (by decide)
    _ = m ((c : Thread nD τ).loc main_arg10) := rfl

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => data0 (E5 m) c
  | ⟨1, _⟩ => fun c => data1 (E7 m) c
  | ⟨2, _⟩ => fun c => data2 (E9 m) c
  | ⟨3, _⟩ => fun c => data3 (E13 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B14 m c) ∗ ∃ r, prngReg c r)

/-! ## The regions as segments -/

set_option backward.isDefEq.respectTransparency.types false in
/-- Region 0 over the thread state: entered from every unscoped buffer at `B5`, left at `B6`.  Its window arrays are split
    out of the unscoped buffers on entry and put back at the exit contents; the generator register goes into the pipeline's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E5 m) c).loose
  hwaits := Pipeline.hwaits_of_owed_zero _ _ _ _ L lv 0 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (X6 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B7`, left at `B8`.  Its window arrays are split
    out of the unscoped buffers on entry and put back at the exit contents; the generator register goes into the pipeline's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E7 m) c).loose
  hwaits := Pipeline.hwaits_of_owed_zero _ _ _ _ L lv 1 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := enter1 (E7 m) c
    unfold Pipeline.ΦA at h
    rw [show (pdats m 1 c).Φ 0 = (data1 (E7 m) c).Φ 0 from rfl]
    iintro ⟨Hp, -, Hr⟩
    iapply h
    isplitl [Hr]; · iexact Hr
    iexact Hp
  hout c := by
    have h := leave1 (E7 m) c
    unfold Pipeline.ΦA at h
    rw [Pipeline.ownSems0_none, show (pdats m 1 c).Φ (Fin.last _) = (data1 (E7 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (X8 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B9`, left at `B10`.  Its window arrays are split
    out of the unscoped buffers on entry and put back at the exit contents; the generator register goes into the pipeline's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E9 m) c).loose
  hwaits := Pipeline.hwaits_of_owed_zero _ _ _ _ L lv 2 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (X10 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B13`, left at `B14`.  Its window arrays are split
    out of the unscoped buffers on entry and put back at the exit contents; the generator register goes into the pipeline's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (E13 m) c).loose
  hwaits := Pipeline.hwaits_of_owed_zero _ _ _ _ L lv 3 fun _ _ => rfl
  pre c := iprop(StableHlo.held (c : Thread nD τ) (Pipeline.ucRefs τ sig) (B13 m c) ∗ R c)
  post c := iprop(StableHlo.held (c : Thread nD τ) (Pipeline.ucRefs τ sig) (B14 m c) ∗ R c)
  X c := iprop(∃ r, prngReg c r)
  Y c := iprop(∃ r, prngReg c r)
  Z c := Pipeline.unscopedRest (Ix := Unit) (Name := ℕ) (U := UR sig nD τ) (Lvl := ℕ) spec3 c (E13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E13 m c) (X14 m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The fourteen segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (reg0 m),
    .host (hseg hostOps1 hostOps1_sub hostOps1_fresh (B6 m)),
    .region (reg1 m),
    .host (hseg hostOps2 hostOps2_sub hostOps2_fresh (B8 m)),
    .region (reg2 m),
    .host (hseg hostOps3 hostOps3_sub hostOps3_fresh (B10 m)),
    .host (hseg hostOps3_1 hostOps3_1_sub hostOps3_1_fresh (B11 m)),
    .host (hseg hostOps3_2 hostOps3_2_sub hostOps3_2_fresh (B12 m)),
    .region (reg3 m) ]

set_option backward.isDefEq.respectTransparency.types false in
/-- THE RUN: from any memory with zero counters every weakly fair execution of the program on the TensorCores terminates,
    nothing faulting, and in the final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (B14 m c) ∗ R c)
          ⊢ iprop(Tₙ m c ∗ ∃ W, owes (c.tc : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c => h c)

/-- THE FRAME at any float instance: the eleven argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10)) :=
  (θ_run defs _ _).mono (fun r h c =>
    ⟨(h c _ (mem_uc main_arg0 (by decide))).trans (B14_main_arg0 m c),
     (h c _ (mem_uc main_arg1 (by decide))).trans (B14_main_arg1 m c),
     (h c _ (mem_uc main_arg2 (by decide))).trans (B14_main_arg2 m c),
     (h c _ (mem_uc main_arg3 (by decide))).trans (B14_main_arg3 m c),
     (h c _ (mem_uc main_arg4 (by decide))).trans (B14_main_arg4 m c),
     (h c _ (mem_uc main_arg5 (by decide))).trans (B14_main_arg5 m c),
     (h c _ (mem_uc main_arg6 (by decide))).trans (B14_main_arg6 m c),
     (h c _ (mem_uc main_arg7 (by decide))).trans (B14_main_arg7 m c),
     (h c _ (mem_uc main_arg8 (by decide))).trans (B14_main_arg8 m c),
     (h c _ (mem_uc main_arg9 (by decide))).trans (B14_main_arg9 m c),
     (h c _ (mem_uc main_arg10 (by decide))).trans (B14_main_arg10 m c)⟩) (run_all m ρ)

/-- The result array after the run: what the last region's pipeline leaves in its output window's array. -/
theorem result_all : θ_run defs (onTc (τ := τ) (main (F := F))) ⟨m, fun _ => 0, ρ⟩ (fun r => ∀ c : Dev nD,
      r.2.mem ((c.tc : Thread nD τ).loc main_v62) = (data3 (E13 m) c).arrAt 3 cfg3.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10)) :=
  (θ_run defs _ _).mono (fun r h c =>
    ⟨(h c _ (mem_uc main_v62 (by decide))).trans (B14_arr m c 3),
     (h c _ (mem_uc main_arg0 (by decide))).trans (B14_main_arg0 m c),
     (h c _ (mem_uc main_arg1 (by decide))).trans (B14_main_arg1 m c),
     (h c _ (mem_uc main_arg2 (by decide))).trans (B14_main_arg2 m c),
     (h c _ (mem_uc main_arg3 (by decide))).trans (B14_main_arg3 m c),
     (h c _ (mem_uc main_arg4 (by decide))).trans (B14_main_arg4 m c),
     (h c _ (mem_uc main_arg5 (by decide))).trans (B14_main_arg5 m c),
     (h c _ (mem_uc main_arg6 (by decide))).trans (B14_main_arg6 m c),
     (h c _ (mem_uc main_arg7 (by decide))).trans (B14_main_arg7 m c),
     (h c _ (mem_uc main_arg8 (by decide))).trans (B14_main_arg8 m c),
     (h c _ (mem_uc main_arg9 (by decide))).trans (B14_main_arg9 m c),
     (h c _ (mem_uc main_arg10 (by decide))).trans (B14_main_arg10 m c)⟩) (run_all m ρ)

end Cert.Kernel.Hand

end
-- ==== Proof.Ideal.Region0.lean ====
/- Region 0 of @main, kernel half, at any float interpretation `F`.

   Everything is stated at a parameter `V`: the contents of the core's buffers at the moment the region is
   entered.  A window's block at a grid point is what its index map selects out of its array as `V` holds it.
   The body reads every input block whole and overwrites its output buffer whole with one value computed
   from those blocks, so the buffer it leaves is a closed function of the input blocks. -/
import proofs.«125197_j20590073217153_1_alg».proof.Proof.Gen.KernelIdeal.Launch
import proofs.«125197_j20590073217153_1_alg».proof.Proof.Gen.KernelIdeal.Skeleton
import proofs.«125197_j20590073217153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## Blocks -/

/-- The block of window `w` at grid point `t`: the part of the window's array, as `V` holds it, that the
    window's index map selects at `t`. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input buffer holds its block

  For proof data whose array for the window is `V`'s and whose body hands the block back untouched, the
  buffer the body is given holds the block at every point: where the window was fetched, because the fetch
  put it there; where it was not, because the block index has not moved since the last fetch.  Windows 0 and 2
  move with the grid and are fetched at every point; window 1, the 128×128 matrix, has a constant index map, is
  fetched once at the first point, and holds that same block at all ten points. -/

theorem holds0_0 {c : Dev nD} (D : Dat τ (Elt F) Unit ℕ (UR sig nD τ) ℕ cfg0 c) (hA : D.A 0 = V c (Pipeline.arrRef spec0 0))
    (hkept : ∀ t, D.after 0 t = block0 V c 0 t) (t : Fin cfg0.N) (d) : D.before 0 t d = block0 V c 0 t := by
  refine (D.before_in_eq_fetched 0 rfl (fun _ => rfl) (fun _ _ _ => rfl) (fun s => ?_) t d).trans ?_
  · rw [hkept]; unfold Dat.blockOf block0; rw [hA]; try rfl
  · unfold Dat.fetched Dat.blockOf block0; rw [hA]; try rfl

theorem holds0_1 {c : Dev nD} (D : Dat τ (Elt F) Unit ℕ (UR sig nD τ) ℕ cfg0 c) (hA : D.A 1 = V c (Pipeline.arrRef spec0 1))
    (hkept : ∀ t, D.after 1 t = block0 V c 1 t) (t : Fin cfg0.N) (d) : D.before 1 t d = block0 V c 1 t := by
  refine (D.before_in_eq_fetched 1 rfl (fun _ => rfl) (fun _ _ _ => rfl) (fun s => ?_) t d).trans ?_
  · rw [hkept]; unfold Dat.blockOf block0; rw [hA]; try rfl
  · unfold Dat.fetched Dat.blockOf block0; rw [hA]; try rfl

theorem holds0_2 {c : Dev nD} (D : Dat τ (Elt F) Unit ℕ (UR sig nD τ) ℕ cfg0 c) (hA : D.A 2 = V c (Pipeline.arrRef spec0 2))
    (hkept : ∀ t, D.after 2 t = block0 V c 2 t) (t : Fin cfg0.N) (d) : D.before 2 t d = block0 V c 2 t := by
  refine (D.before_in_eq_fetched 2 rfl (fun _ => rfl) (fun _ _ _ => rfl) (fun s => ?_) t d).trans ?_
  · rw [hkept]; unfold Dat.blockOf block0; rw [hA]; try rfl
  · unfold Dat.fetched Dat.blockOf block0; rw [hA]; try rfl

/-! ## The rectangles the body reads and writes through: each buffer, whole -/

abbrev whole0_a : Rect S5000x128 := Rect.unit (s := S5000x128) ![0, 0] S5000x128.size inb_S5000x128_S5000x128_0_0
abbrev whole0_w : Rect S128x128 := Rect.unit (s := S128x128) ![0, 0] S128x128.size inb_S128x128_S128x128_0_0
abbrev whole0_n : Rect S5000x1 := Rect.unit (s := S5000x1) ![0, 0] S5000x1.size inb_S5000x1_S5000x1_0_0

/-! ## What the body leaves in the output buffer -/

/-- The 5000×128 output buffer after the body, as a function of the three input blocks (5000×128, 128×128,
    5000×1): the single store's value, laid over the whole buffer. -/
def stored0 (x0 : Vec F S5000x128 .f32) (x1 : Vec F S128x128 .f32) (x2 : Vec F S5000x1 .f32) : Vec F S5000x128 .f32 :=
  View.canon [⟨whole0_a, k0_pay1 (View.ld x0 whole0_a) (View.ld x1 whole0_w) (View.ld x2 whole0_n)⟩]

/-- The one stored rectangle is the whole buffer, so every index of the buffer lies under it. -/
theorem covered0 (p : Vec F S5000x128 .f32) (y : S5000x128.Idx) :
    ∃ pc ∈ ([⟨whole0_a, p⟩] : List (View.Piece (Elt F) S5000x128 .f32)), y ∈ pc.1.set :=
  View.cover_of_tiled [⟨whole0_a, p⟩] S5000x128.size (by rfl) y

/-! ## The body's triple -/

set_option maxHeartbeats 1000000 in
/-- Run on whole buffers — the three inputs reading `x0`, `x1`, `x2`, the output holding anything — the body
    terminates with the inputs unchanged and the output reading `stored0 x0 x1 x2`. -/
theorem triple0 (c : Dev nD) (E : Set ℕ) (i : grid0.Coords)
    (a0 : Memref sig .tc .vmem S5000x128 .f32) (w0 : a0.IsWhole) (a1 : Memref sig .tc .vmem S128x128 .f32) (w1 : a1.IsWhole)
    (a2 : Memref sig .tc .vmem S5000x1 .f32) (w2 : a2.IsWhole) (a3 : Memref sig .tc .vmem S5000x128 .f32) (w3 : a3.IsWhole)
    (x0 : Vec F S5000x128 .f32) (x1 : Vec F S128x128 .f32) (x2 : Vec F S5000x1 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (stored0 x0 x1 x2)) -∗ K ⟨⟩))
      ⊢ wp frame (wpE (defs₀ (F := F)) Variants.none c none) E (cc0__proj_kernel i a0 w0 a1 w1 a2 w2 a3 w3) K := by
  simp only [cc0__proj_kernel_eq_skeleton]; unfold cc0__proj_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covered0 _)

/-! ## The proof data -/

/-- The region's proof data on core `c`: every array as `V` holds it; after the body at point `t` each input
    buffer still at its block and the output buffer at `stored0` of the three blocks; the invariant that of a
    body which touches nothing but its windows; full shares; nothing owed. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => stored0 (block0 V c 0 t) (block0 V c 1 t) (block0 V c 2 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = block0 V c 0 t := by dsimp only [data0]
theorem data0_after_1 (c : Dev nD) (t : Fin cfg0.N) : (data0 V c).after 1 t = block0 V c 1 t := by dsimp only [data0]
theorem data0_after_2 (c : Dev nD) (t : Fin cfg0.N) : (data0 V c).after 2 t = block0 V c 2 t := by dsimp only [data0]
theorem data0_after_3 (c : Dev nD) (t : Fin cfg0.N) :
    (data0 V c).after 3 t = stored0 (block0 V c 0 t) (block0 V c 1 t) (block0 V c 2 t) := by
  dsimp only [data0]

theorem data0_before_0 (c : Dev nD) (t : Fin cfg0.N) (d) : (data0 V c).before 0 t d = block0 V c 0 t :=
  holds0_0 V (data0 V c) (data0_A V c 0) (data0_after_0 V c) t d
theorem data0_before_1 (c : Dev nD) (t : Fin cfg0.N) (d) : (data0 V c).before 1 t d = block0 V c 1 t :=
  holds0_1 V (data0 V c) (data0_A V c 1) (data0_after_1 V c) t d
theorem data0_before_2 (c : Dev nD) (t : Fin cfg0.N) (d) : (data0 V c).before 2 t d = block0 V c 2 t :=
  holds0_2 V (data0 V c) (data0_A V c 2) (data0_after_2 V c) t d

/-! ## The body obligation -/

/-- What the pipeline hands the body at point `t`: the invariant, what is owed, and each window's current
    buffer at what it held before the body. -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- What it must hand back: the same, each buffer at what the proof data says the body leaves. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any point: the input buffers hold their blocks, so the triple applies at those blocks; the
    invariant and what is owed are not read and pass through. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [data0_before_0, data0_before_1, data0_before_2]
  rw [show (data0 V c).Φ t.succ = (data0 V c).Φ t.castSucc from rfl,
    show (data0 V c).owesAt () t.succ = (data0 V c).owesAt () t.castSucc from rfl,
    data0_after_0, data0_after_1, data0_after_2, data0_after_3]
  iintro ⟨HΦ, Ho, ⟨%d0, H0⟩, ⟨%d1, H1⟩, ⟨%d2, H2⟩, ⟨%d3, H3⟩⟩
  iapply (triple0 c Set.univ _ _ _ _ _ _ _ _ _ (block0 V c 0 t) (block0 V c 1 t) (block0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem obligation0 (c : Dev nD) : BodyObligation (data0 (F := F) V c) (defs₀ (F := F)) Variants.none () Set.univ := fun t => by
  rw [bigSep_W0, bigSep_W0]
  exact body0 V c t

end Cert.KernelIdeal.Hand

end
-- ==== Proof.Ideal.Region1Runs.lean ====
/- Region 1 (the statistics kernel): what its three control cases share — the two conditionals decided over the
   grid, where the two small output windows are idle, the memrefs the body is called with, and the algebra of
   accesses through the whole-buffer rectangle. -/
import proofs.«125197_j20590073217153_1_alg».proof.Proof.Gen.KernelIdeal.Launch
import proofs.«125197_j20590073217153_1_alg».proof.Proof.Gen.KernelIdeal.Skeleton
import proofs.«125197_j20590073217153_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the statistics kernel, over the grid -/

/-- The first conditional (reset of the two accumulators), as a proposition of the grid coordinates. -/
abbrev cond1_0 (i : grid1.Coords) : Prop :=
  (Scalar.cmpi .ne (Scalar.extui (Scalar.cmpi .eq (BitVec.ofNat 32 (i 0).val) 0#32)) 0#32) = 1#1

/-- It holds exactly at the first grid point. -/
theorem hcond1_0 : ∀ t : Fin cfg1.N, cond1_0 (grid1.coords t) ↔ t.val = 0 :=
  (by decide +kernel : ∀ t : Fin grid1.N, cond1_0 (grid1.coords t) ↔ t.val = 0)

/-- The second conditional (copy of the accumulators to the two small outputs). -/
abbrev cond1_1 (i : grid1.Coords) : Prop := k1_cond2 i = 1#1

/-- It holds exactly at the last grid point. -/
theorem hcond1_1 : ∀ t : Fin cfg1.N, cond1_1 (grid1.coords t) ↔ t.val = 9 :=
  (by decide +kernel : ∀ t : Fin grid1.N, cond1_1 (grid1.coords t) ↔ t.val = 9)

/-! ## Whole-shape accesses

Every access of the kernel goes through the rectangle at zero offsets that spans the whole buffer, so a load reads the
contents, a store (the last one) leaves its payload, and a load after one store reads that store's payload. -/

section WholeAccess

variable {sg : RefSig} {κ : Kind} {sp : Space} {Val : EltTy → Type} [∀ e, Nonempty (Val e)] {S : Shape} {e : EltTy}

theorem readAt_whole (v : View sg κ sp S e) (f : v.ty.Contents Val) {off : Fin S.rank → ℕ} (h : off = fun _ => 0)
    (inb : ∀ a, off a + S.size a ≤ S.size a) :
    v.readAt Val (Rect.unit (s := S) off S.size inb).toLoadRect f = v.read Val f :=
  (View.readAt_eq_ld v f _).trans (View.ld_unit_zero h inb _)

theorem read_last_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit (s := S) off S.size inb, w⟩ : View.Piece Val S e) :: L)) = w :=
  (View.read_writes_eq_canon v f _ fun y => ⟨_, List.mem_cons_self, View.mem_set_unit_zero h inb y⟩).trans
    (View.canon_cons_unit_zero h inb w L)

theorem off5000 : (![0, 0] : Fin S5000x128.rank → ℕ) = fun _ => 0 := by funext a; fin_cases a <;> rfl
theorem off1 : (![0, 0] : Fin S1x128.rank → ℕ) = fun _ => 0 := by funext a; fin_cases a <;> rfl

end WholeAccess

/-! ## Where the windows are idle

Windows 0 (the input block) and 1 (the rectified block) are used at every point. Windows 2 and 3 (the column sums and the
column sums of squares) are stored only under the second conditional: elsewhere they are idle and not written back. -/

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two accumulators: whole scoped buffers of the kernel's own, carried from point to point. -/
abbrev scM1_0 : Memref sig .tc .vmem S1x128 .f32 := Memref.whole cc1_scratch0
abbrev scM1_1 : Memref sig .tc .vmem S1x128 .f32 := Memref.whole cc1_scratch1

end Cert.KernelIdeal.Hand

end
-- ==== Proof.Ideal.Region1RunA.lean ====
/- Region 1, the first grid point: both accumulators are reset, then the block is rectified and accumulated. -/
import proofs.«125197_j20590073217153_1_alg».proof.Proof.Ideal.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (first conditional taken, second not). The input buffer holds `x0`; the two idle
    outputs are handed back as found; the rectified block is left in output 1, and the accumulators, zeroed and then
    added to, hold the block's column sums and column sums of squares over the zero vectors. -/
theorem sound_kernel1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S5000x128 .f32) (xi2 xi3 : Vec F S1x128 .f32) (E : Set ℕ) (K : PUnit → sProp 𝕄) :
    iprop(owns (c : Thread nD τ) arg1 fullShare x0 ∗ (∃ d, owns (c : Thread nD τ) arg2 fullShare d) ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare (k1_pay3 x0)
            ∗ owns (c : Thread nD τ) arg3 fullShare xi2 ∗ owns (c : Thread nD τ) arg4 fullShare xi3
            ∗ owns (c : Thread nD τ) arg5 fullShare (k1_pay4 x0 k1_pay1)
            ∗ owns (c : Thread nD τ) arg6 fullShare (k1_pay5 x0 k1_pay2)) -∗ K ⟨⟩))
      ⊢ wp frame (wpE (defs₀ (F := F)) Variants.none c none) E (cc1__stats_kernel i arg1 harg1 arg2 harg2 arg3 harg3 arg4 harg4 arg5 harg5 arg6 harg6) K := by
    simp only [cc1__stats_kernel_eq_skeleton]; unfold cc1__stats_kernel_skel
    unfold owns
    iintro ⟨⟨%f0, %hf0, H0⟩, ⟨%d1, %f1, -, H1⟩, ⟨%f2, %hf2, H2⟩, ⟨%f3, %hf3, H3⟩, ⟨%ds0, %fs0, -, HS0⟩, ⟨%ds1, %fs1, -, HS1⟩, Hk⟩
    subst hf0 hf2 hf3
    sl_exec (disch := first | exact hc0 | exact hc1)
    sl_step
    iapply Hk
    isplitl [H0]
    · iexists _; isplitr; · ipureintro; rfl
      iexact H0
    isplitl [H1]
    · iexists _; isplitr
      swap; · iexact H1
      ipureintro
      sl_unfold_run_names
      rw [read_last_whole _ _ off5000, readAt_whole _ _ off5000]
    isplitl [H2]
    · iexists _; isplitr; · ipureintro; rfl
      iexact H2
    isplitl [H3]
    · iexists _; isplitr; · ipureintro; rfl
      iexact H3
    isplitl [HS0]
    · iexists _; isplitr
      swap; · iexact HS0
      ipureintro
      sl_unfold_run_names
      rw [read_last_whole _ _ off1, readAt_whole _ _ off5000, View.readCov_unit_zero _ off1]
    iexists _; isplitr
    swap; · iexact HS1
    ipureintro
    sl_unfold_run_names
    rw [read_last_whole _ _ off1, readAt_whole _ _ off5000, View.readCov_unit_zero _ off1]

end Cert.KernelIdeal.Hand

end
-- ==== Proof.Ideal.Region1RunB.lean ====
/- Region 1, a middle grid point: the block is rectified and added to the carried accumulators. -/
import proofs.«125197_j20590073217153_1_alg».proof.Proof.Ideal.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (neither conditional taken). The accumulators come in at `xs0`, `xs1` and leave with
    the block's column sums and column sums of squares added; the two idle outputs are handed back as found. -/
theorem sound_kernel1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S5000x128 .f32) (xi2 xi3 xs0 xs1 : Vec F S1x128 .f32) (E : Set ℕ) (K : PUnit → sProp 𝕄) :
    iprop(owns (c : Thread nD τ) arg1 fullShare x0 ∗ (∃ d, owns (c : Thread nD τ) arg2 fullShare d) ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare (k1_pay3 x0)
            ∗ owns (c : Thread nD τ) arg3 fullShare xi2 ∗ owns (c : Thread nD τ) arg4 fullShare xi3
            ∗ owns (c : Thread nD τ) arg5 fullShare (k1_pay4 x0 xs0)
            ∗ owns (c : Thread nD τ) arg6 fullShare (k1_pay5 x0 xs1)) -∗ K ⟨⟩))
      ⊢ wp frame (wpE (defs₀ (F := F)) Variants.none c none) E (cc1__stats_kernel i arg1 harg1 arg2 harg2 arg3 harg3 arg4 harg4 arg5 harg5 arg6 harg6) K := by
    simp only [cc1__stats_kernel_eq_skeleton]; unfold cc1__stats_kernel_skel
    unfold owns
    iintro ⟨⟨%f0, %hf0, H0⟩, ⟨%d1, %f1, -, H1⟩, ⟨%f2, %hf2, H2⟩, ⟨%f3, %hf3, H3⟩, ⟨%fs0, %hfs0, HS0⟩, ⟨%fs1, %hfs1, HS1⟩, Hk⟩
    subst hf0 hf2 hf3 hfs0 hfs1
    sl_exec (disch := first | exact hc0 | exact hc1)
    sl_step
    iapply Hk
    isplitl [H0]
    · iexists _; isplitr; · ipureintro; rfl
      iexact H0
    isplitl [H1]
    · iexists _; isplitr
      swap; · iexact H1
      ipureintro
      sl_unfold_run_names
      rw [read_last_whole _ _ off5000, readAt_whole _ _ off5000]
    isplitl [H2]
    · iexists _; isplitr; · ipureintro; rfl
      iexact H2
    isplitl [H3]
    · iexists _; isplitr; · ipureintro; rfl
      iexact H3
    isplitl [HS0]
    · iexists _; isplitr
      swap; · iexact HS0
      ipureintro
      sl_unfold_run_names
      rw [read_last_whole _ _ off1, readAt_whole _ _ off5000, readAt_whole _ _ off1]
    iexists _; isplitr
    swap; · iexact HS1
    ipureintro
    sl_unfold_run_names
    rw [read_last_whole _ _ off1, readAt_whole _ _ off5000, readAt_whole _ _ off1]

end Cert.KernelIdeal.Hand

end
-- ==== Proof.Ideal.Region1RunC.lean ====
/- Region 1, the last grid point: after the accumulation the two accumulators are copied to outputs 2 and 3. -/
import proofs.«125197_j20590073217153_1_alg».proof.Proof.Ideal.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (second conditional taken, first not). As at a middle point, and then outputs 2 and 3
    receive the accumulators just written. -/
theorem sound_kernel1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S5000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare (k1_pay3 x0)
            ∗ owns (c : Thread nD τ) arg3 fullShare (k1_pay4 x0 xs0) ∗ owns (c : Thread nD τ) arg4 fullShare (k1_pay5 x0 xs1)
            ∗ owns (c : Thread nD τ) arg5 fullShare (k1_pay4 x0 xs0)
            ∗ owns (c : Thread nD τ) arg6 fullShare (k1_pay5 x0 xs1)) -∗ K ⟨⟩))
      ⊢ wp frame (wpE (defs₀ (F := F)) Variants.none c none) E (cc1__stats_kernel i arg1 harg1 arg2 harg2 arg3 harg3 arg4 harg4 arg5 harg5 arg6 harg6) K := by
    simp only [cc1__stats_kernel_eq_skeleton]; unfold cc1__stats_kernel_skel
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, Hk⟩
    subst hf0 hfs0 hfs1
    sl_exec (disch := first | exact hc0 | exact hc1)
    sl_step
    iapply Hk
    isplitl [H0]
    · iexists _; isplitr; · ipureintro; rfl
      iexact H0
    isplitl [H1]
    · iexists _; isplitr
      swap; · iexact H1
      ipureintro
      sl_unfold_run_names
      rw [read_last_whole _ _ off5000, readAt_whole _ _ off5000]
    isplitl [H2]
    · iexists _; isplitr
      swap; · iexact H2
      ipureintro
      sl_unfold_run_names
      rw [read_last_whole _ _ off1, View.readCov_unit_zero _ off1, readAt_whole _ _ off5000, readAt_whole _ _ off1]
    isplitl [H3]
    · iexists _; isplitr
      swap; · iexact H3
      ipureintro
      sl_unfold_run_names
      rw [read_last_whole _ _ off1, View.readCov_unit_zero _ off1, readAt_whole _ _ off5000, readAt_whole _ _ off1]
    isplitl [HS0]
    · iexists _; isplitr
      swap; · iexact HS0
      ipureintro
      sl_unfold_run_names
      rw [read_last_whole _ _ off1, readAt_whole _ _ off5000, readAt_whole _ _ off1]
    iexists _; isplitr
    swap; · iexact HS1
    ipureintro
    sl_unfold_run_names
    rw [read_last_whole _ _ off1, readAt_whole _ _ off5000, readAt_whole _ _ off1]

end Cert.KernelIdeal.Hand

end
-- ==== Proof.Ideal.Region1.lean ====
/- Region 1 (the statistics kernel) as a pipeline region entered at buffer contents V: what the two accumulators
   and the three outputs hold point by point, the proof data, the body obligation, and the invariant's two ends. -/
import proofs.«125197_j20590073217153_1_alg».proof.Proof.Ideal.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers beside the two accumulators -/

/-- The core's scoped buffers that are neither a staging buffer of this region nor one of its two accumulators, each
    whole at some contents: they pass through the region untouched. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg2_0), ((c : Thread nD τ).loc cc3_stg2_0) ↦{fullShare} f)
      ∗ (∃ f : Buf (Elt F) ((c : Thread nD τ).loc cc3_stg3_0), ((c : Thread nD τ).loc cc3_stg3_0) ↦{fullShare} f))

/-- Two propositions that entail each other are equal. -/
theorem eq_of_entails {P Q : sProp 𝕄} (h₁ : P ⊢ Q) (h₂ : Q ⊢ P) : P = Q := BI.equiv_iff.mp ⟨h₁, h₂⟩

/-- The class invariant with the two accumulators named: the scoped rest is the two accumulators at some contents
    beside the other scoped buffers. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ rest1 (F := F) c ∗ (∃ r, prngReg c r)) := by
  unfold Pipeline.ΦA rest1; rw [scopedRest1_eq]; simp only [scM1_0, scM1_1, owns_whole]
  refine eq_of_entails ?_ ?_
  · iintro ⟨⟨A0, A1, A2, A3, A4, A5, A6, A7, A8, A9, A10, A11, A12, A13, A14, A15, A16, A17, A18, A19, A20, A21⟩, Hg⟩
    isplitl [A7]; · iexact A7
    isplitl [A8]; · iexact A8
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    iexact A21
  · iintro ⟨A7, A8, ⟨A0, A1, A2, A3, A4, A5, A6, A9, A10, A11, A12, A13, A14, A15, A16, A17, A18, A19, A20, A21⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    iexact A21

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-! ## What is carried from point to point -/

/-- The two accumulators after point `n`: at the first point the column sums (and column sums of squares) of the
    rectified block over the zero vectors; afterwards those of the point's block over what the point before left. -/
def acc1 (c : Dev nD) : (n : ℕ) → n < cfg1.N → Vec F S1x128 .f32 × Vec F S1x128 .f32
  | 0, hn => (k1_pay4 (block1 V c 0 ⟨0, hn⟩) k1_pay1, k1_pay5 (block1 V c 0 ⟨0, hn⟩) k1_pay2)
  | n + 1, hn => (k1_pay4 (block1 V c 0 ⟨n + 1, hn⟩) (acc1 c n (Nat.lt_of_succ_lt hn)).1,
      k1_pay5 (block1 V c 0 ⟨n + 1, hn⟩) (acc1 c n (Nat.lt_of_succ_lt hn)).2)

/-- After point `n`: the three output buffers (the rectified block; the two sums, which only the last point stores and
    writes back — elsewhere these two components are not consulted) and the two accumulators. -/
def carried1 (c : Dev nD) (n : ℕ) (hn : n < cfg1.N) :
    (Vec F S5000x128 .f32 × Vec F S1x128 .f32 × Vec F S1x128 .f32) × (Vec F S1x128 .f32 × Vec F S1x128 .f32) :=
  ((k1_pay3 (block1 V c 0 ⟨n, hn⟩), (acc1 V c n hn).1, (acc1 V c n hn).2), acc1 V c n hn)

/-- At the first point: the accumulators are the block's sums over the zero vectors. -/
theorem carried1_A (c : Dev nD) (t : Fin cfg1.N) (h0 : t.val = 0) (h1 : ¬t.val = 9) :
    carried1 V c t.val t.isLt
      = ((k1_pay3 (block1 V c 0 t), k1_pay4 (block1 V c 0 t) k1_pay1, k1_pay5 (block1 V c 0 t) k1_pay2),
         (k1_pay4 (block1 V c 0 t) k1_pay1, k1_pay5 (block1 V c 0 t) k1_pay2)) := by
  obtain ⟨n, hn⟩ := t
  cases n with
  | zero => rfl
  | succ n => exact absurd h0 (Nat.succ_ne_zero n)

/-- At a middle point: the accumulators are the block's sums over what the point before left. -/
theorem carried1_B (c : Dev nD) (t : Fin cfg1.N) (h0 : ¬t.val = 0) (h1 : ¬t.val = 9) :
    carried1 V c t.val t.isLt
      = ((k1_pay3 (block1 V c 0 t),
          k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2),
         (k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2)) := by
  obtain ⟨n, hn⟩ := t
  cases n with
  | zero => exact absurd rfl h0
  | succ n => rfl

/-- At the last point: as at a middle point, and output buffers 2 and 3 hold the accumulators just written. -/
theorem carried1_C (c : Dev nD) (t : Fin cfg1.N) (h0 : ¬t.val = 0) (h1 : t.val = 9) :
    carried1 V c t.val t.isLt
      = ((k1_pay3 (block1 V c 0 t),
          k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2),
         (k1_pay4 (block1 V c 0 t) (carried1 V c (t.val - 1) (Nat.lt_of_le_of_lt (Nat.sub_le _ _) t.isLt)).2.1,
          k1_pay5 (block1 V c 0 t) (carried1 V c (t.val - 1) (Nat.lt_of_le_of_lt (Nat.sub_le _ _) t.isLt)).2.2)) := by
  obtain ⟨n, hn⟩ := t
  cases n with
  | zero => exact absurd rfl h0
  | succ n => rfl

/-! ## The invariant -/

/-- Before position `n`: at the region's entry the class invariant (every scoped buffer at some contents); afterwards
    the two accumulators at what the point before left, the other scoped buffers at some contents, and the generator
    register at some state. -/
def Phi1 (c : Dev nD) : (n : ℕ) → n ≤ cfg1.N → sProp 𝕄
  | 0, _ => Pipeline.ΦA spec1 c
  | n + 1, hn => iprop(owns (c : Thread nD τ) scM1_0 fullShare (carried1 V c n hn).2.1 ∗ owns (c : Thread nD τ) scM1_1 fullShare (carried1 V c n hn).2.2
      ∗ rest1 (F := F) c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1_0 fullShare (carried1 V c n hn).2.1 ∗ owns (c : Thread nD τ) scM1_1 fullShare (carried1 V c n hn).2.2
      ∗ rest1 (F := F) c ∗ (∃ r, prngReg c r)) := rfl

theorem Phi1_pos (c : Dev nD) (n : ℕ) (h : n ≤ cfg1.N) (hz : n ≠ 0) :
    Phi1 V c n h = iprop(owns (c : Thread nD τ) scM1_0 fullShare (carried1 V c (n - 1) (by omega)).2.1 ∗ owns (c : Thread nD τ) scM1_1 fullShare (carried1 V c (n - 1) (by omega)).2.2
      ∗ rest1 (F := F) c ∗ (∃ r, prngReg c r)) := by
  cases n with
  | zero => exact absurd rfl hz
  | succ n => rfl

/-! ## The proof data -/

/-- The proof data of the region on core `c`: the arrays as the region finds them; after the body at point `t` the
    input's buffer at its block and the outputs' at `carried1`'s components; the invariant `Phi1`; nothing owed;
    full shares. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => (carried1 V c t.val t.isLt).1.1
    | ⟨2, _⟩ => (carried1 V c t.val t.isLt).1.2.1
    | ⟨3, _⟩ => (carried1 V c t.val t.isLt).1.2.2
  Φ t := Phi1 V c t.val (Nat.le_of_lt_succ t.isLt)
  q _ := fullShare
  owed _ := 0

theorem data1_A (c : Dev nD) (w : Fin cfg1.W) : (data1 V c).A w = V c (Pipeline.arrRef spec1 w) := by
  dsimp only [data1]

theorem Phi1_castSucc (c : Dev nD) (t : Fin cfg1.N) :
    (data1 V c).Φ t.castSucc = Phi1 V c t.val (Nat.le_of_lt t.isLt) := by
  dsimp only [data1]; simp only [Fin.coe_castSucc]

theorem data1_after_0 (c : Dev nD) (t : Fin cfg1.N) : (data1 V c).after 0 t = block1 V c 0 t := by dsimp only [data1]
theorem data1_after_1 (c : Dev nD) (t : Fin cfg1.N) : (data1 V c).after 1 t = (carried1 V c t.val t.isLt).1.1 := by dsimp only [data1]
theorem data1_after_2 (c : Dev nD) (t : Fin cfg1.N) : (data1 V c).after 2 t = (carried1 V c t.val t.isLt).1.2.1 := by dsimp only [data1]
theorem data1_after_3 (c : Dev nD) (t : Fin cfg1.N) : (data1 V c).after 3 t = (carried1 V c t.val t.isLt).1.2.2 := by dsimp only [data1]

theorem before1_0 (c : Dev nD) (t : Fin cfg1.N) (d) : (data1 V c).before 0 t d = block1 V c 0 t :=
  before1_0_of V (data1 V c) (data1_A V c 0) (data1_after_0 V c) t d

/-! ## The body obligation -/

def bodyPre1 (c : Dev nD) (t : Fin cfg1.N) : sProp 𝕄 :=
  iprop((data1 V c).Φ t.castSucc ∗ (data1 V c).owesAt () t.castSucc
    ∗ (∃ d, owns (c : Thread nD τ) (ms1_0 t) fullShare ((data1 V c).before 0 t d))
    ∗ (∃ d, owns (c : Thread nD τ) (ms1_1 t) fullShare ((data1 V c).before 1 t d))
    ∗ (∃ d, owns (c : Thread nD τ) (ms1_2 t) fullShare ((data1 V c).before 2 t d))
    ∗ (∃ d, owns (c : Thread nD τ) (ms1_3 t) fullShare ((data1 V c).before 3 t d)))

def bodyPost1 (c : Dev nD) (t : Fin cfg1.N) : sProp 𝕄 :=
  iprop((data1 V c).Φ t.succ ∗ (data1 V c).owesAt () t.succ
    ∗ (data1 V c).leavesExact 0 t
    ∗ (data1 V c).leavesExact 1 t
    ∗ (data1 V c).leavesExact 2 t
    ∗ (data1 V c).leavesExact 3 t)

set_option maxHeartbeats 4800000 in
/-- The body at any point, by the point's case: the input's memref holds its block; the invariant hands the body the two
    accumulators (at anything at the first point, at what the point before left afterwards) and takes them back at this
    point's contents; the other scoped buffers, the generator register and the core's tallies pass through; outputs 2 and
    3 are handed back as found except at the last point, where they receive the accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (data1 V c).owesAt () t.succ = (data1 V c).owesAt () t.castSucc from rfl]
  rw [show (data1 V c).Φ t.succ = Phi1 V c (t.val + 1) t.isLt from rfl, Phi1_succ]
  have hN : t.val < 10 := lt_of_lt_of_eq t.isLt (show cfg1.N = 10 from N_1)
  rw [show (data1 V c).leavesExact 0 t = owns (c : Thread nD τ) (ms1_0 t) fullShare ((data1 V c).after 0 t) from by
      unfold Dat.leavesExact; rw [liveAt1_0 t], data1_after_0]
  rw [show (data1 V c).leavesExact 1 t = owns (c : Thread nD τ) (ms1_1 t) fullShare ((data1 V c).after 1 t) from by
      unfold Dat.leavesExact; rw [liveAt1_1 t], data1_after_1]
  by_cases h0 : t.val = 0
  · have h1 : ¬t.val = 9 := by omega
    have hc0 : cond1_0 (grid1.coords t) := (hcond1_0 t).mpr h0
    have hc1 : ¬cond1_1 (grid1.coords t) := fun h => h1 ((hcond1_1 t).mp h)
    rw [Dat.leavesExact_idle (data1 V c) 2 t (idleAt1_2 t hc1) (noFlush1_2 t hc1),
      Dat.leavesExact_idle (data1 V c) 3 t (idleAt1_3 t hc1) (noFlush1_3 t hc1)]
    rw [carried1_A V c t h0 h1]; dsimp only
    rw [Phi1_castSucc V c t, Phi1_zero V c _ _ h0, PhiA1_eq]
    iintro ⟨⟨HS0, HS1, Hr, Hg⟩, Ho, ⟨%d0, H0⟩, ⟨%d1, H1⟩, ⟨%d2, H2⟩, ⟨%d3, H3⟩⟩
    iapply (sound_kernel1_A c (grid1.coords t) _ _ _ _ _ _ _ _ _ _ _ _ hc0 hc1 (block1 V c 0 t) _ _ Set.univ _)
    isplitl [H0]; · iexact H0
    isplitl [H1]; · iexists _; iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexists _; iexact H2
    iexists _; iexact H3
  · have hc0 : ¬cond1_0 (grid1.coords t) := fun h => h0 ((hcond1_0 t).mp h)
    by_cases h1 : t.val = 9
    · have hc1 : cond1_1 (grid1.coords t) := (hcond1_1 t).mpr h1
      rw [show (data1 V c).leavesExact 2 t = owns (c : Thread nD τ) (ms1_2 t) fullShare ((data1 V c).after 2 t) from by
          unfold Dat.leavesExact; rw [liveAt1_2 t hc1], data1_after_2]
      rw [show (data1 V c).leavesExact 3 t = owns (c : Thread nD τ) (ms1_3 t) fullShare ((data1 V c).after 3 t) from by
          unfold Dat.leavesExact; rw [liveAt1_3 t hc1], data1_after_3]
      rw [carried1_C V c t h0 h1]; dsimp only
      rw [Phi1_castSucc V c t, Phi1_pos V c _ _ h0]
      iintro ⟨⟨HS0, HS1, Hr, Hg⟩, Ho, ⟨%d0, H0⟩, ⟨%d1, H1⟩, ⟨%d2, H2⟩, ⟨%d3, H3⟩⟩
      iapply (sound_kernel1_C c (grid1.coords t) _ _ _ _ _ _ _ _ _ _ _ _ hc0 hc1 (block1 V c 0 t) _ _ Set.univ _)
      isplitl [H0]; · iexact H0
      isplitl [H1]; · iexists _; iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (data1 V c) 2 t (idleAt1_2 t hc1) (noFlush1_2 t hc1),
        Dat.leavesExact_idle (data1 V c) 3 t (idleAt1_3 t hc1) (noFlush1_3 t hc1)]
      rw [carried1_B V c t h0 h1]; dsimp only
      rw [Phi1_castSucc V c t, Phi1_pos V c _ _ h0]
      iintro ⟨⟨HS0, HS1, Hr, Hg⟩, Ho, ⟨%d0, H0⟩, ⟨%d1, H1⟩, ⟨%d2, H2⟩, ⟨%d3, H3⟩⟩
      iapply (sound_kernel1_B c (grid1.coords t) _ _ _ _ _ _ _ _ _ _ _ _ hc0 hc1 (block1 V c 0 t) _ _ _ _ Set.univ _)
      isplitl [H0]; · iexact H0
      isplitl [H1]; · iexists _; iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem obligation1 (c : Dev nD) : BodyObligation (data1 (F := F) V c) (defs₀ (F := F)) Variants.none () Set.univ := fun t => by
  rw [bigSep_W1, bigSep_W1]
  exact sound_body1 V c t

/-! ## The invariant's two ends -/

/-- What the launch hands the region is the invariant before the first point. -/
theorem enter1 (c : Dev nD) : Pipeline.ΦA spec1 c ⊢ (data1 V c).Φ 0 := by
  rw [show (data1 V c).Φ 0 = Phi1 V c 0 (Nat.zero_le _) from rfl, Phi1_zero V c 0 _ rfl]
  try exact Idealize.SL.BI.Entails.refl _

/-- After any point but the first the invariant gives the class invariant back: what the accumulators hold is forgotten. -/
theorem Phi1_out (c : Dev nD) (t : Fin (cfg1.N + 1)) (ht : t.val ≠ 0) : (data1 V c).Φ t ⊢ Pipeline.ΦA spec1 c := by
  rw [show (data1 V c).Φ t = Phi1 V c t.val (Nat.le_of_lt_succ t.isLt) from rfl, Phi1_pos V c _ _ ht, PhiA1_eq]
  iintro ⟨HS0, HS1, Hr, Hg⟩
  isplitl [HS0]; · iexists _; iexact HS0
  isplitl [HS1]; · iexists _; iexact HS1
  isplitl [Hr]; · iexact Hr
  iexact Hg

/-- The same after the last point. -/
theorem leave1 (c : Dev nD) : (data1 V c).Φ (Fin.last cfg1.N) ⊢ Pipeline.ΦA spec1 c :=
  Phi1_out V c _ (by rw [Fin.val_last]; have : cfg1.N = 10 := N_1; omega)

end Region1

end Cert.KernelIdeal.Hand

end
-- ==== Proof.Ideal.Region2.lean ====
/- Region 2 of @main, kernel half, at any float interpretation `F`.

   Everything is stated at a parameter `V`: the contents of the core's buffers at the moment the region is
   entered.  A window's block at a grid point is what its index map selects out of its array as `V` holds it.
   The body reads every input block whole and overwrites its output buffer whole with one value computed
   from those blocks, so the buffer it leaves is a closed function of the input blocks. -/
import proofs.«125197_j20590073217153_1_alg».proof.Proof.Gen.KernelIdeal.Launch
import proofs.«125197_j20590073217153_1_alg».proof.Proof.Gen.KernelIdeal.Skeleton
import proofs.«125197_j20590073217153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## Blocks -/

/-- The block of window `w` at grid point `t`: the part of the window's array, as `V` holds it, that the
    window's index map selects at `t`. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input buffer holds its block

  For proof data whose array for the window is `V`'s and whose body hands the block back untouched, the
  buffer the body is given holds the block at every point: where the window was fetched, because the fetch
  put it there; where it was not, because the block index has not moved since the last fetch.  Window 0 moves
  with the grid and is fetched at every point; windows 1 to 5 have a constant index map, are fetched once at
  the first point, and hold that same block at all ten points. -/

theorem holds2_0 {c : Dev nD} (D : Dat τ (Elt F) Unit ℕ (UR sig nD τ) ℕ cfg2 c) (hA : D.A 0 = V c (Pipeline.arrRef spec2 0))
    (hkept : ∀ t, D.after 0 t = block2 V c 0 t) (t : Fin cfg2.N) (d) : D.before 0 t d = block2 V c 0 t := by
  refine (D.before_in_eq_fetched 0 rfl (fun _ => rfl) (fun _ _ _ => rfl) (fun s => ?_) t d).trans ?_
  · rw [hkept]; unfold Dat.blockOf block2; rw [hA]; try rfl
  · unfold Dat.fetched Dat.blockOf block2; rw [hA]; try rfl

theorem holds2_1 {c : Dev nD} (D : Dat τ (Elt F) Unit ℕ (UR sig nD τ) ℕ cfg2 c) (hA : D.A 1 = V c (Pipeline.arrRef spec2 1))
    (hkept : ∀ t, D.after 1 t = block2 V c 1 t) (t : Fin cfg2.N) (d) : D.before 1 t d = block2 V c 1 t := by
  refine (D.before_in_eq_fetched 1 rfl (fun _ => rfl) (fun _ _ _ => rfl) (fun s => ?_) t d).trans ?_
  · rw [hkept]; unfold Dat.blockOf block2; rw [hA]; try rfl
  · unfold Dat.fetched Dat.blockOf block2; rw [hA]; try rfl

theorem holds2_2 {c : Dev nD} (D : Dat τ (Elt F) Unit ℕ (UR sig nD τ) ℕ cfg2 c) (hA : D.A 2 = V c (Pipeline.arrRef spec2 2))
    (hkept : ∀ t, D.after 2 t = block2 V c 2 t) (t : Fin cfg2.N) (d) : D.before 2 t d = block2 V c 2 t := by
  refine (D.before_in_eq_fetched 2 rfl (fun _ => rfl) (fun _ _ _ => rfl) (fun s => ?_) t d).trans ?_
  · rw [hkept]; unfold Dat.blockOf block2; rw [hA]; try rfl
  · unfold Dat.fetched Dat.blockOf block2; rw [hA]; try rfl

theorem holds2_3 {c : Dev nD} (D : Dat τ (Elt F) Unit ℕ (UR sig nD τ) ℕ cfg2 c) (hA : D.A 3 = V c (Pipeline.arrRef spec2 3))
    (hkept : ∀ t, D.after 3 t = block2 V c 3 t) (t : Fin cfg2.N) (d) : D.before 3 t d = block2 V c 3 t := by
  refine (D.before_in_eq_fetched 3 rfl (fun _ => rfl) (fun _ _ _ => rfl) (fun s => ?_) t d).trans ?_
  · rw [hkept]; unfold Dat.blockOf block2; rw [hA]; try rfl
  · unfold Dat.fetched Dat.blockOf block2; rw [hA]; try rfl

theorem holds2_4 {c : Dev nD} (D : Dat τ (Elt F) Unit ℕ (UR sig nD τ) ℕ cfg2 c) (hA : D.A 4 = V c (Pipeline.arrRef spec2 4))
    (hkept : ∀ t, D.after 4 t = block2 V c 4 t) (t : Fin cfg2.N) (d) : D.before 4 t d = block2 V c 4 t := by
  refine (D.before_in_eq_fetched 4 rfl (fun _ => rfl) (fun _ _ _ => rfl) (fun s => ?_) t d).trans ?_
  · rw [hkept]; unfold Dat.blockOf block2; rw [hA]; try rfl
  · unfold Dat.fetched Dat.blockOf block2; rw [hA]; try rfl

theorem holds2_5 {c : Dev nD} (D : Dat τ (Elt F) Unit ℕ (UR sig nD τ) ℕ cfg2 c) (hA : D.A 5 = V c (Pipeline.arrRef spec2 5))
    (hkept : ∀ t, D.after 5 t = block2 V c 5 t) (t : Fin cfg2.N) (d) : D.before 5 t d = block2 V c 5 t := by
  refine (D.before_in_eq_fetched 5 rfl (fun _ => rfl) (fun _ _ _ => rfl) (fun s => ?_) t d).trans ?_
  · rw [hkept]; unfold Dat.blockOf block2; rw [hA]; try rfl
  · unfold Dat.fetched Dat.blockOf block2; rw [hA]; try rfl

/-! ## The rectangles the body reads and writes through: each buffer, whole -/

abbrev whole2_a : Rect S5000x128 := Rect.unit (s := S5000x128) ![0, 0] S5000x128.size inb_S5000x128_S5000x128_0_0
abbrev whole2_v : Rect S1x128 := Rect.unit (s := S1x128) ![0, 0] S1x128.size inb_S1x128_S1x128_0_0

/-! ## What the body leaves in the output buffer -/

/-- The 5000×128 output buffer after the body, as a function of the six input blocks in window order (one
    5000×128 block and five 1×128 rows): the single store's value, laid over the whole buffer.  The stored
    value reads the rows in the order the body loads them: window 5's first, then windows 1 to 4. -/
def stored2 (x0 : Vec F S5000x128 .f32) (x1 : Vec F S1x128 .f32) (x2 : Vec F S1x128 .f32) (x3 : Vec F S1x128 .f32)
    (x4 : Vec F S1x128 .f32) (x5 : Vec F S1x128 .f32) : Vec F S5000x128 .f32 :=
  View.canon [⟨whole2_a, k2_pay1 (View.ld x0 whole2_a) (View.ld x5 whole2_v) (View.ld x1 whole2_v) (View.ld x2 whole2_v)
    (View.ld x3 whole2_v) (View.ld x4 whole2_v)⟩]

/-- The one stored rectangle is the whole buffer, so every index of the buffer lies under it. -/
theorem covered2 (p : Vec F S5000x128 .f32) (y : S5000x128.Idx) :
    ∃ pc ∈ ([⟨whole2_a, p⟩] : List (View.Piece (Elt F) S5000x128 .f32)), y ∈ pc.1.set :=
  View.cover_of_tiled [⟨whole2_a, p⟩] S5000x128.size (by rfl) y

/-! ## The body's triple -/

set_option maxHeartbeats 1000000 in
/-- Run on whole buffers — the six inputs reading `x0` … `x5`, the output holding anything — the body
    terminates with the inputs unchanged and the output reading `stored2 x0 … x5`. -/
theorem triple2 (c : Dev nD) (E : Set ℕ) (i : grid2.Coords)
    (a0 : Memref sig .tc .vmem S5000x128 .f32) (w0 : a0.IsWhole) (a1 : Memref sig .tc .vmem S1x128 .f32) (w1 : a1.IsWhole)
    (a2 : Memref sig .tc .vmem S1x128 .f32) (w2 : a2.IsWhole) (a3 : Memref sig .tc .vmem S1x128 .f32) (w3 : a3.IsWhole)
    (a4 : Memref sig .tc .vmem S1x128 .f32) (w4 : a4.IsWhole) (a5 : Memref sig .tc .vmem S1x128 .f32) (w5 : a5.IsWhole)
    (a6 : Memref sig .tc .vmem S5000x128 .f32) (w6 : a6.IsWhole)
    (x0 : Vec F S5000x128 .f32) (x1 : Vec F S1x128 .f32) (x2 : Vec F S1x128 .f32) (x3 : Vec F S1x128 .f32)
    (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (stored2 x0 x1 x2 x3 x4 x5)) -∗ K ⟨⟩))
      ⊢ wp frame (wpE (defs₀ (F := F)) Variants.none c none) E
          (cc2__normalize_kernel i a0 w0 a1 w1 a2 w2 a3 w3 a4 w4 a5 w5 a6 w6) K := by
  simp only [cc2__normalize_kernel_eq_skeleton]; unfold cc2__normalize_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0; subst e1; subst e2; subst e3; subst e4; subst e5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  ipureintro
  exact View.read_writes_eq_canon _ _ _ (covered2 _)

/-! ## The proof data -/

/-- The region's proof data on core `c`: every array as `V` holds it; after the body at point `t` each input
    buffer still at its block and the output buffer at `stored2` of the six blocks; the invariant that of a
    body which touches nothing but its windows; full shares; nothing owed. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => block2 V c 3 t
    | ⟨4, _⟩ => block2 V c 4 t
    | ⟨5, _⟩ => block2 V c 5 t
    | ⟨6, _⟩ => stored2 (block2 V c 0 t) (block2 V c 1 t) (block2 V c 2 t) (block2 V c 3 t) (block2 V c 4 t) (block2 V c 5 t)
  Φ _ := Pipeline.ΦA spec2 c
  q _ := fullShare
  owed _ := 0

theorem data2_A (c : Dev nD) (w : Fin cfg2.W) : (data2 V c).A w = V c (Pipeline.arrRef spec2 w) := by
  dsimp only [data2]

theorem data2_after_0 (c : Dev nD) (t : Fin cfg2.N) : (data2 V c).after 0 t = block2 V c 0 t := by dsimp only [data2]
theorem data2_after_1 (c : Dev nD) (t : Fin cfg2.N) : (data2 V c).after 1 t = block2 V c 1 t := by dsimp only [data2]
theorem data2_after_2 (c : Dev nD) (t : Fin cfg2.N) : (data2 V c).after 2 t = block2 V c 2 t := by dsimp only [data2]
theorem data2_after_3 (c : Dev nD) (t : Fin cfg2.N) : (data2 V c).after 3 t = block2 V c 3 t := by dsimp only [data2]
theorem data2_after_4 (c : Dev nD) (t : Fin cfg2.N) : (data2 V c).after 4 t = block2 V c 4 t := by dsimp only [data2]
theorem data2_after_5 (c : Dev nD) (t : Fin cfg2.N) : (data2 V c).after 5 t = block2 V c 5 t := by dsimp only [data2]
theorem data2_after_6 (c : Dev nD) (t : Fin cfg2.N) :
    (data2 V c).after 6 t = stored2 (block2 V c 0 t) (block2 V c 1 t) (block2 V c 2 t) (block2 V c 3 t) (block2 V c 4 t) (block2 V c 5 t) := by
  dsimp only [data2]

theorem data2_before_0 (c : Dev nD) (t : Fin cfg2.N) (d) : (data2 V c).before 0 t d = block2 V c 0 t :=
  holds2_0 V (data2 V c) (data2_A V c 0) (data2_after_0 V c) t d
theorem data2_before_1 (c : Dev nD) (t : Fin cfg2.N) (d) : (data2 V c).before 1 t d = block2 V c 1 t :=
  holds2_1 V (data2 V c) (data2_A V c 1) (data2_after_1 V c) t d
theorem data2_before_2 (c : Dev nD) (t : Fin cfg2.N) (d) : (data2 V c).before 2 t d = block2 V c 2 t :=
  holds2_2 V (data2 V c) (data2_A V c 2) (data2_after_2 V c) t d
theorem data2_before_3 (c : Dev nD) (t : Fin cfg2.N) (d) : (data2 V c).before 3 t d = block2 V c 3 t :=
  holds2_3 V (data2 V c) (data2_A V c 3) (data2_after_3 V c) t d
theorem data2_before_4 (c : Dev nD) (t : Fin cfg2.N) (d) : (data2 V c).before 4 t d = block2 V c 4 t :=
  holds2_4 V (data2 V c) (data2_A V c 4) (data2_after_4 V c) t d
theorem data2_before_5 (c : Dev nD) (t : Fin cfg2.N) (d) : (data2 V c).before 5 t d = block2 V c 5 t :=
  holds2_5 V (data2 V c) (data2_A V c 5) (data2_after_5 V c) t d

/-! ## The body obligation -/

/-- What the pipeline hands the body at point `t`: the invariant, what is owed, and each window's current
    buffer at what it held before the body. -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d))
    ∗ (∃ d, owns (c : Thread nD τ) (st2_6 t) fullShare ((data2 V c).before 6 t d)))

/-- What it must hand back: the same, each buffer at what the proof data says the body leaves. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t)
    ∗ owns (c : Thread nD τ) (st2_6 t) fullShare ((data2 V c).after 6 t))

/-- The body at any point: the input buffers hold their blocks, so the triple applies at those blocks; the
    invariant and what is owed are not read and pass through. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [data2_before_0, data2_before_1, data2_before_2, data2_before_3, data2_before_4, data2_before_5]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5, data2_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple2 c Set.univ _ _ _ _ _ _ _ _ _ _ _ _ _ _ _ (block2 V c 0 t) (block2 V c 1 t) (block2 V c 2 t) (block2 V c 3 t) (block2 V c 4 t) (block2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region, at every point. -/
theorem obligation2 (c : Dev nD) : BodyObligation (data2 (F := F) V c) (defs₀ (F := F)) Variants.none () Set.univ := fun t => by
  rw [bigSep_W2, bigSep_W2]
  exact body2 V c t

end Cert.KernelIdeal.Hand

end
-- ==== Proof.Ideal.Region3.lean ====
/- Region 3 of @main, kernel half, at any float interpretation `F`.

   Everything is stated at a parameter `V`: the contents of the core's buffers at the moment the region is
   entered.  A window's block at a grid point is what its index map selects out of its array as `V` holds it.
   The body reads every input block whole and overwrites its output buffer whole with one value computed
   from those blocks, so the buffer it leaves is a closed function of the input blocks. -/
import proofs.«125197_j20590073217153_1_alg».proof.Proof.Gen.KernelIdeal.Launch
import proofs.«125197_j20590073217153_1_alg».proof.Proof.Gen.KernelIdeal.Skeleton
import proofs.«125197_j20590073217153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents on entry to the region
variable (V : (c : Dev nD) → (b : Ref sig .tc) → Buf (Elt F) ((c : Thread nD τ).loc b))

/-! ## Blocks -/

/-- The block of window `w` at grid point `t`: the part of the window's array, as `V` holds it, that the
    window's index map selects at `t`. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input buffer holds its block

  For proof data whose array for the window is `V`'s and whose body hands the block back untouched, the
  buffer the body is given holds the block at every point: where the window was fetched, because the fetch
  put it there; where it was not, because the block index has not moved since the last fetch. -/

theorem holds3_0 {c : Dev nD} (D : Dat τ (Elt F) Unit ℕ (UR sig nD τ) ℕ cfg3 c) (hA : D.A 0 = V c (Pipeline.arrRef spec3 0))
    (hkept : ∀ t, D.after 0 t = block3 V c 0 t) (t : Fin cfg3.N) (d) : D.before 0 t d = block3 V c 0 t := by
  refine (D.before_in_eq_fetched 0 rfl (fun _ => rfl) (fun _ _ _ => rfl) (fun s => ?_) t d).trans ?_
  · rw [hkept]; unfold Dat.blockOf block3; rw [hA]; try rfl
  · unfold Dat.fetched Dat.blockOf block3; rw [hA]; try rfl

theorem holds3_1 {c : Dev nD} (D : Dat τ (Elt F) Unit ℕ (UR sig nD τ) ℕ cfg3 c) (hA : D.A 1 = V c (Pipeline.arrRef spec3 1))
    (hkept : ∀ t, D.after 1 t = block3 V c 1 t) (t : Fin cfg3.N) (d) : D.before 1 t d = block3 V c 1 t := by
  refine (D.before_in_eq_fetched 1 rfl (fun _ => rfl) (fun _ _ _ => rfl) (fun s => ?_) t d).trans ?_
  · rw [hkept]; unfold Dat.blockOf block3; rw [hA]; try rfl
  · unfold Dat.fetched Dat.blockOf block3; rw [hA]; try rfl

theorem holds3_2 {c : Dev nD} (D : Dat τ (Elt F) Unit ℕ (UR sig nD τ) ℕ cfg3 c) (hA : D.A 2 = V c (Pipeline.arrRef spec3 2))
    (hkept : ∀ t, D.after 2 t = block3 V c 2 t) (t : Fin cfg3.N) (d) : D.before 2 t d = block3 V c 2 t := by
  refine (D.before_in_eq_fetched 2 rfl (fun _ => rfl) (fun _ _ _ => rfl) (fun s => ?_) t d).trans ?_
  · rw [hkept]; unfold Dat.blockOf block3; rw [hA]; try rfl
  · unfold Dat.fetched Dat.blockOf block3; rw [hA]; try rfl

/-! ## The rectangles the body reads and writes through: each buffer, whole -/

abbrev whole3_x : Rect S128x128 := Rect.unit (s := S128x128) ![0, 0] S128x128.size inb_S128x128_S128x128_0_0
abbrev whole3_w1 : Rect S64x128 := Rect.unit (s := S64x128) ![0, 0] S64x128.size inb_S64x128_S64x128_0_0
abbrev whole3_w2 : Rect S15x64 := Rect.unit (s := S15x64) ![0, 0] S15x64.size inb_S15x64_S15x64_0_0
abbrev whole3_y : Rect S128x15 := Rect.unit (s := S128x15) ![0, 0] S128x15.size inb_S128x15_S128x15_0_0

/-! ## What the body leaves in the output buffer -/

/-- The 128×15 output buffer after the body, as a function of the three input blocks (128×128, 64×128, 15×64):
    the single store's value, laid over the whole buffer. -/
def stored3 (x0 : Vec F S128x128 .f32) (x1 : Vec F S64x128 .f32) (x2 : Vec F S15x64 .f32) : Vec F S128x15 .f32 :=
  View.canon [⟨whole3_y, k3_pay1 (View.ld x0 whole3_x) (View.ld x1 whole3_w1) (View.ld x2 whole3_w2)⟩]

/-- The one stored rectangle is the whole buffer, so every index of the buffer lies under it. -/
theorem covered3 (p : Vec F S128x15 .f32) (y : S128x15.Idx) :
    ∃ pc ∈ ([⟨whole3_y, p⟩] : List (View.Piece (Elt F) S128x15 .f32)), y ∈ pc.1.set :=
  View.cover_of_tiled [⟨whole3_y, p⟩] S128x15.size (by rfl) y

/-! ## The body's triple -/

set_option maxHeartbeats 1000000 in
/-- Run on whole buffers — the three inputs reading `x0`, `x1`, `x2`, the output holding anything — the body
    terminates with the inputs unchanged and the output reading `stored3 x0 x1 x2`. -/
theorem triple3 (c : Dev nD) (E : Set ℕ) (i : grid3.Coords)
    (a0 : Memref sig .tc .vmem S128x128 .f32) (w0 : a0.IsWhole) (a1 : Memref sig .tc .vmem S64x128 .f32) (w1 : a1.IsWhole)
    (a2 : Memref sig .tc .vmem S15x64 .f32) (w2 : a2.IsWhole) (a3 : Memref sig .tc .vmem S128x15 .f32) (w3 : a3.IsWhole)
    (x0 : Vec F S128x128 .f32) (x1 : Vec F S64x128 .f32) (x2 : Vec F S15x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (stored3 x0 x1 x2)) -∗ K ⟨⟩))
      ⊢ wp frame (wpE (defs₀ (F := F)) Variants.none c none) E (cc3__mlp_kernel i a0 w0 a1 w1 a2 w2 a3 w3) K := by
  simp only [cc3__mlp_kernel_eq_skeleton]; unfold cc3__mlp_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covered3 _)

/-! ## The proof data -/

/-- The region's proof data on core `c`: every array as `V` holds it; after the body at point `t` each input
    buffer still at its block and the output buffer at `stored3` of the three blocks; the invariant that of a
    body which touches nothing but its windows; full shares; nothing owed. -/
def data3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => stored3 (block3 V c 0 t) (block3 V c 1 t) (block3 V c 2 t)
  Φ _ := Pipeline.ΦA spec3 c
  q _ := fullShare
  owed _ := 0

theorem data3_A (c : Dev nD) (w : Fin cfg3.W) : (data3 V c).A w = V c (Pipeline.arrRef spec3 w) := by
  dsimp only [data3]

theorem data3_after_0 (c : Dev nD) (t : Fin cfg3.N) : (data3 V c).after 0 t = block3 V c 0 t := by dsimp only [data3]
theorem data3_after_1 (c : Dev nD) (t : Fin cfg3.N) : (data3 V c).after 1 t = block3 V c 1 t := by dsimp only [data3]
theorem data3_after_2 (c : Dev nD) (t : Fin cfg3.N) : (data3 V c).after 2 t = block3 V c 2 t := by dsimp only [data3]
theorem data3_after_3 (c : Dev nD) (t : Fin cfg3.N) :
    (data3 V c).after 3 t = stored3 (block3 V c 0 t) (block3 V c 1 t) (block3 V c 2 t) := by dsimp only [data3]

theorem data3_before_0 (c : Dev nD) (t : Fin cfg3.N) (d) : (data3 V c).before 0 t d = block3 V c 0 t :=
  holds3_0 V (data3 V c) (data3_A V c 0) (data3_after_0 V c) t d
theorem data3_before_1 (c : Dev nD) (t : Fin cfg3.N) (d) : (data3 V c).before 1 t d = block3 V c 1 t :=
  holds3_1 V (data3 V c) (data3_A V c 1) (data3_after_1 V c) t d
theorem data3_before_2 (c : Dev nD) (t : Fin cfg3.N) (d) : (data3 V c).before 2 t d = block3 V c 2 t :=
  holds3_2 V (data3 V c) (data3_A V c 2) (data3_after_2 V c) t d

/-! ## The body obligation -/

/-- What the pipeline hands the body at point `t`: the invariant, what is owed, and each window's current
    buffer at what it held before the body. -/
def pre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d)))

/-- What it must hand back: the same, each buffer at what the proof data says the body leaves. -/
def post3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t))

/-- The body at any point: the input buffers hold their blocks, so the triple applies at those blocks; the
    invariant and what is owed are not read and pass through. -/
theorem body3 (c : Dev nD) (t : Fin cfg3.N) :
    pre3 V c t ⊢ wp frame (wpE (defs₀ (F := F)) Variants.none c none) Set.univ (bodyAt3 t) (fun _ => post3 V c t) := by
  unfold pre3 post3 bodyAt3
  simp only [data3_before_0, data3_before_1, data3_before_2]
  rw [show (data3 V c).Φ t.succ = (data3 V c).Φ t.castSucc from rfl,
    show (data3 V c).owesAt () t.succ = (data3 V c).owesAt () t.castSucc from rfl,
    data3_after_0, data3_after_1, data3_after_2, data3_after_3]
  iintro ⟨HΦ, Ho, ⟨%d0, H0⟩, ⟨%d1, H1⟩, ⟨%d2, H2⟩, ⟨%d3, H3⟩⟩
  iapply (triple3 c Set.univ _ _ _ _ _ _ _ _ _ (block3 V c 0 t) (block3 V c 1 t) (block3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem obligation3 (c : Dev nD) : BodyObligation (data3 (F := F) V c) (defs₀ (F := F)) Variants.none () Set.univ := fun t => by
  rw [bigSep_W3, bigSep_W3]
  exact body3 V c t

end Cert.KernelIdeal.Hand

end
-- ==== Proof.Ideal.Run.lean ====
/-
  The whole program as a chain of fourteen segments: ten stretches of host operations and four kernel regions.
  Between two segments a core holds every unscoped buffer at a known valuation: the launch memory, then each host
  stretch folded over it, then, after a region, that region's window arrays at what its pipeline leaves (the inputs
  as entered, each output's write-backs folded over the grid) and every other buffer as entered.  One run theorem
  states that every weakly fair execution terminates with every unscoped buffer at the last valuation; the frame
  claim (arguments unchanged) and the result's value are read off that valuation.
  Everything here is stated at any float instance, so the same text serves the word-level and the idealized program.
-/
import proofs.«125197_j20590073217153_1_alg».proof.Proof.Gen.KernelIdeal.Launch
import proofs.«125197_j20590073217153_1_alg».proof.Proof.Gen.KernelIdeal.Skeleton
import proofs.«125197_j20590073217153_1_alg».proof.Proof.Gen.KernelIdeal.Points
import proofs.«125197_j20590073217153_1_alg».proof.Proof.Gen.KernelIdeal.Regions
import proofs.«125197_j20590073217153_1_alg».proof.Proof.Ideal.Region0
import proofs.«125197_j20590073217153_1_alg».proof.Proof.Ideal.Region1
import proofs.«125197_j20590073217153_1_alg».proof.Proof.Ideal.Region2
import proofs.«125197_j20590073217153_1_alg».proof.Proof.Ideal.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- After the host stretch `hostOps0`. -/
abbrev B1 : Dev nD → Valuation τ sig (Elt F) := fun c => StableHlo.after hostOps0 (B0 m c)
/-- After the host stretch `hostOps0_1`. -/
abbrev B2 : Dev nD → Valuation τ sig (Elt F) := fun c => StableHlo.after hostOps0_1 (B1 m c)
/-- After the host stretch `hostOps0_2`. -/
abbrev B3 : Dev nD → Valuation τ sig (Elt F) := fun c => StableHlo.after hostOps0_2 (B2 m c)
/-- After the host stretch `hostOps0_3`. -/
abbrev B4 : Dev nD → Valuation τ sig (Elt F) := fun c => StableHlo.after hostOps0_3 (B3 m c)
/-- After the host stretch `hostOps0_4`. -/
abbrev B5 : Dev nD → Valuation τ sig (Elt F) := fun c => StableHlo.after hostOps0_4 (B4 m c)
/-- Region 0's entry contents read at the TensorCore's references. -/
abbrev E5 : (c : Dev nD) → (b : Ref sig .tc) → Buf (Elt F) ((c : Thread nD τ).loc b) := fun c b => B5 m c b
/-- After region 0: its window arrays at what the pipeline leaves, every other buffer as entered. -/
def B6 (c : Dev nD) : Valuation τ sig (Elt F) :=
  Pipeline.withArrays spec0 c (B5 m c) fun w => (data0 (E5 m) c).arrAt w cfg0.N
theorem B6_arr (c : Dev nD) (w : Fin cfg0.W) :
    B6 m c (Proc.devRef .tc (Pipeline.arrRef spec0 w)) = (data0 (E5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
/-- Region 0's exit contents read at the TensorCore's references. -/
abbrev X6 : (c : Dev nD) → (b : Ref sig .tc) → Buf (Elt F) ((c : Thread nD τ).loc b) := fun c b => B6 m c b
theorem left0 (c : Dev nD) (w : Fin cfg0.W) : (data0 (E5 m) c).arrAt w cfg0.N = X6 m c (Pipeline.arrRef spec0 w) :=
  (B6_arr m c w).symm
theorem kept0 (c : Dev nD) : ∀ b, b ∉ Finset.univ.image (Pipeline.arrRef spec0) → X6 m c b = E5 m c b :=
  fun b hb => B6_of_ne m c b fun w e => hb (Finset.mem_image.mpr ⟨w, Finset.mem_univ _, e⟩)
/-- After the host stretch `hostOps1`. -/
abbrev B7 : Dev nD → Valuation τ sig (Elt F) := fun c => StableHlo.after hostOps1 (B6 m c)
/-- Region 1's entry contents read at the TensorCore's references. -/
abbrev E7 : (c : Dev nD) → (b : Ref sig .tc) → Buf (Elt F) ((c : Thread nD τ).loc b) := fun c b => B7 m c b
/-- After region 1: its window arrays at what the pipeline leaves, every other buffer as entered. -/
def B8 (c : Dev nD) : Valuation τ sig (Elt F) :=
  Pipeline.withArrays spec1 c (B7 m c) fun w => (data1 (E7 m) c).arrAt w cfg1.N
theorem B8_arr (c : Dev nD) (w : Fin cfg1.W) :
    B8 m c (Proc.devRef .tc (Pipeline.arrRef spec1 w)) = (data1 (E7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
/-- Region 1's exit contents read at the TensorCore's references. -/
abbrev X8 : (c : Dev nD) → (b : Ref sig .tc) → Buf (Elt F) ((c : Thread nD τ).loc b) := fun c b => B8 m c b
theorem left1 (c : Dev nD) (w : Fin cfg1.W) : (data1 (E7 m) c).arrAt w cfg1.N = X8 m c (Pipeline.arrRef spec1 w) :=
  (B8_arr m c w).symm
theorem kept1 (c : Dev nD) : ∀ b, b ∉ Finset.univ.image (Pipeline.arrRef spec1) → X8 m c b = E7 m c b :=
  fun b hb => B8_of_ne m c b fun w e => hb (Finset.mem_image.mpr ⟨w, Finset.mem_univ _, e⟩)
/-- After the host stretch `hostOps2`. -/
abbrev B9 : Dev nD → Valuation τ sig (Elt F) := fun c => StableHlo.after hostOps2 (B8 m c)
/-- Region 2's entry contents read at the TensorCore's references. -/
abbrev E9 : (c : Dev nD) → (b : Ref sig .tc) → Buf (Elt F) ((c : Thread nD τ).loc b) := fun c b => B9 m c b
/-- After region 2: its window arrays at what the pipeline leaves, every other buffer as entered. -/
def B10 (c : Dev nD) : Valuation τ sig (Elt F) :=
  Pipeline.withArrays spec2 c (B9 m c) fun w => (data2 (E9 m) c).arrAt w cfg2.N
theorem B10_arr (c : Dev nD) (w : Fin cfg2.W) :
    B10 m c (Proc.devRef .tc (Pipeline.arrRef spec2 w)) = (data2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
/-- Region 2's exit contents read at the TensorCore's references. -/
abbrev X10 : (c : Dev nD) → (b : Ref sig .tc) → Buf (Elt F) ((c : Thread nD τ).loc b) := fun c b => B10 m c b
theorem left2 (c : Dev nD) (w : Fin cfg2.W) : (data2 (E9 m) c).arrAt w cfg2.N = X10 m c (Pipeline.arrRef spec2 w) :=
  (B10_arr m c w).symm
theorem kept2 (c : Dev nD) : ∀ b, b ∉ Finset.univ.image (Pipeline.arrRef spec2) → X10 m c b = E9 m c b :=
  fun b hb => B10_of_ne m c b fun w e => hb (Finset.mem_image.mpr ⟨w, Finset.mem_univ _, e⟩)
/-- After the host stretch `hostOps3`. -/
abbrev B11 : Dev nD → Valuation τ sig (Elt F) := fun c => StableHlo.after hostOps3 (B10 m c)
/-- After the host stretch `hostOps3_1`. -/
abbrev B12 : Dev nD → Valuation τ sig (Elt F) := fun c => StableHlo.after hostOps3_1 (B11 m c)
/-- After the host stretch `hostOps3_2`. -/
abbrev B13 : Dev nD → Valuation τ sig (Elt F) := fun c => StableHlo.after hostOps3_2 (B12 m c)
/-- Region 3's entry contents read at the TensorCore's references. -/
abbrev E13 : (c : Dev nD) → (b : Ref sig .tc) → Buf (Elt F) ((c : Thread nD τ).loc b) := fun c b => B13 m c b
/-- After region 3: its window arrays at what the pipeline leaves, every other buffer as entered. -/
def B14 (c : Dev nD) : Valuation τ sig (Elt F) :=
  Pipeline.withArrays spec3 c (B13 m c) fun w => (data3 (E13 m) c).arrAt w cfg3.N
theorem B14_arr (c : Dev nD) (w : Fin cfg3.W) :
    B14 m c (Proc.devRef .tc (Pipeline.arrRef spec3 w)) = (data3 (E13 m) c).arrAt w cfg3.N := by
  unfold B14; exact Pipeline.withArrays_arr spec3 launch3.win.arr_inj c _ _ w
theorem B14_of_ne (c : Dev nD) (b : Ref sig .tc) (hb : ∀ w, Pipeline.arrRef spec3 w ≠ b) :
    B14 m c (Proc.devRef .tc b) = B13 m c (Proc.devRef .tc b) := by
  unfold B14; exact Pipeline.withArrays_of_ne spec3 c _ _ b hb
/-- Region 3's exit contents read at the TensorCore's references. -/
abbrev X14 : (c : Dev nD) → (b : Ref sig .tc) → Buf (Elt F) ((c : Thread nD τ).loc b) := fun c b => B14 m c b
theorem left3 (c : Dev nD) (w : Fin cfg3.W) : (data3 (E13 m) c).arrAt w cfg3.N = X14 m c (Pipeline.arrRef spec3 w) :=
  (B14_arr m c w).symm
theorem kept3 (c : Dev nD) : ∀ b, b ∉ Finset.univ.image (Pipeline.arrRef spec3) → X14 m c b = E13 m c b :=
  fun b hb => B14_of_ne m c b fun w e => hb (Finset.mem_image.mpr ⟨w, Finset.mem_univ _, e⟩)

/-! ## A buffer no segment writes keeps its launch contents -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B4_of (c : Dev nD) (r : Ref sig .tc) (h : r ∉ hostOps0_3_W) : B4 m c r = B3 m c r :=
  StableHlo.after_of_writes_sub hostOps0_3 _ hostOps0_3_writes h
theorem B5_of (c : Dev nD) (r : Ref sig .tc) (h : r ∉ hostOps0_4_W) : B5 m c r = B4 m c r :=
  StableHlo.after_of_writes_sub hostOps0_4 _ hostOps0_4_writes h
theorem B7_of (c : Dev nD) (r : Ref sig .tc) (h : r ∉ hostOps1_W) : B7 m c r = B6 m c r :=
  StableHlo.after_of_writes_sub hostOps1 _ hostOps1_writes h
theorem B9_of (c : Dev nD) (r : Ref sig .tc) (h : r ∉ hostOps2_W) : B9 m c r = B8 m c r :=
  StableHlo.after_of_writes_sub hostOps2 _ hostOps2_writes h
theorem B11_of (c : Dev nD) (r : Ref sig .tc) (h : r ∉ hostOps3_W) : B11 m c r = B10 m c r :=
  StableHlo.after_of_writes_sub hostOps3 _ hostOps3_writes h
theorem B12_of (c : Dev nD) (r : Ref sig .tc) (h : r ∉ hostOps3_1_W) : B12 m c r = B11 m c r :=
  StableHlo.after_of_writes_sub hostOps3_1 _ hostOps3_1_writes h
theorem B13_of (c : Dev nD) (r : Ref sig .tc) (h : r ∉ hostOps3_2_W) : B13 m c r = B12 m c r :=
  StableHlo.after_of_writes_sub hostOps3_2 _ hostOps3_2_writes h
/-- `main_arg0` reaches the end as launched: no host stretch writes it, and a region at most reads it through an input window. -/
theorem B14_main_arg0 (c : Dev nD) : B14 m c (Proc.devRef .tc main_arg0) = m ((c : Thread nD τ).loc main_arg0) :=
  calc B14 m c (Proc.devRef .tc main_arg0)
    _ = B13 m c (Proc.devRef .tc main_arg0) := B14_of_ne m c main_arg0 (by decide)
    _ = B12 m c (Proc.devRef .tc main_arg0) := B13_of m c main_arg0 (by decide)
    _ = B11 m c (Proc.devRef .tc main_arg0) := B12_of m c main_arg0 (by decide)
    _ = B10 m c (Proc.devRef .tc main_arg0) := B11_of m c main_arg0 (by decide)
    _ = B9 m c (Proc.devRef .tc main_arg0) := B10_of_ne m c main_arg0 (by decide)
    _ = B8 m c (Proc.devRef .tc main_arg0) := B9_of m c main_arg0 (by decide)
    _ = B7 m c (Proc.devRef .tc main_arg0) := B8_of_ne m c main_arg0 (by decide)
    _ = B6 m c (Proc.devRef .tc main_arg0) := B7_of m c main_arg0 (by decide)
    _ = B5 m c (Proc.devRef .tc main_arg0) := (B6_arr m c 0).trans (((data0 (E5 m) c).arrAt_in 0 rfl _).trans (data0_A (E5 m) c 0))
    _ = B4 m c (Proc.devRef .tc main_arg0) := B5_of m c main_arg0 (by decide)
    _ = B3 m c (Proc.devRef .tc main_arg0) := B4_of m c main_arg0 (by decide)
    _ = B2 m c (Proc.devRef .tc main_arg0) := B3_of m c main_arg0 (by decide)
    _ = B1 m c (Proc.devRef .tc main_arg0) := B2_of m c main_arg0 (by decide)
    _ = B0 m c (Proc.devRef .tc main_arg0) := B1_of m c main_arg0 (by decide)
    _ = m ((c : Thread nD τ).loc main_arg0) := rfl
/-- `main_arg1` reaches the end as launched: no host stretch writes it, and a region at most reads it through an input window. -/
theorem B14_main_arg1 (c : Dev nD) : B14 m c (Proc.devRef .tc main_arg1) = m ((c : Thread nD τ).loc main_arg1) :=
  calc B14 m c (Proc.devRef .tc main_arg1)
    _ = B13 m c (Proc.devRef .tc main_arg1) := B14_of_ne m c main_arg1 (by decide)
    _ = B12 m c (Proc.devRef .tc main_arg1) := B13_of m c main_arg1 (by decide)
    _ = B11 m c (Proc.devRef .tc main_arg1) := B12_of m c main_arg1 (by decide)
    _ = B10 m c (Proc.devRef .tc main_arg1) := B11_of m c main_arg1 (by decide)
    _ = B9 m c (Proc.devRef .tc main_arg1) := B10_of_ne m c main_arg1 (by decide)
    _ = B8 m c (Proc.devRef .tc main_arg1) := B9_of m c main_arg1 (by decide)
    _ = B7 m c (Proc.devRef .tc main_arg1) := B8_of_ne m c main_arg1 (by decide)
    _ = B6 m c (Proc.devRef .tc main_arg1) := B7_of m c main_arg1 (by decide)
    _ = B5 m c (Proc.devRef .tc main_arg1) := B6_of_ne m c main_arg1 (by decide)
    _ = B4 m c (Proc.devRef .tc main_arg1) := B5_of m c main_arg1 (by decide)
    _ = B3 m c (Proc.devRef .tc main_arg1) := B4_of m c main_arg1 (by decide)
    _ = B2 m c (Proc.devRef .tc main_arg1) := B3_of m c main_arg1 (by decide)
    _ = B1 m c (Proc.devRef .tc main_arg1) := B2_of m c main_arg1 (by decide)
    _ = B0 m c (Proc.devRef .tc main_arg1) := B1_of m c main_arg1 (by decide)
    _ = m ((c : Thread nD τ).loc main_arg1) := rfl
/-- `main_arg2` reaches the end as launched: no host stretch writes it, and a region at most reads it through an input window. -/
theorem B14_main_arg2 (c : Dev nD) : B14 m c (Proc.devRef .tc main_arg2) = m ((c : Thread nD τ).loc main_arg2) :=
  calc B14 m c (Proc.devRef .tc main_arg2)
    _ = B13 m c (Proc.devRef .tc main_arg2) := B14_of_ne m c main_arg2 (by decide)
    _ = B12 m c (Proc.devRef .tc main_arg2) := B13_of m c main_arg2 (by decide)
    _ = B11 m c (Proc.devRef .tc main_arg2) := B12_of m c main_arg2 (by decide)
    _ = B10 m c (Proc.devRef .tc main_arg2) := B11_of m c main_arg2 (by decide)
    _ = B9 m c (Proc.devRef .tc main_arg2) := B10_of_ne m c main_arg2 (by decide)
    _ = B8 m c (Proc.devRef .tc main_arg2) := B9_of m c main_arg2 (by decide)
    _ = B7 m c (Proc.devRef .tc main_arg2) := B8_of_ne m c main_arg2 (by decide)
    _ = B6 m c (Proc.devRef .tc main_arg2) := B7_of m c main_arg2 (by decide)
    _ = B5 m c (Proc.devRef .tc main_arg2) := (B6_arr m c 1).trans (((data0 (E5 m) c).arrAt_in 1 rfl _).trans (data0_A (E5 m) c 1))
    _ = B4 m c (Proc.devRef .tc main_arg2) := B5_of m c main_arg2 (by decide)
    _ = B3 m c (Proc.devRef .tc main_arg2) := B4_of m c main_arg2 (by decide)
    _ = B2 m c (Proc.devRef .tc main_arg2) := B3_of m c main_arg2 (by decide)
    _ = B1 m c (Proc.devRef .tc main_arg2) := B2_of m c main_arg2 (by decide)
    _ = B0 m c (Proc.devRef .tc main_arg2) := B1_of m c main_arg2 (by decide)
    _ = m ((c : Thread nD τ).loc main_arg2) := rfl
/-- `main_arg3` reaches the end as launched: no host stretch writes it, and a region at most reads it through an input window. -/
theorem B14_main_arg3 (c : Dev nD) : B14 m c (Proc.devRef .tc main_arg3) = m ((c : Thread nD τ).loc main_arg3) :=
  calc B14 m c (Proc.devRef .tc main_arg3)
    _ = B13 m c (Proc.devRef .tc main_arg3) := B14_of_ne m c main_arg3 (by decide)
    _ = B12 m c (Proc.devRef .tc main_arg3) := B13_of m c main_arg3 (by decide)
    _ = B11 m c (Proc.devRef .tc main_arg3) := B12_of m c main_arg3 (by decide)
    _ = B10 m c (Proc.devRef .tc main_arg3) := B11_of m c main_arg3 (by decide)
    _ = B9 m c (Proc.devRef .tc main_arg3) := B10_of_ne m c main_arg3 (by decide)
    _ = B8 m c (Proc.devRef .tc main_arg3) := B9_of m c main_arg3 (by decide)
    _ = B7 m c (Proc.devRef .tc main_arg3) := B8_of_ne m c main_arg3 (by decide)
    _ = B6 m c (Proc.devRef .tc main_arg3) := B7_of m c main_arg3 (by decide)
    _ = B5 m c (Proc.devRef .tc main_arg3) := B6_of_ne m c main_arg3 (by decide)
    _ = B4 m c (Proc.devRef .tc main_arg3) := B5_of m c main_arg3 (by decide)
    _ = B3 m c (Proc.devRef .tc main_arg3) := B4_of m c main_arg3 (by decide)
    _ = B2 m c (Proc.devRef .tc main_arg3) := B3_of m c main_arg3 (by decide)
    _ = B1 m c (Proc.devRef .tc main_arg3) := B2_of m c main_arg3 (by decide)
    _ = B0 m c (Proc.devRef .tc main_arg3) := B1_of m c main_arg3 (by decide)
    _ = m ((c : Thread nD τ).loc main_arg3) := rfl
/-- `main_arg4` reaches the end as launched: no host stretch writes it, and a region at most reads it through an input window. -/
theorem B14_main_arg4 (c : Dev nD) : B14 m c (Proc.devRef .tc main_arg4) = m ((c : Thread nD τ).loc main_arg4) :=
  calc B14 m c (Proc.devRef .tc main_arg4)
    _ = B13 m c (Proc.devRef .tc main_arg4) := B14_of_ne m c main_arg4 (by decide)
    _ = B12 m c (Proc.devRef .tc main_arg4) := B13_of m c main_arg4 (by decide)
    _ = B11 m c (Proc.devRef .tc main_arg4) := B12_of m c main_arg4 (by decide)
    _ = B10 m c (Proc.devRef .tc main_arg4) := B11_of m c main_arg4 (by decide)
    _ = B9 m c (Proc.devRef .tc main_arg4) := B10_of_ne m c main_arg4 (by decide)
    _ = B8 m c (Proc.devRef .tc main_arg4) := B9_of m c main_arg4 (by decide)
    _ = B7 m c (Proc.devRef .tc main_arg4) := B8_of_ne m c main_arg4 (by decide)
    _ = B6 m c (Proc.devRef .tc main_arg4) := B7_of m c main_arg4 (by decide)
    _ = B5 m c (Proc.devRef .tc main_arg4) := B6_of_ne m c main_arg4 (by decide)
    _ = B4 m c (Proc.devRef .tc main_arg4) := B5_of m c main_arg4 (by decide)
    _ = B3 m c (Proc.devRef .tc main_arg4) := B4_of m c main_arg4 (by decide)
    _ = B2 m c (Proc.devRef .tc main_arg4) := B3_of m c main_arg4 (by decide)
    _ = B1 m c (Proc.devRef .tc main_arg4) := B2_of m c main_arg4 (by decide)
    _ = B0 m c (Proc.devRef .tc main_arg4) := B1_of m c main_arg4 (by decide)
    _ = m ((c : Thread nD τ).loc main_arg4) := rfl
/-- `main_arg5` reaches the end as launched: no host stretch writes it, and a region at most reads it through an input window. -/
theorem B14_main_arg5 (c : Dev nD) : B14 m c (Proc.devRef .tc main_arg5) = m ((c : Thread nD τ).loc main_arg5) :=
  calc B14 m c (Proc.devRef .tc main_arg5)
    _ = B13 m c (Proc.devRef .tc main_arg5) := B14_of_ne m c main_arg5 (by decide)
    _ = B12 m c (Proc.devRef .tc main_arg5) := B13_of m c main_arg5 (by decide)
    _ = B11 m c (Proc.devRef .tc main_arg5) := B12_of m c main_arg5 (by decide)
    _ = B10 m c (Proc.devRef .tc main_arg5) := B11_of m c main_arg5 (by decide)
    _ = B9 m c (Proc.devRef .tc main_arg5) := B10_of_ne m c main_arg5 (by decide)
    _ = B8 m c (Proc.devRef .tc main_arg5) := B9_of m c main_arg5 (by decide)
    _ = B7 m c (Proc.devRef .tc main_arg5) := B8_of_ne m c main_arg5 (by decide)
    _ = B6 m c (Proc.devRef .tc main_arg5) := B7_of m c main_arg5 (by decide)
    _ = B5 m c (Proc.devRef .tc main_arg5) := B6_of_ne m c main_arg5 (by decide)
    _ = B4 m c (Proc.devRef .tc main_arg5) := B5_of m c main_arg5 (by decide)
    _ = B3 m c (Proc.devRef .tc main_arg5) := B4_of m c main_arg5 (by decide)
    _ = B2 m c (Proc.devRef .tc main_arg5) := B3_of m c main_arg5 (by decide)
    _ = B1 m c (Proc.devRef .tc main_arg5) := B2_of m c main_arg5 (by decide)
    _ = B0 m c (Proc.devRef .tc main_arg5) := B1_of m c main_arg5 (by decide)
    _ = m ((c : Thread nD τ).loc main_arg5) := rfl
/-- `main_arg6` reaches the end as launched: no host stretch writes it, and a region at most reads it through an input window. -/
theorem B14_main_arg6 (c : Dev nD) : B14 m c (Proc.devRef .tc main_arg6) = m ((c : Thread nD τ).loc main_arg6) :=
  calc B14 m c (Proc.devRef .tc main_arg6)
    _ = B13 m c (Proc.devRef .tc main_arg6) := (B14_arr m c 1).trans (((data3 (E13 m) c).arrAt_in 1 rfl _).trans (data3_A (E13 m) c 1))
    _ = B12 m c (Proc.devRef .tc main_arg6) := B13_of m c main_arg6 (by decide)
    _ = B11 m c (Proc.devRef .tc main_arg6) := B12_of m c main_arg6 (by decide)
    _ = B10 m c (Proc.devRef .tc main_arg6) := B11_of m c main_arg6 (by decide)
    _ = B9 m c (Proc.devRef .tc main_arg6) := B10_of_ne m c main_arg6 (by decide)
    _ = B8 m c (Proc.devRef .tc main_arg6) := B9_of m c main_arg6 (by decide)
    _ = B7 m c (Proc.devRef .tc main_arg6) := B8_of_ne m c main_arg6 (by decide)
    _ = B6 m c (Proc.devRef .tc main_arg6) := B7_of m c main_arg6 (by decide)
    _ = B5 m c (Proc.devRef .tc main_arg6) := B6_of_ne m c main_arg6 (by decide)
    _ = B4 m c (Proc.devRef .tc main_arg6) := B5_of m c main_arg6 (by decide)
    _ = B3 m c (Proc.devRef .tc main_arg6) := B4_of m c main_arg6 (by decide)
    _ = B2 m c (Proc.devRef .tc main_arg6) := B3_of m c main_arg6 (by decide)
    _ = B1 m c (Proc.devRef .tc main_arg6) := B2_of m c main_arg6 (by decide)
    _ = B0 m c (Proc.devRef .tc main_arg6) := B1_of m c main_arg6 (by decide)
    _ = m ((c : Thread nD τ).loc main_arg6) := rfl
/-- `main_arg7` reaches the end as launched: no host stretch writes it, and a region at most reads it through an input window. -/
theorem B14_main_arg7 (c : Dev nD) : B14 m c (Proc.devRef .tc main_arg7) = m ((c : Thread nD τ).loc main_arg7) :=
  calc B14 m c (Proc.devRef .tc main_arg7)
    _ = B13 m c (Proc.devRef .tc main_arg7) := (B14_arr m c 2).trans (((data3 (E13 m) c).arrAt_in 2 rfl _).trans (data3_A (E13 m) c 2))
    _ = B12 m c (Proc.devRef .tc main_arg7) := B13_of m c main_arg7 (by decide)
    _ = B11 m c (Proc.devRef .tc main_arg7) := B12_of m c main_arg7 (by decide)
    _ = B10 m c (Proc.devRef .tc main_arg7) := B11_of m c main_arg7 (by decide)
    _ = B9 m c (Proc.devRef .tc main_arg7) := B10_of_ne m c main_arg7 (by decide)
    _ = B8 m c (Proc.devRef .tc main_arg7) := B9_of m c main_arg7 (by decide)
    _ = B7 m c (Proc.devRef .tc main_arg7) := B8_of_ne m c main_arg7 (by decide)
    _ = B6 m c (Proc.devRef .tc main_arg7) := B7_of m c main_arg7 (by decide)
    _ = B5 m c (Proc.devRef .tc main_arg7) := B6_of_ne m c main_arg7 (by decide)
    _ = B4 m c (Proc.devRef .tc main_arg7) := B5_of m c main_arg7 (by decide)
    _ = B3 m c (Proc.devRef .tc main_arg7) := B4_of m c main_arg7 (by decide)
    _ = B2 m c (Proc.devRef .tc main_arg7) := B3_of m c main_arg7 (by decide)
    _ = B1 m c (Proc.devRef .tc main_arg7) := B2_of m c main_arg7 (by decide)
    _ = B0 m c (Proc.devRef .tc main_arg7) := B1_of m c main_arg7 (by decide)
    _ = m ((c : Thread nD τ).loc main_arg7) := rfl
/-- `main_arg8` reaches the end as launched: no host stretch writes it, and a region at most reads it through an input window. -/
theorem B14_main_arg8 (c : Dev nD) : B14 m c (Proc.devRef .tc main_arg8) = m ((c : Thread nD τ).loc main_arg8) :=
  calc B14 m c (Proc.devRef .tc main_arg8)
    _ = B13 m c (Proc.devRef .tc main_arg8) := B14_of_ne m c main_arg8 (by decide)
    _ = B12 m c (Proc.devRef .tc main_arg8) := B13_of m c main_arg8 (by decide)
    _ = B11 m c (Proc.devRef .tc main_arg8) := B12_of m c main_arg8 (by decide)
    _ = B10 m c (Proc.devRef .tc main_arg8) := B11_of m c main_arg8 (by decide)
    _ = B9 m c (Proc.devRef .tc main_arg8) := B10_of_ne m c main_arg8 (by decide)
    _ = B8 m c (Proc.devRef .tc main_arg8) := B9_of m c main_arg8 (by decide)
    _ = B7 m c (Proc.devRef .tc main_arg8) := B8_of_ne m c main_arg8 (by decide)
    _ = B6 m c (Proc.devRef .tc main_arg8) := B7_of m c main_arg8 (by decide)
    _ = B5 m c (Proc.devRef .tc main_arg8) := B6_of_ne m c main_arg8 (by decide)
    _ = B4 m c (Proc.devRef .tc main_arg8) := B5_of m c main_arg8 (by decide)
    _ = B3 m c (Proc.devRef .tc main_arg8) := B4_of m c main_arg8 (by decide)
    _ = B2 m c (Proc.devRef .tc main_arg8) := B3_of m c main_arg8 (by decide)
    _ = B1 m c (Proc.devRef .tc main_arg8) := B2_of m c main_arg8 (by decide)
    _ = B0 m c (Proc.devRef .tc main_arg8) := B1_of m c main_arg8 (by decide)
    _ = m ((c : Thread nD τ).loc main_arg8) := rfl
/-- `main_arg9` reaches the end as launched: no host stretch writes it, and a region at most reads it through an input window. -/
theorem B14_main_arg9 (c : Dev nD) : B14 m c (Proc.devRef .tc main_arg9) = m ((c : Thread nD τ).loc main_arg9) :=
  calc B14 m c (Proc.devRef .tc main_arg9)
    _ = B13 m c (Proc.devRef .tc main_arg9) := B14_of_ne m c main_arg9 (by decide)
    _ = B12 m c (Proc.devRef .tc main_arg9) := B13_of m c main_arg9 (by decide)
    _ = B11 m c (Proc.devRef .tc main_arg9) := B12_of m c main_arg9 (by decide)
    _ = B10 m c (Proc.devRef .tc main_arg9) := B11_of m c main_arg9 (by decide)
    _ = B9 m c (Proc.devRef .tc main_arg9) := B10_of_ne m c main_arg9 (by decide)
    _ = B8 m c (Proc.devRef .tc main_arg9) := B9_of m c main_arg9 (by decide)
    _ = B7 m c (Proc.devRef .tc main_arg9) := B8_of_ne m c main_arg9 (by decide)
    _ = B6 m c (Proc.devRef .tc main_arg9) := B7_of m c main_arg9 (by decide)
    _ = B5 m c (Proc.devRef .tc main_arg9) := B6_of_ne m c main_arg9 (by decide)
    _ = B4 m c (Proc.devRef .tc main_arg9) := B5_of m c main_arg9 (by decide)
    _ = B3 m c (Proc.devRef .tc main_arg9) := B4_of m c main_arg9 (by decide)
    _ = B2 m c (Proc.devRef .tc main_arg9) := B3_of m c main_arg9 (by decide)
    _ = B1 m c (Proc.devRef .tc main_arg9) := B2_of m c main_arg9 (by decide)
    _ = B0 m c (Proc.devRef .tc main_arg9) := B1_of m c main_arg9 (by decide)
    _ = m ((c : Thread nD τ).loc main_arg9) := rfl
/-- `main_arg10` reaches the end as launched: no host stretch writes it, and a region at most reads it through an input window. -/
theorem B14_main_arg10 (c : Dev nD) : B14 m c (Proc.devRef .tc main_arg10) = m ((c : Thread nD τ).loc main_arg10) :=
  calc B14 m c (Proc.devRef .tc main_arg10)
    _ = B13 m c (Proc.devRef .tc main_arg10) := B14_of_ne m c main_arg10 (by decide)
    _ = B12 m c (Proc.devRef .tc main_arg10) := B13_of m c main_arg10 (by decide)
    _ = B11 m c (Proc.devRef .tc main_arg10) := B12_of m c main_arg10 (by decide)
    _ = B10 m c (Proc.devRef .tc main_arg10) := B11_of m c main_arg10 (by decide)
    _ = B9 m c (Proc.devRef .tc main_arg10) := B10_of_ne m c main_arg10 (by decide)
    _ = B8 m c (Proc.devRef .tc main_arg10) := B9_of m c main_arg10 (by decide)
    _ = B7 m c (Proc.devRef .tc main_arg10) := B8_of_ne m c main_arg10 (by decide)
    _ = B6 m c (Proc.devRef .tc main_arg10) := B7_of m c main_arg10 (by decide)
    _ = B5 m c (Proc.devRef .tc main_arg10) := B6_of_ne m c main_arg10 (by decide)
    _ = B4 m c (Proc.devRef .tc main_arg10) := B5_of m c main_arg10 (by decide)
    _ = B3 m c (Proc.devRef .tc main_arg10) := B4_of m c main_arg10 (by decide)
    _ = B2 m c (Proc.devRef .tc main_arg10) := B3_of m c main_arg10 (by decide)
    _ = B1 m c (Proc.devRef .tc main_arg10) := B2_of m c main_arg10 (by decide)
    _ = B0 m c (Proc.devRef .tc main_arg10) := B1_of m c main_arg10 (by decide)
    _ = m ((c : Thread nD τ).loc main_arg10) := rfl

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => data0 (E5 m) c
  | ⟨1, _⟩ => fun c => data1 (E7 m) c
  | ⟨2, _⟩ => fun c => data2 (E9 m) c
  | ⟨3, _⟩ => fun c => data3 (E13 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B14 m c) ∗ ∃ r, prngReg c r)

/-! ## The regions as segments -/

set_option backward.isDefEq.respectTransparency.types false in
/-- Region 0 over the thread state: entered from every unscoped buffer at `B5`, left at `B6`.  Its window arrays are split
    out of the unscoped buffers on entry and put back at the exit contents; the generator register goes into the pipeline's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E5 m) c).loose
  hwaits := Pipeline.hwaits_of_owed_zero _ _ _ _ L lv 0 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (X6 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B7`, left at `B8`.  Its window arrays are split
    out of the unscoped buffers on entry and put back at the exit contents; the generator register goes into the pipeline's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E7 m) c).loose
  hwaits := Pipeline.hwaits_of_owed_zero _ _ _ _ L lv 1 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := enter1 (E7 m) c
    unfold Pipeline.ΦA at h
    rw [show (pdats m 1 c).Φ 0 = (data1 (E7 m) c).Φ 0 from rfl]
    iintro ⟨Hp, -, Hr⟩
    iapply h
    isplitl [Hr]; · iexact Hr
    iexact Hp
  hout c := by
    have h := leave1 (E7 m) c
    unfold Pipeline.ΦA at h
    rw [Pipeline.ownSems0_none, show (pdats m 1 c).Φ (Fin.last _) = (data1 (E7 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (X8 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B9`, left at `B10`.  Its window arrays are split
    out of the unscoped buffers on entry and put back at the exit contents; the generator register goes into the pipeline's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E9 m) c).loose
  hwaits := Pipeline.hwaits_of_owed_zero _ _ _ _ L lv 2 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (X10 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B13`, left at `B14`.  Its window arrays are split
    out of the unscoped buffers on entry and put back at the exit contents; the generator register goes into the pipeline's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (E13 m) c).loose
  hwaits := Pipeline.hwaits_of_owed_zero _ _ _ _ L lv 3 fun _ _ => rfl
  pre c := iprop(StableHlo.held (c : Thread nD τ) (Pipeline.ucRefs τ sig) (B13 m c) ∗ R c)
  post c := iprop(StableHlo.held (c : Thread nD τ) (Pipeline.ucRefs τ sig) (B14 m c) ∗ R c)
  X c := iprop(∃ r, prngReg c r)
  Y c := iprop(∃ r, prngReg c r)
  Z c := Pipeline.unscopedRest (Ix := Unit) (Name := ℕ) (U := UR sig nD τ) (Lvl := ℕ) spec3 c (E13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E13 m c) (X14 m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The fourteen segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (reg0 m),
    .host (hseg hostOps1 hostOps1_sub hostOps1_fresh (B6 m)),
    .region (reg1 m),
    .host (hseg hostOps2 hostOps2_sub hostOps2_fresh (B8 m)),
    .region (reg2 m),
    .host (hseg hostOps3 hostOps3_sub hostOps3_fresh (B10 m)),
    .host (hseg hostOps3_1 hostOps3_1_sub hostOps3_1_fresh (B11 m)),
    .host (hseg hostOps3_2 hostOps3_2_sub hostOps3_2_fresh (B12 m)),
    .region (reg3 m) ]

set_option backward.isDefEq.respectTransparency.types false in
/-- THE RUN: from any memory with zero counters every weakly fair execution of the program on the TensorCores terminates,
    nothing faulting, and in the final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (B14 m c) ∗ R c)
          ⊢ iprop(Tₙ m c ∗ ∃ W, owes (c.tc : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c => h c)

/-- THE FRAME at any float instance: the eleven argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10)) :=
  (θ_run defs _ _).mono (fun r h c =>
    ⟨(h c _ (mem_uc main_arg0 (by decide))).trans (B14_main_arg0 m c),
     (h c _ (mem_uc main_arg1 (by decide))).trans (B14_main_arg1 m c),
     (h c _ (mem_uc main_arg2 (by decide))).trans (B14_main_arg2 m c),
     (h c _ (mem_uc main_arg3 (by decide))).trans (B14_main_arg3 m c),
     (h c _ (mem_uc main_arg4 (by decide))).trans (B14_main_arg4 m c),
     (h c _ (mem_uc main_arg5 (by decide))).trans (B14_main_arg5 m c),
     (h c _ (mem_uc main_arg6 (by decide))).trans (B14_main_arg6 m c),
     (h c _ (mem_uc main_arg7 (by decide))).trans (B14_main_arg7 m c),
     (h c _ (mem_uc main_arg8 (by decide))).trans (B14_main_arg8 m c),
     (h c _ (mem_uc main_arg9 (by decide))).trans (B14_main_arg9 m c),
     (h c _ (mem_uc main_arg10 (by decide))).trans (B14_main_arg10 m c)⟩) (run_all m ρ)

/-- The result array after the run: what the last region's pipeline leaves in its output window's array. -/
theorem result_all : θ_run defs (onTc (τ := τ) (main (F := F))) ⟨m, fun _ => 0, ρ⟩ (fun r => ∀ c : Dev nD,
      r.2.mem ((c.tc : Thread nD τ).loc main_v62) = (data3 (E13 m) c).arrAt 3 cfg3.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10)) :=
  (θ_run defs _ _).mono (fun r h c =>
    ⟨(h c _ (mem_uc main_v62 (by decide))).trans (B14_arr m c 3),
     (h c _ (mem_uc main_arg0 (by decide))).trans (B14_main_arg0 m c),
     (h c _ (mem_uc main_arg1 (by decide))).trans (B14_main_arg1 m c),
     (h c _ (mem_uc main_arg2 (by decide))).trans (B14_main_arg2 m c),
     (h c _ (mem_uc main_arg3 (by decide))).trans (B14_main_arg3 m c),
     (h c _ (mem_uc main_arg4 (by decide))).trans (B14_main_arg4 m c),
     (h c _ (mem_uc main_arg5 (by decide))).trans (B14_main_arg5 m c),
     (h c _ (mem_uc main_arg6 (by decide))).trans (B14_main_arg6 m c),
     (h c _ (mem_uc main_arg7 (by decide))).trans (B14_main_arg7 m c),
     (h c _ (mem_uc main_arg8 (by decide))).trans (B14_main_arg8 m c),
     (h c _ (mem_uc main_arg9 (by decide))).trans (B14_main_arg9 m c),
     (h c _ (mem_uc main_arg10 (by decide))).trans (B14_main_arg10 m c)⟩) (run_all m ρ)

end Cert.KernelIdeal.Hand

end
-- ==== Proof.Ideal.RefStages.lean ====
/-
  The reference's result as a composition of named stages.

  The reference is a straight line of host operations; its result is one pure term of the
  argument arrays.  Read as a tree that term repeats its shared parts many times (the centred
  features alone occur six times in the normalisation), so it is stated here stage by stage:
  the degree normaliser of each end of the edges, the projection, the aggregation over edges,
  the leaky rectifier, the column-wise normalisation (mean, centring, variance, scale and
  shift), the per-graph mean and the two-layer head.  Each stage is the corresponding sub-term
  of the composed term, over variables for the stage's inputs; `result` is their composition at
  the launch contents of the arguments.
-/
import proofs.«125197_j20590073217153_1_alg».proof.Proof.Gen.ReferenceIdeal
import Idealize.ShloMosaic.PureOps

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- The degree normaliser of one end of the edges: the number of edges at each node (an accumulating scatter of ones by the
    index vector), clipped below at one, to the power `-1/2`. -/
def norm (idx : IVec S800000 32) : FVec F S50000 .f32 :=
  Host.powf (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32)))) (broadcastInDim S50000 ![] bcast_S_S50000 (constant S_ .f32 0xBF000000#32))

/-- The projected node features: the product with the weight matrix, each row scaled by the source-side normaliser. -/
def proj (x : FVec F S50000x128 .f32) (wc : FVec F S128x128 .f32) (ns : FVec F S50000 .f32) : FVec F S50000x128 .f32 :=
  mulf (Host.dotGeneral dot_S50000x128_S128x128_S50000x128_1_0_0_1_n_n none x wc) (broadcastInDim S50000x128 ![0, 1] bcast_S50000x1_S50000x128_0_1 (broadcastInDim S50000x1 ![0] bcast_S50000_S50000x1_0 ns))

/-- The aggregation over edges: the projected row of each edge's source (a negative index wrapped once), times the edge's
    weight, accumulated at the edge's destination, each row then scaled by the destination-side normaliser. -/
def agg (h : FVec F S50000x128 .f32) (src : IVec S800000 32) (w : FVec F S800000 .f32) (dst : IVec S800000 32) (nd : FVec F S50000 .f32) : FVec F S50000x128 .f32 :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 w)))) (broadcastInDim S50000x128 ![0, 1] bcast_S50000x1_S50000x128_0_1 (broadcastInDim S50000x1 ![0] bcast_S50000_S50000x1_0 nd))

/-- The leaky rectifier on the node features: an entry that is at least zero is kept, another is scaled by the slope. -/
def leaky (a : FVec F S50000x128 .f32) : FVec F S50000x128 .f32 :=
  select (cmpf .oge a (broadcastInDim S50000x128 ![] bcast_S_S50000x128 (constant S_ .f32 0x00000000#32))) a (mulf (broadcastInDim S50000x128 ![] bcast_S_S50000x128 (constant S_ .f32 0x3C23D70A#32)) a)

/-- The column means: the sum down each column over the `50000` rows, divided by `50000`. -/
def colMean (y : FVec F S50000x128 .f32) : FVec F S128 .f32 :=
  Host.divf (Host.reduceAdd y (constant S_ .f32 0x00000000#32) reducesTo_S50000x128_S128_d0 h_S_) (broadcastInDim S128 ![] bcast_S_S128 (constant S_ .f32 0x47435000#32))

/-- The centred features: each entry less the column's scale times the column's mean. -/
def centered (y : FVec F S50000x128 .f32) (gms : FVec F S128 .f32) : FVec F S50000x128 .f32 :=
  subf y (broadcastInDim S50000x128 ![0, 1] bcast_S1x128_S50000x128_0_1 (broadcastInDim S1x128 ![1] bcast_S128_S1x128_1 (mulf gms (colMean y))))

/-- The column variances of centred features: the sum of squares down each column, divided by `50000`. -/
def colVar (cen : FVec F S50000x128 .f32) : FVec F S128 .f32 :=
  Host.divf (Host.reduceAdd (mulf cen cen) (constant S_ .f32 0x00000000#32) reducesTo_S50000x128_S128_d0 h_S_) (broadcastInDim S128 ![] bcast_S_S128 (constant S_ .f32 0x47435000#32))

/-- The normalised features from the centred ones and the column variances: each entry times the column's weight and the
    reciprocal root of the variance plus the small constant, plus the column's bias. -/
def scaleShift (cen : FVec F S50000x128 .f32) (vr : FVec F S128 .f32) (gw : FVec F S128 .f32) (gb : FVec F S128 .f32) : FVec F S50000x128 .f32 :=
  addf (mulf (mulf (broadcastInDim S50000x128 ![0, 1] bcast_S1x128_S50000x128_0_1 (broadcastInDim S1x128 ![1] bcast_S128_S1x128_1 gw)) cen) (broadcastInDim S50000x128 ![0, 1] bcast_S1x128_S50000x128_0_1 (broadcastInDim S1x128 ![1] bcast_S128_S1x128_1 (Host.rsqrt (addf vr (broadcastInDim S128 ![] bcast_S_S128 (constant S_ .f32 0x3727C5AC#32))))))) (broadcastInDim S50000x128 ![0, 1] bcast_S1x128_S50000x128_0_1 (broadcastInDim S1x128 ![1] bcast_S128_S1x128_1 gb))

/-- The normalisation of the node features, column by column: centre, take the variance of the centred features, scale and
    shift. -/
def normalize (y : FVec F S50000x128 .f32) (gw : FVec F S128 .f32) (gb : FVec F S128 .f32) (gms : FVec F S128 .f32) : FVec F S50000x128 .f32 :=
  scaleShift (centered y gms) (colVar (centered y gms)) gw gb

/-- The per-graph mean of the node rows: the rows accumulated by graph index, divided by the number of nodes of the graph
    clipped below at one. -/
def pool (xn : FVec F S50000x128 .f32) (gid : IVec S50000 32) : FVec F S128x128 .f32 :=
  Host.divf (Host.scatterAdd scatter_S128x128_S50000x1_S50000x128_1_0_0_1 (broadcastInDim S128x128 ![] bcast_S_S128x128 (constant S_ .f32 0x00000000#32)) (broadcastInDim S50000x1 ![0] bcast_S50000_S50000x1_0 gid) xn) (broadcastInDim S128x128 ![0, 1] bcast_S128x1_S128x128_0_1 (broadcastInDim S128x1 ![0] bcast_S128_S128x1_0 (maximumf (broadcastInDim S128 ![] bcast_S_S128 (id (constant S_ .f32 0x3F800000#32))) (Host.scatterAdd scatter_S128_S50000x1_S50000_n_0_0_1 (broadcastInDim S128 ![] bcast_S_S128 (constant S_ .f32 0x00000000#32)) (broadcastInDim S50000x1 ![0] bcast_S50000_S50000x1_0 gid) (broadcastInDim S50000 ![] bcast_S_S50000 (constant S_ .f32 0x3F800000#32))))))

/-- The two-layer head: a product with the transposed first matrix, the leaky rectifier, a product with the transposed
    second matrix. -/
def mlp (p : FVec F S128x128 .f32) (wl : FVec F S64x128 .f32) (wcls : FVec F S15x64 .f32) : FVec F S128x15 .f32 :=
  Host.dotGeneral dot_S128x64_S64x15_S128x15_1_0_0_1_n_n none (select (cmpf .oge (Host.dotGeneral dot_S128x128_S128x64_S128x64_1_0_0_1_n_n none p (transpose S128x64 [1, 0] wl transposes_S64x128_S128x64_1_0)) (broadcastInDim S128x64 ![] bcast_S_S128x64 (constant S_ .f32 0x00000000#32))) (Host.dotGeneral dot_S128x128_S128x64_S128x64_1_0_0_1_n_n none p (transpose S128x64 [1, 0] wl transposes_S64x128_S128x64_1_0)) (mulf (broadcastInDim S128x64 ![] bcast_S_S128x64 (constant S_ .f32 0x3C23D70A#32)) (Host.dotGeneral dot_S128x128_S128x64_S128x64_1_0_0_1_n_n none p (transpose S128x64 [1, 0] wl transposes_S64x128_S128x64_1_0)))) (transpose S64x15 [1, 0] wcls transposes_S15x64_S64x15_1_0)

/-- The reference's result on device `c` from the launch memory `m`: the stages composed at the argument arrays. -/
def result (m : (ℓ : Loc nD τ sig) → Buf (Elt F) ℓ) (c : Dev nD) : Buf (Elt F) ((c.tc : Thread nD τ).loc main_v80) :=
  mlp (pool (normalize (leaky (agg (proj (m ((c.tc : Thread nD τ).loc main_arg0)) (m ((c.tc : Thread nD τ).loc main_arg2)) (norm (m ((c.tc : Thread nD τ).loc main_arg8)))) (m ((c.tc : Thread nD τ).loc main_arg8)) (m ((c.tc : Thread nD τ).loc main_arg1)) (m ((c.tc : Thread nD τ).loc main_arg9)) (norm (m ((c.tc : Thread nD τ).loc main_arg9))))) (m ((c.tc : Thread nD τ).loc main_arg3)) (m ((c.tc : Thread nD τ).loc main_arg4)) (m ((c.tc : Thread nD τ).loc main_arg5))) (m ((c.tc : Thread nD τ).loc main_arg10))) (m ((c.tc : Thread nD τ).loc main_arg6)) (m ((c.tc : Thread nD τ).loc main_arg7))

end Cert.ReferenceIdeal.Stages

end
-- ==== Proof.Ideal.RefFrame.lean ====
/-
  The reference program is a straight line of host operations with no kernel launch: its run states that
  every weakly fair execution terminates with each result at the composed term of the arguments and the arguments
  unchanged.  Dropping the result gives its frame claim.
-/
import proofs.«125197_j20590073217153_1_alg».proof.Defs
import proofs.«125197_j20590073217153_1_alg».proof.Proof.Gen.ReferenceIdeal
import proofs.«125197_j20590073217153_1_alg».proof.Proof.Gen.Pre_finite_inputs
import proofs.«125197_j20590073217153_1_alg».proof.Proof.Ideal.RefRun

noncomputable section

open Idealize.ShloMosaic Idealize.ShloMosaic.TcCoe Idealize.SL.Sem

namespace Cert.Proof.RefSide

/-- The reference terminates, faults nowhere and leaves its eleven argument arrays as launched. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefSide

end
-- ==== Proof.Ideal.HostK.lean ====
/-
  The host operations of the kernel's program, read as functions.  Between the four kernel regions the program computes,
  on the host: the two degree normalisers max(deg,1)^(-1/2) (deg a scatter-add of ones keyed by an index vector), the
  message passing (gather the projected rows by source, scale by the edge weight, scatter-add by destination, scale by
  the destination normaliser), the per-column mean and variance from the column sums and sums of squares, the
  reshapes of the three parameter rows, and the per-graph mean pooling.  Each is named here as one function of its
  operands, spelt as the stretch prints it, and each buffer a region reads is shown to hold that function of the
  buffers the stretch started from.
-/
import proofs.«125197_j20590073217153_1_alg».proof.Proof.Gen.KernelIdeal.Launch
import Idealize.ShloMosaic.Lib.StableHlo.Run

noncomputable section

namespace Cert.KernelIdeal.Stages

open Idealize.ShloMosaic Idealize.ShloMosaic.TcCoe Idealize.SL.Sem Idealize.ShloMosaic.StableHlo
open Cert.KernelIdeal Cert.KernelIdeal.Gen

variable {F : FTy → Type} [FloatOps F]

/-- max(deg, 1)^(-1/2) for the degree vector deg = scatter-add of ones at the positions `idx` names. -/
def norm (idx : (⟨S800000, .i32⟩ : BufTy).Contents (Elt F)) : (⟨S50000, .f32⟩ : BufTy).Contents (Elt F) :=
  Host.powf
    (maximumf (broadcastInDim S50000 ![] bcast_S_S50000 (constant S_ .f32 0x3F800000#32))
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32))))
    (broadcastInDim S50000 ![] bcast_S_S50000 (constant S_ .f32 0xBF000000#32))

/-- A vector of 50000 entries laid out as a column. -/
def col (n : (⟨S50000, .f32⟩ : BufTy).Contents (Elt F)) : (⟨S50000x1, .f32⟩ : BufTy).Contents (Elt F) :=
  fun i => shapeCast S50000x1 n shapeCasts_S50000_S50000x1 i

/-- Message passing: row `e` of the gathered matrix is row src(e) of `h` (a negative index wrapped once by 50000), scaled by
    the edge weight; the rows are added into their destination rows; each destination row is scaled by its normaliser. -/
def agg (h : (⟨S50000x128, .f32⟩ : BufTy).Contents (Elt F)) (src : (⟨S800000, .i32⟩ : BufTy).Contents (Elt F))
    (w : (⟨S800000, .f32⟩ : BufTy).Contents (Elt F)) (dst : (⟨S800000, .i32⟩ : BufTy).Contents (Elt F))
    (nd : (⟨S50000, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf
        (Host.gather gather_S50000x128_S800000x1_S800000x128_1_0_n_n_0_1_1128 h
          (broadcastInDim S800000x1 ![0] bcast_S800000_S800000x1_0
            (select (cmpi CmpIPredicate.slt src (broadcastInDim S800000 ![] bcast_S_S800000 (constantI S_ 32 0#32)))
              (addi src (broadcastInDim S800000 ![] bcast_S_S800000 (constantI S_ 32 50000#32))) src)))
        (broadcastInDim S800000x128 ![0, 1] bcast_S800000x1_S800000x128_0_1
          (broadcastInDim S800000x1 ![0] bcast_S800000_S800000x1_0 w))))
    (broadcastInDim S50000x128 ![0, 1] bcast_S50000x1_S50000x128_0_1
      (broadcastInDim S50000x1 ![0] bcast_S50000_S50000x1_0 nd))

/-- A [1,128] row read as a vector of 128 entries, -/
def vec (r : (⟨S1x128, .f32⟩ : BufTy).Contents (Elt F)) : (⟨S128, .f32⟩ : BufTy).Contents (Elt F) :=
  fun i => shapeCast S128 r shapeCasts_S1x128_S128 i
/-- and a vector of 128 entries laid out as a [1,128] row. -/
def row (v : (⟨S128, .f32⟩ : BufTy).Contents (Elt F)) : (⟨S1x128, .f32⟩ : BufTy).Contents (Elt F) :=
  fun i => shapeCast S1x128 v shapeCasts_S128_S1x128 i

/-- The column means: the column sums divided by the number of rows, 50000. -/
def meanVec (s : (⟨S1x128, .f32⟩ : BufTy).Contents (Elt F)) : (⟨S128, .f32⟩ : BufTy).Contents (Elt F) :=
  Host.divf (vec s) (broadcastInDim S128 ![] bcast_S_S128 (constant S_ .f32 0x47435000#32))

/-- The column variances as the program folds them: ss/N + mean² · (g² − 2·g). -/
def varVec (s ss : (⟨S1x128, .f32⟩ : BufTy).Contents (Elt F)) (g : (⟨S128, .f32⟩ : BufTy).Contents (Elt F)) :
    (⟨S128, .f32⟩ : BufTy).Contents (Elt F) :=
  addf (Host.divf (vec ss) (broadcastInDim S128 ![] bcast_S_S128 (constant S_ .f32 0x47435000#32)))
    (mulf (mulf (meanVec s) (meanVec s))
      (subf (mulf g g) (mulf (broadcastInDim S128 ![] bcast_S_S128 (constant S_ .f32 0x40000000#32)) g)))

/-- Per-graph mean pooling: the rows of `xn` added into their graph's row, each graph's row divided by max(count, 1). -/
def pool (xn : (⟨S50000x128, .f32⟩ : BufTy).Contents (Elt F)) (gid : (⟨S50000, .i32⟩ : BufTy).Contents (Elt F)) :
    (⟨S128x128, .f32⟩ : BufTy).Contents (Elt F) :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 gid) xn)
    (broadcastInDim S128x128 ![0, 1] bcast_S128x1_S128x128_0_1
      (broadcastInDim S128x1 ![0] bcast_S128_S128x1_0
        (maximumf (broadcastInDim S128 ![] bcast_S_S128 (constant S_ .f32 0x3F800000#32))
          (Host.scatterAdd scatter_S128_S50000x1_S50000_n_0_0_1
            (broadcastInDim S128 ![] bcast_S_S128 (constant S_ .f32 0x00000000#32))
            (broadcastInDim S50000x1 ![0] bcast_S50000_S50000x1_0 gid)
            (broadcastInDim S50000 ![] bcast_S_S50000 (constant S_ .f32 0x3F800000#32))))))

/-! ## What the stretches leave in the buffers the regions read -/

section Readings

variable (W : Valuation τ sig (Elt F))

set_option maxHeartbeats 4000000 in
/-- Before the first region: the source normaliser as a column. -/
theorem read_v13 : (StableHlo.after hostOps0_4 (StableHlo.after hostOps0_3 (StableHlo.after hostOps0_2 (StableHlo.after hostOps0_1
      (StableHlo.after hostOps0 W)))) (Proc.devRef .tc main_v13) : (⟨S50000x1, .f32⟩ : BufTy).Contents (Elt F))
    = col (norm (W (Proc.devRef .tc main_arg8))) := by
  after_results_simp; rfl

set_option maxHeartbeats 4000000 in
/-- Before the first region: the destination normaliser. -/
theorem read_v12 : (StableHlo.after hostOps0_4 (StableHlo.after hostOps0_3 (StableHlo.after hostOps0_2 (StableHlo.after hostOps0_1
      (StableHlo.after hostOps0 W)))) (Proc.devRef .tc main_v12) : (⟨S50000, .f32⟩ : BufTy).Contents (Elt F))
    = norm (W (Proc.devRef .tc main_arg9)) := by
  after_results_simp; rfl

set_option maxHeartbeats 4000000 in
/-- Between the first and the second region: the aggregated messages. -/
theorem read_v30 : (StableHlo.after hostOps1 W (Proc.devRef .tc main_v30) : (⟨S50000x128, .f32⟩ : BufTy).Contents (Elt F))
    = agg (W (Proc.devRef .tc main_v14)) (W (Proc.devRef .tc main_arg8)) (W (Proc.devRef .tc main_arg1))
        (W (Proc.devRef .tc main_arg9)) (W (Proc.devRef .tc main_v12)) := by
  after_results_simp; rfl

set_option maxHeartbeats 4000000 in
/-- Between the second and the third region: the mean row, -/
theorem read_v45 : (StableHlo.after hostOps2 W (Proc.devRef .tc main_v45) : (⟨S1x128, .f32⟩ : BufTy).Contents (Elt F))
    = row (meanVec (W (Proc.devRef .tc main_v31_1))) := by
  after_results_simp; rfl

set_option maxHeartbeats 4000000 in
/-- the variance row, -/
theorem read_v46 : (StableHlo.after hostOps2 W (Proc.devRef .tc main_v46) : (⟨S1x128, .f32⟩ : BufTy).Contents (Elt F))
    = row (varVec (W (Proc.devRef .tc main_v31_1)) (W (Proc.devRef .tc main_v31_2)) (W (Proc.devRef .tc main_arg5))) := by
  after_results_simp; rfl

set_option maxHeartbeats 4000000 in
/-- and the three parameter rows. -/
theorem read_v47 : (StableHlo.after hostOps2 W (Proc.devRef .tc main_v47) : (⟨S1x128, .f32⟩ : BufTy).Contents (Elt F))
    = row (W (Proc.devRef .tc main_arg3)) := by
  after_results_simp; rfl

set_option maxHeartbeats 4000000 in
theorem read_v48 : (StableHlo.after hostOps2 W (Proc.devRef .tc main_v48) : (⟨S1x128, .f32⟩ : BufTy).Contents (Elt F))
    = row (W (Proc.devRef .tc main_arg4)) := by
  after_results_simp; rfl

set_option maxHeartbeats 4000000 in
theorem read_v49 : (StableHlo.after hostOps2 W (Proc.devRef .tc main_v49) : (⟨S1x128, .f32⟩ : BufTy).Contents (Elt F))
    = row (W (Proc.devRef .tc main_arg5)) := by
  after_results_simp; rfl

set_option maxHeartbeats 4000000 in
/-- Between the third and the fourth region: the pooled rows. -/
theorem read_v61 : (StableHlo.after hostOps3_2 (StableHlo.after hostOps3_1 (StableHlo.after hostOps3 W)) (Proc.devRef .tc main_v61) :
      (⟨S128x128, .f32⟩ : BufTy).Contents (Elt F))
    = pool (W (Proc.devRef .tc main_v50)) (W (Proc.devRef .tc main_arg10)) := by
  after_results_simp; rfl

end Readings

end Cert.KernelIdeal.Stages

end
-- ==== Proof.Ideal.Spec.lean ====
/- What the three kernels compute, entry by entry, on the extended reals.

   Each function takes whole arrays and gives a whole array.  Rounding to a narrower float format is the
   identity on the extended reals, so the two half-precision roundings before each matrix product do not
   appear.  Float literals stay as their words; none is evaluated. -/
import proofs.«125197_j20590073217153_1_alg».proof.KernelIdeal
import Idealize.ShloMosaic.Lib.ValueIdx
import Idealize.ShloMosaic.PureOps.Ideal.Laws

noncomputable section

namespace Cert.KernelIdeal.Spec

open Idealize.ShloMosaic Idealize.ShloMosaic.ValueIdx
open scoped BigOperators

/-! ## The projection: rows of `x` times `w`, each row scaled by its entry of the column `n` -/

/-- Entry `(i, j)`: the inner product of row `i` of `x` with column `j` of `w`, times `n (i, 0)`. -/
def projAt (x : FVec Ideal S50000x128 .f32) (w : FVec Ideal S128x128 .f32) (n : FVec Ideal S50000x1 .f32)
    (i : Fin 50000) (j : Fin 128) : Ideal .f32 :=
  (∑ k : Fin 128, x (ix2 i k) * w (ix2 k j)) * n (ix2 i (0 : Fin 1))

def proj (x : FVec Ideal S50000x128 .f32) (w : FVec Ideal S128x128 .f32) (n : FVec Ideal S50000x1 .f32) :
    FVec Ideal S50000x128 .f32 :=
  fun i => projAt x w n (i 0) (i 1)

/-! ## The normalization: per column, centre, scale by the reciprocal square root of the variance, weigh, shift -/

/-- Entry `(i, j)`: `gw_j · (y_ij − gms_j · mean_j) · rsqrt (var_j + ε) + gb_j`, the five rows read at `(0, j)`;
    `ε` is the word `0x3727C5AC`. -/
def normalizeAt (y : FVec Ideal S50000x128 .f32) (mean var gw gb gms : FVec Ideal S1x128 .f32)
    (i : Fin 50000) (j : Fin 128) : Ideal .f32 :=
  gw (ix2 (0 : Fin 1) j) * (y (ix2 i j) - gms (ix2 (0 : Fin 1) j) * mean (ix2 (0 : Fin 1) j))
      * Ideal.rsqrt (var (ix2 (0 : Fin 1) j) + Ideal.ofBits .f32 0x3727C5AC#32)
    + gb (ix2 (0 : Fin 1) j)

def normalize (y : FVec Ideal S50000x128 .f32) (mean var gw gb gms : FVec Ideal S1x128 .f32) :
    FVec Ideal S50000x128 .f32 :=
  fun i => normalizeAt y mean var gw gb gms (i 0) (i 1)

/-! ## The two-layer perceptron: a leaky rectifier between two matrix products against transposed weights -/

/-- The leaky rectifier: `z` where `z ≥ 0`, the slope word `0x3C23D70A` times `z` elsewhere. -/
def leaky (z : Ideal .f32) : Ideal .f32 :=
  Scalar.select (Ideal.cmp .oge z (Ideal.ofBits .f32 0x00000000#32)) z (Ideal.ofBits .f32 0x3C23D70A#32 * z)

/-- Entry `(g, o)`: the sum over the 64 hidden units `k` of the rectified inner product of row `g` of `p` with
    row `k` of `wl`, times `wcls (o, k)`. -/
def mlpAt (p : FVec Ideal S128x128 .f32) (wl : FVec Ideal S64x128 .f32) (wcls : FVec Ideal S15x64 .f32)
    (g : Fin 128) (o : Fin 15) : Ideal .f32 :=
  ∑ k : Fin 64, leaky (∑ d : Fin 128, p (ix2 g d) * wl (ix2 k d)) * wcls (ix2 o k)

def mlp (p : FVec Ideal S128x128 .f32) (wl : FVec Ideal S64x128 .f32) (wcls : FVec Ideal S15x64 .f32) :
    FVec Ideal S128x15 .f32 :=
  fun i => mlpAt p wl wcls (i 0) (i 1)

end Cert.KernelIdeal.Spec

end
-- ==== Proof.Ideal.Spec1.lean ====
/- The statistics of region 1 on the extended reals: the leaky rectifier applied to every entry of the projected
   array, and per column the sum of the rectified entries and the sum of their squares over all 50000 rows. -/
import proofs.«125197_j20590073217153_1_alg».proof.Proof.Ideal.Spec

noncomputable section

namespace Cert.KernelIdeal.Spec

open Idealize.ShloMosaic Idealize.ShloMosaic.ValueIdx
open scoped BigOperators

/-- The leaky rectifier at every entry. -/
def leakyAll (a : FVec Ideal S50000x128 .f32) : FVec Ideal S50000x128 .f32 := fun i => leaky (a i)

/-- Per column, the sum over the 50000 rows. -/
def colsum (y : FVec Ideal S50000x128 .f32) : FVec Ideal S1x128 .f32 :=
  fun j => ∑ i : Fin 50000, y (ix2 i (j 1 : Fin 128))

/-- Per column, the sum of the squares over the 50000 rows. -/
def colsumsq (y : FVec Ideal S50000x128 .f32) : FVec Ideal S1x128 .f32 :=
  fun j => ∑ i : Fin 50000, y (ix2 i (j 1 : Fin 128)) * y (ix2 i (j 1 : Fin 128))

end Cert.KernelIdeal.Spec

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Ideal.Value0.lean ====
/- Region 0 of @main on the extended reals: the array its output window ends holding.

   The grid has ten points.  At point `t` the first input's block, the third input's block and the
   output's block are rows `5000 t` to `5000 t + 4999` of their arrays (50000×128, 50000×1, 50000×128);
   the 128×128 matrix is the same at every point.  Entry `(r, j)` of the stored block is the inner product
   of row `r` of the input block with column `j` of the matrix, times entry `(r, 0)` of the column block.
   So block `t` of what is written back is block `t` of one function of the whole arrays, and the ten
   blocks tile the output array. -/
import proofs.«125197_j20590073217153_1_alg».proof.Proof.Ideal.Region0
import proofs.«125197_j20590073217153_1_alg».proof.Proof.Ideal.Spec
import proofs.«125197_j20590073217153_1_alg».proof.Proof.LibInnerProducts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the core's buffer contents on entry to the region, on the extended reals
variable (V : (c : Dev nD) → (b : Ref sig .tc) → Buf (Elt Ideal) ((c : Thread nD τ).loc b))

open Idealize.ShloMosaic.InnerProducts

/-! ## The stored value at an entry -/

theorem zeros_r0 : (![0, 0] : Fin 2 → Nat) = fun _ => 0 := funext fun a => by fin_cases a <;> rfl

/-- An `[a, 1]` column broadcast to `[a, b]` reads, at `(p, q)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored value at `(r, j)`: a plain matrix product into zero, each row then scaled by the column's entry. -/
theorem stored0_apply (x0 : FVec Ideal S5000x128 .f32) (x1 : FVec Ideal S128x128 .f32) (x2 : FVec Ideal S5000x1 .f32)
    (r : Fin 5000) (j : Fin 128) :
    k0_pay1 (F := Ideal) x0 x1 x2 (ix2 r j)
      = (∑ k : Fin 128, x0 (ix2 r k) * x1 (ix2 k j)) * x2 (ix2 r (0 : Fin 1)) := by
  unfold k0_pay1
  refine (mulf_apply _ _ (ix2 r j)).trans ?_
  rw [broadcastTo_a1_ab_apply, shapeCast_self]
  refine congrArg (fun z => z * x2 (ix2 r (0 : Fin 1))) ?_
  refine (matmul_zero_apply dot_S5000x128_S128x128_S5000x128_1_0_0_1_n_n rfl none _ _ r j).trans ?_
  rfl

/-- The entry depends on row `i` of the first array, column `j` of the matrix, and entry `(i, 0)` of the column. -/
theorem projAt_congr (B0 : FVec Ideal S5000x128 .f32) (A0 : FVec Ideal S50000x128 .f32) (B1 A1 : FVec Ideal S128x128 .f32)
    (B2 : FVec Ideal S5000x1 .f32) (A2 : FVec Ideal S50000x1 .f32) (r : Fin 5000) (j : Fin 128) (i : Fin 50000) (j' : Fin 128)
    (h0 : ∀ k : Fin 128, B0 (ix2 r k) = A0 (ix2 i k)) (h1 : ∀ k : Fin 128, B1 (ix2 k j) = A1 (ix2 k j'))
    (h2 : B2 (ix2 r (0 : Fin 1)) = A2 (ix2 i (0 : Fin 1))) :
    (∑ k : Fin 128, B0 (ix2 r k) * B1 (ix2 k j)) * B2 (ix2 r (0 : Fin 1)) = Spec.projAt A0 A1 A2 i j' := by
  unfold Spec.projAt
  rw [h2]
  refine congrArg (fun z => z * A2 (ix2 i (0 : Fin 1))) ?_
  exact Finset.sum_congr rfl fun k _ => by rw [h0 k, h1 k]

/-- One store through the whole buffer leaves the stored value, and a load through the whole buffer reads the block. -/
theorem stored0_eq (x0 : Vec Ideal S5000x128 .f32) (x1 : Vec Ideal S128x128 .f32) (x2 : Vec Ideal S5000x1 .f32) :
    stored0 x0 x1 x2 = k0_pay1 x0 x1 x2 := by
  unfold stored0
  rw [View.canon_unit_zero zeros_r0]
  simp only [View.ld_unit_zero (S := S5000x128) zeros_r0, View.ld_unit_zero (S := S128x128) zeros_r0,
    View.ld_unit_zero (S := S5000x1) zeros_r0]

/-! ## From the blocks to the array -/

/-- The block indices over the grid: the first input, the column and the output are at row block `t`, column
    block 0; the matrix is at block 0 on both axes. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `Spec.proj` of the arrays as the region finds them. -/
theorem flushed0_eq (c : Dev nD) (t : Fin cfg0.N) :
    (data0 V c).flushed 3 t = ((cfg0.win 3).blk t).view.read (Elt Ideal)
      (Spec.proj (V c (Pipeline.arrRef spec0 0)) (V c (Pipeline.arrRef spec0 1)) (V c (Pipeline.arrRef spec0 2))) := by
  show (cfg0.win 3).cut (grid0.coords t) ((data0 V c).after 3 t) = _
  rw [data0_after_3, stored0_eq]
  obtain ⟨e00, e01, e10, e11, e20, e21, e30, e31⟩ := index0 t
  funext y
  obtain ⟨r, j, rfl⟩ : ∃ (r : Fin 5000) (j : Fin 128), y = ix2 r j := ⟨y 0, y 1, eq_ix2 y⟩
  refine (stored0_apply _ _ _ r j).trans ?_
  refine projAt_congr _ _ _ _ _ _ r j _ _ (fun k => ?_) (fun k => ?_) ?_
  · show V c (Pipeline.arrRef spec0 0) (((cfg0.win 0).blk t).view.emb (ix2 r k)) = _
    refine congrArg _ (funext fun a => Fin.ext ?_)
    match a with
    | ⟨0, _⟩ => show win0_0.index t (0 : Fin 2) * 5000 + 1 * r.val = win0_3.index t (0 : Fin 2) * 5000 + 1 * r.val; omega
    | ⟨1, _⟩ => show win0_0.index t (1 : Fin 2) * 128 + 1 * k.val = k.val; omega
  · show V c (Pipeline.arrRef spec0 1) (((cfg0.win 1).blk t).view.emb (ix2 k j)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * j.val = win0_3.index t (1 : Fin 2) * 128 + 1 * j.val; omega
  · show V c (Pipeline.arrRef spec0 2) (((cfg0.win 2).blk t).view.emb (ix2 r (0 : Fin 1))) = _
    refine congrArg _ (funext fun a => Fin.ext ?_)
    match a with
    | ⟨0, _⟩ => show win0_2.index t (0 : Fin 2) * 5000 + 1 * r.val = win0_3.index t (0 : Fin 2) * 5000 + 1 * r.val; omega
    | ⟨1, _⟩ => show win0_2.index t (1 : Fin 2) * 1 + 1 * 0 = 0; omega

/-- An index of the output array lies in point `t`'s block iff each coordinate lies in the block's range. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Row `r` of the output array lies in the block of point `r / 5000`: the ten blocks tile the array. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  have ht : t.val = (i 0).val / 5000 := rfl
  refine ⟨t, flush0_3 t, ?_⟩
  rw [mem_block0]
  obtain ⟨-, -, -, -, -, -, e30, e31⟩ := index0 t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT ARRAY after the region: `Spec.proj` of the three input arrays as the region finds them. -/
theorem value0 (c : Dev nD) :
    (data0 (F := Ideal) V c).arrAt 3 cfg0.N
      = Spec.proj (V c (Pipeline.arrRef spec0 0)) (V c (Pipeline.arrRef spec0 1)) (V c (Pipeline.arrRef spec0 2)) :=
  (data0 V c).arrAt_eq_of_cover 3 _ (fun t _ => flushed0_eq V c t) (cover0)

end Cert.KernelIdeal.Hand

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.Ideal.Value1.lean ====
/- Region 1 on the extended reals: the three output arrays after the region, as functions of the array the region
   reads. Output 1 is the leaky rectifier of the input, entry by entry (each grid point writes back its own 5000 rows);
   outputs 2 and 3, written back at the last point only, are the accumulators then: the ten block sums added up, which
   is the sum over all 50000 rows. -/
import proofs.«125197_j20590073217153_1_alg».proof.Proof.Ideal.Region1
import proofs.«125197_j20590073217153_1_alg».proof.Proof.Ideal.Spec1
import proofs.«125197_j20590073217153_1_alg».proof.Proof.LibBlockedSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace Stats

/-! ## The payloads at an index -/

/-- The rectified block at an entry. -/
theorem pay3_apply (x0 : Vec Ideal S5000x128 .f32) (j : S5000x128.Idx) :
    k1_pay3 (F := Ideal) x0 j = Spec.leaky (x0 j) := by
  unfold k1_pay3 Spec.leaky
  rw [shapeCast_self]
  rfl

/-- A column sum of a block, over its 5000 rows. -/
theorem colsum_block (v : FVec Ideal S5000x128 .f32) (h : S5000x128.Reduces [0] S128) (hφ : FKind.Formats .f32)
    (hacc : (0x00000000#32 : BitVec 32) = 0x00000000#32) (q : Fin 128) (j : S128.Idx) (hj : (j 0).val = q.val) :
    multiReduction (F := Ideal) .add [0] S128 v 0x00000000#32 h hφ hacc j = ∑ d : Fin 5000, v (ix2 d q) := by
  refine (Ideal.multiReduction_add_single v 0x00000000#32 h hφ hacc j).trans ?_
  refine Finset.sum_congr rfl fun d _ => congrArg v ?_
  funext a
  match a with
  | ⟨0, _⟩ => rfl
  | ⟨1, _⟩ => exact Fin.ext hj

/-- The first accumulator's update at a column: what it held plus the column sum of the rectified block. -/
theorem pay4_apply (x0 : Vec Ideal S5000x128 .f32) (s : Vec Ideal S1x128 .f32) (q : Fin 128) :
    k1_pay4 (F := Ideal) x0 s (ix2 (0 : Fin 1) q) = s (ix2 (0 : Fin 1) q) + ∑ d : Fin 5000, Spec.leaky (x0 (ix2 d q)) := by
  unfold k1_pay4
  rw [shapeCast_self]
  refine (addf_apply _ _ _).trans ?_
  refine congrArg (fun z => s (ix2 (0 : Fin 1) q) + z) ?_
  refine (shapeCast_addUnit_apply ![128] _ _ (ix2 (0 : Fin 1) q)).trans ?_
  refine (colsum_block _ _ _ _ q _ rfl).trans ?_
  exact Finset.sum_congr rfl fun d _ => pay3_apply x0 (ix2 d q)

/-- The second accumulator's update at a column: what it held plus the column sum of the squares. -/
theorem pay5_apply (x0 : Vec Ideal S5000x128 .f32) (s : Vec Ideal S1x128 .f32) (q : Fin 128) :
    k1_pay5 (F := Ideal) x0 s (ix2 (0 : Fin 1) q)
      = s (ix2 (0 : Fin 1) q) + ∑ d : Fin 5000, Spec.leaky (x0 (ix2 d q)) * Spec.leaky (x0 (ix2 d q)) := by
  unfold k1_pay5
  rw [shapeCast_self]
  refine (addf_apply _ _ _).trans ?_
  refine congrArg (fun z => s (ix2 (0 : Fin 1) q) + z) ?_
  refine (shapeCast_addUnit_apply ![128] _ _ (ix2 (0 : Fin 1) q)).trans ?_
  refine (colsum_block _ _ _ _ q _ rfl).trans ?_
  refine Finset.sum_congr rfl fun d _ => ?_
  refine (mulf_apply _ _ _).trans ?_
  rw [pay3_apply]

/-- The two reset rows are zero. -/
theorem pay1_apply (j : S1x128.Idx) : k1_pay1 (F := Ideal) j = 0 := by
  unfold k1_pay1
  rw [shapeCast_self]
  exact Ideal.ofBits_zero_f32

theorem pay2_apply (j : S1x128.Idx) : k1_pay2 (F := Ideal) j = 0 := by
  unfold k1_pay2
  rw [shapeCast_self]
  exact Ideal.ofBits_zero_f32

/-! ## The blocks of the input -/

section Region1Value

variable (V : (c : Dev nD) → (b : Ref sig .tc) → Buf (Elt Ideal) ((c : Thread nD τ).loc b))

/-- The printed index maps over the grid: at point `t` windows 0 and 1 take block `t` of the rows, all the columns. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input window's block at point `t` is rows `5000 t … 5000 t + 4999` of the array the region reads. -/
theorem block1_apply (c : Dev nD) (t : Fin cfg1.N) (x : S5000x128.Idx) (k : S50000x128.Idx)
    (hk0 : (k 0).val = 5000 * t.val + (x 0).val) (hk1 : (k 1).val = (x 1).val) :
    (block1 V c 0 t : Vec Ideal S5000x128 .f32) x = (V c (Pipeline.arrRef spec1 0) : S50000x128.Idx → Elt Ideal .f32) k := by
  obtain ⟨e0, e1, -, -⟩ := idx_facts1 t
  unfold block1
  rw [View.read_apply]
  show V c main_v30 _ = V c main_v30 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-! ## Output 1: the rectified array -/

/-- What point `t` writes back to output 1 is block `t` of the rectified input. -/
theorem flushed1_eq (c : Dev nD) (t : Fin cfg1.N) :
    (data1 V c).flushed 1 t = ((cfg1.win 1).blk t).view.read (Elt Ideal) (Spec.leakyAll (V c (Pipeline.arrRef spec1 0))) := by
  show (cfg1.win 1).cut (grid1.coords t) ((data1 V c).after 1 t) = _
  rw [data1_after_1]
  show k1_pay3 (block1 V c 0 t) = _
  obtain ⟨-, -, e2, e3⟩ := idx_facts1 t
  funext j
  refine (pay3_apply _ j).trans ?_
  rw [View.read_apply]
  show Spec.leaky _ = Spec.leaky (V c main_v30 (((cfg1.win 1).blk t).view.emb j))
  refine congrArg Spec.leaky ?_
  refine block1_apply V c t j _ ?_ ?_
  · show win1_1.index t 0 * 5000 + 1 * (j 0).val = 5000 * t.val + (j 0).val; rw [e2]; omega
  · show win1_1.index t 1 * 128 + 1 * (j 1).val = (j 1).val; rw [e3]; omega

/-- Every row lies in the block of the point `row / 5000`, and every point writes output 1 back. -/
theorem cover1 (i : S50000x128.Idx) :
    ∃ t : Fin cfg1.N, (cfg1.win 1).flush t = true ∧ i ∈ ((cfg1.win 1).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, e2, e3⟩ := idx_facts1 ⟨(i 0).val / 5000, ht⟩
  refine ⟨⟨(i 0).val / 5000, ht⟩, flush1_1 _, ?_⟩
  show i ∈ ((View.whole main_v31_0).slice (win1_1.rect ⟨(i 0).val / 5000, ht⟩)).set
  rw [View.set_slice_whole, Rect.mem_set_unit]
  intro a
  match a with
  | ⟨0, _⟩ =>
    show win1_1.index ⟨(i 0).val / 5000, ht⟩ 0 * 5000 ≤ (i 0).val ∧ (i 0).val < win1_1.index ⟨(i 0).val / 5000, ht⟩ 0 * 5000 + 5000
    rw [e2]; dsimp only; omega
  | ⟨1, _⟩ =>
    show win1_1.index ⟨(i 0).val / 5000, ht⟩ 1 * 128 ≤ (i 1).val ∧ (i 1).val < win1_1.index ⟨(i 0).val / 5000, ht⟩ 1 * 128 + 128
    rw [e3]; omega

/-! ## Outputs 2 and 3: the column sums -/

/-- Column `q` of the rectified input, each entry through `φ`, as a sequence over the row number (zero past the
    last row): what the ten block sums are taken of. -/
def colSeq (c : Dev nD) (φ : Ideal .f32 → Ideal .f32) (q : Fin 128) (r : ℕ) : Ideal .f32 :=
  if h : r < 50000 then φ (Spec.leakyAll (V c (Pipeline.arrRef spec1 0)) (ix2 (⟨r, h⟩ : Fin 50000) q)) else 0

/-- The column sum of block `t` is the sum of the sequence over rows `5000 t … 5000 t + 4999`. -/
theorem blocksum_eq (c : Dev nD) (φ : Ideal .f32 → Ideal .f32) (q : Fin 128) (t : Fin cfg1.N) :
    ∑ d : Fin 5000, φ (Spec.leaky ((block1 V c 0 t : Vec Ideal S5000x128 .f32) (ix2 d q)))
      = ∑ d : Fin 5000, colSeq V c φ q (5000 * t.val + d.val) := by
  have hN : cfg1.N = 10 := N_1
  have ht : t.val < 10 := lt_of_lt_of_eq t.isLt hN
  refine Finset.sum_congr rfl fun d _ => ?_
  have hr : 5000 * t.val + d.val < 50000 := by have := d.isLt; omega
  unfold colSeq
  rw [dif_pos hr]
  unfold Spec.leakyAll
  refine congrArg (fun z => φ (Spec.leaky z)) ?_
  exact block1_apply V c t (ix2 d q) (ix2 (⟨5000 * t.val + d.val, hr⟩ : Fin 50000) q) rfl rfl

/-- After point `n` the two accumulators hold, at column `q`, the block sums of points `0 … n` added up: of the
    rectified entries, and of their squares. -/
theorem acc1_apply (c : Dev nD) (q : Fin 128) : ∀ (n : ℕ) (hn : n < cfg1.N),
    (acc1 V c n hn).1 (ix2 (0 : Fin 1) q)
        = ∑ s ∈ Finset.range (n + 1), ∑ d : Fin 5000, colSeq V c id q (5000 * s + d.val)
      ∧ (acc1 V c n hn).2 (ix2 (0 : Fin 1) q)
        = ∑ s ∈ Finset.range (n + 1), ∑ d : Fin 5000, colSeq V c (fun z => z * z) q (5000 * s + d.val)
  | 0, hn => by
    constructor
    · show k1_pay4 (block1 V c 0 ⟨0, hn⟩) (k1_pay1 (F := Ideal)) (ix2 (0 : Fin 1) q) = _
      refine (pay4_apply (block1 V c 0 ⟨0, hn⟩) (k1_pay1 (F := Ideal)) q).trans ?_
      rw [pay1_apply, zero_add, Finset.sum_range_one]
      exact blocksum_eq V c id q ⟨0, hn⟩
    · show k1_pay5 (block1 V c 0 ⟨0, hn⟩) (k1_pay2 (F := Ideal)) (ix2 (0 : Fin 1) q) = _
      refine (pay5_apply (block1 V c 0 ⟨0, hn⟩) (k1_pay2 (F := Ideal)) q).trans ?_
      rw [pay2_apply, zero_add, Finset.sum_range_one]
      exact blocksum_eq V c (fun z => z * z) q ⟨0, hn⟩
  | n + 1, hn => by
    obtain ⟨ih1, ih2⟩ := acc1_apply c q n (Nat.lt_of_succ_lt hn)
    constructor
    · show k1_pay4 (block1 V c 0 ⟨n + 1, hn⟩) (acc1 V c n (Nat.lt_of_succ_lt hn)).1 (ix2 (0 : Fin 1) q) = _
      refine (pay4_apply (block1 V c 0 ⟨n + 1, hn⟩) (acc1 V c n (Nat.lt_of_succ_lt hn)).1 q).trans ?_
      rw [ih1, Finset.sum_range_succ _ (n + 1)]
      exact congrArg (fun z => _ + z) (blocksum_eq V c id q ⟨n + 1, hn⟩)
    · show k1_pay5 (block1 V c 0 ⟨n + 1, hn⟩) (acc1 V c n (Nat.lt_of_succ_lt hn)).2 (ix2 (0 : Fin 1) q) = _
      refine (pay5_apply (block1 V c 0 ⟨n + 1, hn⟩) (acc1 V c n (Nat.lt_of_succ_lt hn)).2 q).trans ?_
      rw [ih2, Finset.sum_range_succ _ (n + 1)]
      exact congrArg (fun z => _ + z) (blocksum_eq V c (fun z => z * z) q ⟨n + 1, hn⟩)

/-- Ten blocks of 5000 rows are the 50000 rows. -/
theorem sum_blocks_all (c : Dev nD) (φ : Ideal .f32 → Ideal .f32) (q : Fin 128) :
    ∑ s ∈ Finset.range (9 + 1), ∑ d : Fin 5000, colSeq V c φ q (5000 * s + d.val)
      = ∑ i : Fin 50000, φ (Spec.leakyAll (V c (Pipeline.arrRef spec1 0)) (ix2 i q)) := by
  refine (Cert.LibBlockedSum.sum_range_blocks 10 5000 (colSeq V c φ q)).trans ?_
  show ∑ k : Fin 50000, colSeq V c φ q k.val = _
  refine Finset.sum_congr rfl fun k _ => ?_
  unfold colSeq
  rw [dif_pos k.isLt]

/-- After the last point the accumulators are the column sums over all the rows. -/
theorem acc1_last (c : Dev nD) :
    (acc1 V c t1_9.val t1_9.isLt).1 = Spec.colsum (Spec.leakyAll (V c (Pipeline.arrRef spec1 0)))
      ∧ (acc1 V c t1_9.val t1_9.isLt).2 = Spec.colsumsq (Spec.leakyAll (V c (Pipeline.arrRef spec1 0))) := by
  constructor
  · funext j
    obtain ⟨p, q, rfl⟩ : ∃ (p : Fin 1) (q : Fin 128), j = ix2 p q := ⟨j 0, j 1, eq_ix2 j⟩
    obtain rfl : p = 0 := Subsingleton.elim _ _
    refine ((acc1_apply V c q 9 t1_9.isLt).1).trans ?_
    exact sum_blocks_all V c id q
  · funext j
    obtain ⟨p, q, rfl⟩ : ∃ (p : Fin 1) (q : Fin 128), j = ix2 p q := ⟨j 0, j 1, eq_ix2 j⟩
    obtain rfl : p = 0 := Subsingleton.elim _ _
    refine ((acc1_apply V c q 9 t1_9.isLt).2).trans ?_
    exact sum_blocks_all V c (fun z => z * z) q

/-- The one write-back of outputs 2 and 3, at the last point, writes the accumulators: the block at zero offsets of a
    [1,128] array is the array. -/
theorem flushed2_eq (c : Dev nD) (t : Fin cfg1.N) (hf : (cfg1.win 2).flush t = true) :
    (data1 V c).flushed 2 t
      = ((cfg1.win 2).blk t).view.read (Elt Ideal) (Spec.colsum (Spec.leakyAll (V c (Pipeline.arrRef spec1 0)))) := by
  have hN : cfg1.N = 10 := N_1
  have h9 : t.val = 9 := by have := (flush1_2 t).mp hf; have := t.isLt; omega
  obtain rfl : t = t1_9 := Fin.ext h9
  show (cfg1.win 2).cut (grid1.coords t1_9) ((data1 V c).after 2 t1_9) = _
  rw [data1_after_2]
  show (acc1 V c t1_9.val t1_9.isLt).1 = _
  rw [(acc1_last V c).1]
  have hz' : (fun a => win1_2.index t1_9 a * main_v31_1.ty.shape.size a) = fun _ => 0 := funext fun a => by fin_cases a <;> decide
  exact (Memref.read_access_unit_zero (Elt Ideal) main_v31_1 hz' (fun a => by rw [congrFun hz' a]; simp)
    (Spec.colsum (Spec.leakyAll (V c (Pipeline.arrRef spec1 0))))).symm

theorem flushed3_eq (c : Dev nD) (t : Fin cfg1.N) (hf : (cfg1.win 3).flush t = true) :
    (data1 V c).flushed 3 t
      = ((cfg1.win 3).blk t).view.read (Elt Ideal) (Spec.colsumsq (Spec.leakyAll (V c (Pipeline.arrRef spec1 0)))) := by
  have hN : cfg1.N = 10 := N_1
  have h9 : t.val = 9 := by have := (flush1_3 t).mp hf; have := t.isLt; omega
  obtain rfl : t = t1_9 := Fin.ext h9
  show (cfg1.win 3).cut (grid1.coords t1_9) ((data1 V c).after 3 t1_9) = _
  rw [data1_after_3]
  show (acc1 V c t1_9.val t1_9.isLt).2 = _
  rw [(acc1_last V c).2]
  have hz' : (fun a => win1_3.index t1_9 a * main_v31_2.ty.shape.size a) = fun _ => 0 := funext fun a => by fin_cases a <;> decide
  exact (Memref.read_access_unit_zero (Elt Ideal) main_v31_2 hz' (fun a => by rw [congrFun hz' a]; simp)
    (Spec.colsumsq (Spec.leakyAll (V c (Pipeline.arrRef spec1 0))))).symm

/-- The last point's block of output 2 is the whole [1,128] array. -/
theorem cover2 (i : S1x128.Idx) :
    ∃ t : Fin cfg1.N, (cfg1.win 2).flush t = true ∧ i ∈ ((cfg1.win 2).blk t).view.set := by
  refine ⟨t1_9, (flush1_2 t1_9).mpr rfl, ?_⟩
  show i ∈ ((View.whole main_v31_1).slice (win1_2.rect t1_9)).set
  rw [View.set_slice_whole, Rect.mem_set_unit]
  intro a
  have h0 : (i 0 : Nat) < 1 := (i 0).isLt
  have h1 : (i 1 : Nat) < 128 := (i 1).isLt
  match a with
  | ⟨0, _⟩ =>
    show win1_2.index t1_9 0 * 1 ≤ (i 0 : Nat) ∧ (i 0 : Nat) < win1_2.index t1_9 0 * 1 + 1
    rw [show win1_2.index t1_9 0 = 0 from by decide +kernel]; omega
  | ⟨1, _⟩ =>
    show win1_2.index t1_9 1 * 128 ≤ (i 1 : Nat) ∧ (i 1 : Nat) < win1_2.index t1_9 1 * 128 + 128
    rw [show win1_2.index t1_9 1 = 0 from by decide +kernel]; omega

theorem cover3 (i : S1x128.Idx) :
    ∃ t : Fin cfg1.N, (cfg1.win 3).flush t = true ∧ i ∈ ((cfg1.win 3).blk t).view.set := by
  refine ⟨t1_9, (flush1_3 t1_9).mpr rfl, ?_⟩
  show i ∈ ((View.whole main_v31_2).slice (win1_3.rect t1_9)).set
  rw [View.set_slice_whole, Rect.mem_set_unit]
  intro a
  have h0 : (i 0 : Nat) < 1 := (i 0).isLt
  have h1 : (i 1 : Nat) < 128 := (i 1).isLt
  match a with
  | ⟨0, _⟩ =>
    show win1_3.index t1_9 0 * 1 ≤ (i 0 : Nat) ∧ (i 0 : Nat) < win1_3.index t1_9 0 * 1 + 1
    rw [show win1_3.index t1_9 0 = 0 from by decide +kernel]; omega
  | ⟨1, _⟩ =>
    show win1_3.index t1_9 1 * 128 ≤ (i 1 : Nat) ∧ (i 1 : Nat) < win1_3.index t1_9 1 * 128 + 128
    rw [show win1_3.index t1_9 1 = 0 from by decide +kernel]; omega

end Region1Value

end Stats

/-! ## The three output arrays after the region -/

section Region1Arrays

open Stats

variable (V : (c : Dev nD) → (b : Ref sig .tc) → Buf (Elt Ideal) ((c : Thread nD τ).loc b))

/-- OUTPUT 1 after the region: the leaky rectifier of the array the region reads, entry by entry. -/
theorem value1_y (c : Dev nD) :
    (data1 (F := Ideal) V c).arrAt 1 cfg1.N = Spec.leakyAll (V c (Pipeline.arrRef spec1 0)) :=
  (data1 V c).arrAt_eq_of_cover 1 (Spec.leakyAll (V c (Pipeline.arrRef spec1 0))) (fun t _ => flushed1_eq V c t) cover1

/-- OUTPUT 2 after the region: per column, the sum of the rectified entries over all 50000 rows. -/
theorem value1_s (c : Dev nD) :
    (data1 (F := Ideal) V c).arrAt 2 cfg1.N = Spec.colsum (Spec.leakyAll (V c (Pipeline.arrRef spec1 0))) :=
  (data1 V c).arrAt_eq_of_cover 2 (Spec.colsum (Spec.leakyAll (V c (Pipeline.arrRef spec1 0)))) (flushed2_eq V c) cover2

/-- OUTPUT 3 after the region: per column, the sum of the squares of the rectified entries over all 50000 rows. -/
theorem value1_ss (c : Dev nD) :
    (data1 (F := Ideal) V c).arrAt 3 cfg1.N = Spec.colsumsq (Spec.leakyAll (V c (Pipeline.arrRef spec1 0))) :=
  (data1 V c).arrAt_eq_of_cover 3 (Spec.colsumsq (Spec.leakyAll (V c (Pipeline.arrRef spec1 0)))) (flushed3_eq V c) cover3

end Region1Arrays

end Cert.KernelIdeal.Hand

end
-- ==== Proof.Ideal.Value2.lean ====
/- Region 2 of @main on the extended reals: the array its output window ends holding.

   The grid has ten points.  At point `t` the first input's block and the output's block are rows
   `5000 t` to `5000 t + 4999` of their 50000×128 arrays; the five 1×128 rows are the same at every
   point.  The stored value is columnwise: entry `(r, j)` of the block reads entry `(r, j)` of the input
   block and entry `(0, j)` of each row.  So block `t` of what is written back is block `t` of one
   function of the whole arrays, and the ten blocks tile the output array. -/
import proofs.«125197_j20590073217153_1_alg».proof.Proof.Ideal.Region2
import proofs.«125197_j20590073217153_1_alg».proof.Proof.Ideal.Spec
import Idealize.ShloMosaic.Lib.ValueLayout
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the core's buffer contents on entry to the region, on the extended reals
variable (V : (c : Dev nD) → (b : Ref sig .tc) → Buf (Elt Ideal) ((c : Thread nD τ).loc b))

/-! ## The stored value at an entry -/

theorem zeros_r2 : (![0, 0] : Fin 2 → Nat) = fun _ => 0 := funext fun a => by fin_cases a <;> rfl

/-- The stored value at `(r, j)`, from the blocks in the order the body loads them (the block, then the rows of
    windows 5, 1, 2, 3, 4): every row enters through a broadcast down the 5000 rows, which at `(r, j)` reads
    the row at `(0, j)`. -/
theorem stored2_apply (x0 : FVec Ideal S5000x128 .f32) (x5 x1 x2 x3 x4 : FVec Ideal S1x128 .f32) (r : Fin 5000) (j : Fin 128) :
    k2_pay1 (F := Ideal) x0 x5 x1 x2 x3 x4 (ix2 r j)
      = x3 (ix2 (0 : Fin 1) j) * (x0 (ix2 r j) - x5 (ix2 (0 : Fin 1) j) * x1 (ix2 (0 : Fin 1) j))
          * Ideal.rsqrt (x2 (ix2 (0 : Fin 1) j) + Ideal.ofBits .f32 0x3727C5AC#32)
        + x4 (ix2 (0 : Fin 1) j) := by
  unfold k2_pay1
  simp only [addf_apply, mulf_apply, subf_apply, broadcastTo_1b_ab_apply, shapeCast_self]
  rfl

/-- The entry depends on one entry of the first array and on column `j` of each row. -/
theorem normalizeAt_congr (B0 : FVec Ideal S5000x128 .f32) (A0 : FVec Ideal S50000x128 .f32)
    (B1 A1 B2 A2 B3 A3 B4 A4 B5 A5 : FVec Ideal S1x128 .f32) (r : Fin 5000) (j : Fin 128) (i : Fin 50000) (j' : Fin 128)
    (h0 : B0 (ix2 r j) = A0 (ix2 i j')) (h1 : B1 (ix2 (0 : Fin 1) j) = A1 (ix2 (0 : Fin 1) j'))
    (h2 : B2 (ix2 (0 : Fin 1) j) = A2 (ix2 (0 : Fin 1) j')) (h3 : B3 (ix2 (0 : Fin 1) j) = A3 (ix2 (0 : Fin 1) j'))
    (h4 : B4 (ix2 (0 : Fin 1) j) = A4 (ix2 (0 : Fin 1) j')) (h5 : B5 (ix2 (0 : Fin 1) j) = A5 (ix2 (0 : Fin 1) j')) :
    B3 (ix2 (0 : Fin 1) j) * (B0 (ix2 r j) - B5 (ix2 (0 : Fin 1) j) * B1 (ix2 (0 : Fin 1) j))
          * Ideal.rsqrt (B2 (ix2 (0 : Fin 1) j) + Ideal.ofBits .f32 0x3727C5AC#32)
        + B4 (ix2 (0 : Fin 1) j)
      = Spec.normalizeAt A0 A1 A2 A3 A4 A5 i j' := by
  unfold Spec.normalizeAt
  rw [h0, h1, h2, h3, h4, h5]

/-- One store through the whole buffer leaves the stored value, and a load through the whole buffer reads the block. -/
theorem stored2_eq (x0 : Vec Ideal S5000x128 .f32) (x1 x2 x3 x4 x5 : Vec Ideal S1x128 .f32) :
    stored2 x0 x1 x2 x3 x4 x5 = k2_pay1 x0 x5 x1 x2 x3 x4 := by
  unfold stored2
  rw [View.canon_unit_zero zeros_r2]
  simp only [View.ld_unit_zero (S := S5000x128) zeros_r2, View.ld_unit_zero (S := S1x128) zeros_r2]

/-! ## From the blocks to the array -/

/-- The block indices over the grid: the first input and the output are at row block `t`, column block 0; the
    five rows are at block 0 on both axes. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 1000000 in
/-- What point `t` writes back is block `t` of `Spec.normalize` of the arrays as the region finds them. -/
theorem flushed2_eq (c : Dev nD) (t : Fin cfg2.N) :
    (data2 V c).flushed 6 t = ((cfg2.win 6).blk t).view.read (Elt Ideal)
      (Spec.normalize (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((data2 V c).after 6 t) = _
  rw [data2_after_6, stored2_eq]
  obtain ⟨e00, e01, e10, e11, e20, e21, e30, e31, e40, e41, e50, e51, e60, e61⟩ := index2 t
  funext y
  obtain ⟨r, j, rfl⟩ : ∃ (r : Fin 5000) (j : Fin 128), y = ix2 r j := ⟨y 0, y 1, eq_ix2 y⟩
  refine (stored2_apply _ _ _ _ _ _ r j).trans ?_
  refine normalizeAt_congr _ _ _ _ _ _ _ _ _ _ _ _ r j _ _ ?_ ?_ ?_ ?_ ?_ ?_
  · show V c (Pipeline.arrRef spec2 0) (((cfg2.win 0).blk t).view.emb (ix2 r j)) = _
    refine congrArg _ (funext fun a => Fin.ext ?_)
    match a with
    | ⟨0, _⟩ => show win2_0.index t (0 : Fin 2) * 5000 + 1 * r.val = win2_6.index t (0 : Fin 2) * 5000 + 1 * r.val; omega
    | ⟨1, _⟩ => show win2_0.index t (1 : Fin 2) * 128 + 1 * j.val = win2_6.index t (1 : Fin 2) * 128 + 1 * j.val; omega
  · show V c (Pipeline.arrRef spec2 1) (((cfg2.win 1).blk t).view.emb (ix2 (0 : Fin 1) j)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * j.val = win2_6.index t (1 : Fin 2) * 128 + 1 * j.val; omega
  · show V c (Pipeline.arrRef spec2 2) (((cfg2.win 2).blk t).view.emb (ix2 (0 : Fin 1) j)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * j.val = win2_6.index t (1 : Fin 2) * 128 + 1 * j.val; omega
  · show V c (Pipeline.arrRef spec2 3) (((cfg2.win 3).blk t).view.emb (ix2 (0 : Fin 1) j)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * j.val = win2_6.index t (1 : Fin 2) * 128 + 1 * j.val; omega
  · show V c (Pipeline.arrRef spec2 4) (((cfg2.win 4).blk t).view.emb (ix2 (0 : Fin 1) j)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * j.val = win2_6.index t (1 : Fin 2) * 128 + 1 * j.val; omega
  · show V c (Pipeline.arrRef spec2 5) (((cfg2.win 5).blk t).view.emb (ix2 (0 : Fin 1) j)) = _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * j.val = win2_6.index t (1 : Fin 2) * 128 + 1 * j.val; omega

/-- An index of the output array lies in point `t`'s block iff each coordinate lies in the block's range. -/
theorem mem_block2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v50).slice (win2_6.rect t)).set ↔ _
  rw [View.set_slice_whole, Rect.mem_set_unit]
  exact Iff.rfl

/-- Row `r` of the output array lies in the block of point `r / 5000`: the ten blocks tile the array. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  have ht : t.val = (i 0).val / 5000 := rfl
  refine ⟨t, flush2_6 t, ?_⟩
  rw [mem_block2]
  obtain ⟨-, -, -, -, -, -, -, -, -, -, -, -, e60, e61⟩ := index2 t
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- THE OUTPUT ARRAY after the region: `Spec.normalize` of the six input arrays as the region finds them. -/
theorem value2 (c : Dev nD) :
    (data2 (F := Ideal) V c).arrAt 6 cfg2.N
      = Spec.normalize (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (data2 V c).arrAt_eq_of_cover 6 _ (fun t _ => flushed2_eq V c t) (cover2)

end Cert.KernelIdeal.Hand

end
-- ==== Proof.Ideal.Value3.lean ====
/- Region 3 of @main on the extended reals: the array its output window ends holding.

   The grid has one point and every window's block is its whole array, so the one write-back fills the
   128×15 output array with the stored value: at `(g, o)` the sum over the 64 hidden units `k` of the
   rectified inner product of row `g` of the first input with row `k` of the second, times entry
   `(o, k)` of the third. -/
import proofs.«125197_j20590073217153_1_alg».proof.Proof.Ideal.Region3
import proofs.«125197_j20590073217153_1_alg».proof.Proof.Ideal.Spec
import proofs.«125197_j20590073217153_1_alg».proof.Proof.LibInnerProducts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the core's buffer contents on entry to the region, on the extended reals
variable (V : (c : Dev nD) → (b : Ref sig .tc) → Buf (Elt Ideal) ((c : Thread nD τ).loc b))

open Idealize.ShloMosaic.InnerProducts

/-! ## The stored value at an entry -/

theorem zeros2 : (![0, 0] : Fin 2 → Nat) = fun _ => 0 := funext fun a => by fin_cases a <;> rfl

/-- The hidden layer before the rectifier: the first matrix product takes its right factor transposed, so at
    `(g, k)` it is the inner product of row `g` of `x0` with ROW `k` of `x1`. -/
theorem hidden3_apply (x0 : FVec Ideal S128x128 .f32) (x1 : FVec Ideal S64x128 .f32)
    (hs : S128x128.ShapeCasts S128x128) (hb : FTy.bits .bf16 < FTy.bits .f32) (ht : S64x128.Transposes [1, 0] S128x64)
    (g : Fin 128) (k : Fin 64) :
    matmul dot_S128x128_S128x64_S128x64_1_0_0_1_n_n none
        (truncf .bf16 (shapeCast S128x128 x0 hs) hb)
        (transpose S128x64 [1, 0] (truncf .bf16 x1 hb) ht)
        (constant (F := Ideal) S128x64 .f32 0x00000000#32) (ix2 g k)
      = ∑ d : Fin 128, x0 (ix2 g d) * x1 (ix2 k d) := by
  refine (matmul_zero_apply dot_S128x128_S128x64_S128x64_1_0_0_1_n_n rfl none _ _ g k).trans ?_
  refine Finset.sum_congr rfl fun d _ => ?_
  rw [transpose_apply [1, 0] _ ht (ix2 d k) (ix2 k d) (by intro b; match b with | ⟨0, _⟩ => rfl | ⟨1, _⟩ => rfl),
    shapeCast_self]
  rfl

/-- The stored value at `(g, o)`: the second matrix product also takes its right factor transposed, so the
    rectified hidden row `g` meets ROW `o` of `x2`. -/
theorem stored3_apply (x0 : FVec Ideal S128x128 .f32) (x1 : FVec Ideal S64x128 .f32) (x2 : FVec Ideal S15x64 .f32)
    (g : Fin 128) (o : Fin 15) :
    k3_pay1 (F := Ideal) x0 x1 x2 (ix2 g o) = Spec.mlpAt x0 x1 x2 g o := by
  unfold k3_pay1 Spec.mlpAt
  refine (matmul_zero_apply dot_S128x64_S64x15_S128x15_1_0_0_1_n_n rfl none _ _ g o).trans ?_
  refine Finset.sum_congr rfl fun k _ => ?_
  rw [transpose_apply [1, 0] _ transposes_S15x64_p1_0_S64x15 (ix2 k o) (ix2 o k)
    (by intro b; match b with | ⟨0, _⟩ => rfl | ⟨1, _⟩ => rfl)]
  have h := hidden3_apply x0 x1 shapeCasts_S128x128_S128x128 bitsLt_bf16_f32 transposes_S64x128_p1_0_S128x64 g k
  rw [← h]
  rfl

/-- The entry depends on row `g` of the first array, all of the second, and row `o` of the third. -/
theorem mlpAt_congr (B0 A0 : FVec Ideal S128x128 .f32) (B1 A1 : FVec Ideal S64x128 .f32) (B2 A2 : FVec Ideal S15x64 .f32)
    (g g' : Fin 128) (o o' : Fin 15)
    (h0 : ∀ d : Fin 128, B0 (ix2 g d) = A0 (ix2 g' d)) (h1 : ∀ (k : Fin 64) (d : Fin 128), B1 (ix2 k d) = A1 (ix2 k d))
    (h2 : ∀ k : Fin 64, B2 (ix2 o k) = A2 (ix2 o' k)) :
    Spec.mlpAt B0 B1 B2 g o = Spec.mlpAt A0 A1 A2 g' o' := by
  unfold Spec.mlpAt
  refine Finset.sum_congr rfl fun k _ => ?_
  rw [h2 k]
  refine congrArg (fun z => Spec.leaky z * A2 (ix2 o' k)) ?_
  exact Finset.sum_congr rfl fun d _ => by rw [h0 d, h1 k d]

/-- One store through the whole buffer leaves the stored value, and a load through the whole buffer reads the block. -/
theorem stored3_eq (x0 : Vec Ideal S128x128 .f32) (x1 : Vec Ideal S64x128 .f32) (x2 : Vec Ideal S15x64 .f32) :
    stored3 x0 x1 x2 = k3_pay1 x0 x1 x2 := by
  unfold stored3
  rw [View.canon_unit_zero zeros2]
  simp only [View.ld_unit_zero (S := S128x128) zeros2, View.ld_unit_zero (S := S64x128) zeros2,
    View.ld_unit_zero (S := S15x64) zeros2]

/-! ## From the block to the array -/

/-- Every window's block index is zero on both axes at the one grid point. -/
theorem index3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the point writes back is its block of `Spec.mlp` of the arrays as the region finds them. -/
theorem flushed3_eq (c : Dev nD) (t : Fin cfg3.N) :
    (data3 V c).flushed 3 t = ((cfg3.win 3).blk t).view.read (Elt Ideal)
      (Spec.mlp (V c (Pipeline.arrRef spec3 0)) (V c (Pipeline.arrRef spec3 1)) (V c (Pipeline.arrRef spec3 2))) := by
  show (cfg3.win 3).cut (grid3.coords t) ((data3 V c).after 3 t) = _
  rw [data3_after_3, stored3_eq]
  obtain ⟨e00, e01, e10, e11, e20, e21, e30, e31⟩ := index3 t
  funext j
  obtain ⟨g, o, rfl⟩ : ∃ (g : Fin 128) (o : Fin 15), j = ix2 g o := ⟨j 0, j 1, eq_ix2 j⟩
  refine (stored3_apply _ _ _ g o).trans ?_
  refine mlpAt_congr _ _ _ _ _ _ g _ o _ (fun d => ?_) (fun k d => ?_) (fun k => ?_)
  · show V c (Pipeline.arrRef spec3 0) (((cfg3.win 0).blk t).view.emb (ix2 g d)) = _
    refine congrArg _ (funext fun a => Fin.ext ?_)
    match a with
    | ⟨0, _⟩ => show win3_0.index t (0 : Fin 2) * 128 + 1 * g.val = win3_3.index t (0 : Fin 2) * 128 + 1 * g.val; omega
    | ⟨1, _⟩ => show win3_0.index t (1 : Fin 2) * 128 + 1 * d.val = d.val; omega
  · show V c (Pipeline.arrRef spec3 1) (((cfg3.win 1).blk t).view.emb (ix2 k d)) = _
    refine congrArg _ (funext fun a => Fin.ext ?_)
    match a with
    | ⟨0, _⟩ => show win3_1.index t (0 : Fin 2) * 64 + 1 * k.val = k.val; omega
    | ⟨1, _⟩ => show win3_1.index t (1 : Fin 2) * 128 + 1 * d.val = d.val; omega
  · show V c (Pipeline.arrRef spec3 2) (((cfg3.win 2).blk t).view.emb (ix2 o k)) = _
    refine congrArg _ (funext fun a => Fin.ext ?_)
    match a with
    | ⟨0, _⟩ => show win3_2.index t (0 : Fin 2) * 15 + 1 * o.val = win3_3.index t (1 : Fin 2) * 15 + 1 * o.val; omega
    | ⟨1, _⟩ => show win3_2.index t (1 : Fin 2) * 64 + 1 * k.val = k.val; omega

/-- An index of the output array lies in a point's block iff each coordinate lies in the block's range. -/
theorem mem_block3 (t : Fin cfg3.N) (i : S128x15.Idx) :
    i ∈ ((cfg3.win 3).blk t).view.set ↔ ∀ a : Fin 2, win3_3.index t a * S128x15.size a ≤ (i a).val
      ∧ (i a).val < win3_3.index t a * S128x15.size a + S128x15.size a := by
  show i ∈ ((View.whole main_v62).slice (win3_3.rect t)).set ↔ _
  rw [View.set_slice_whole, Rect.mem_set_unit]
  exact Iff.rfl

/-- The one block is the whole array. -/
theorem cover3 (i : S128x15.Idx) : ∃ t : Fin cfg3.N, (cfg3.win 3).flush t = true ∧ i ∈ ((cfg3.win 3).blk t).view.set := by
  refine ⟨t3_0, flush3_3 _, ?_⟩
  rw [mem_block3]
  obtain ⟨-, -, -, -, -, -, e30, e31⟩ := index3 t3_0
  intro a
  match a with
  | ⟨0, _⟩ =>
    show win3_3.index t3_0 (0 : Fin 2) * 128 ≤ (i 0).val ∧ (i 0).val < win3_3.index t3_0 (0 : Fin 2) * 128 + 128
    have hi : (i 0).val < 128 := (i 0).isLt; omega
  | ⟨1, _⟩ =>
    show win3_3.index t3_0 (1 : Fin 2) * 15 ≤ (i 1).val ∧ (i 1).val < win3_3.index t3_0 (1 : Fin 2) * 15 + 15
    have hi : (i 1).val < 15 := (i 1).isLt; omega

/-- THE OUTPUT ARRAY after the region: `Spec.mlp` of the three input arrays as the region finds them. -/
theorem value3 (c : Dev nD) :
    (data3 (F := Ideal) V c).arrAt 3 cfg3.N
      = Spec.mlp (V c (Pipeline.arrRef spec3 0)) (V c (Pipeline.arrRef spec3 1)) (V c (Pipeline.arrRef spec3 2)) :=
  (data3 V c).arrAt_eq_of_cover 3 _ (fun t _ => flushed3_eq V c t) (cover3)

end Cert.KernelIdeal.Hand

end
-- ==== Proof.Ideal.KernelValue.lean ====
/-
  The kernel program's result as one function of its arguments.  Walking the boundaries from the launch: the two degree
  normalisers; the projected rows h = (x·Wc)·norm_src (first region); the aggregated messages (host); their LeakyReLU y
  with its column sums and sums of squares (second region); the mean and folded-variance rows (host); the normalised
  rows (third region); the pooled rows (host); the two-layer perceptron on them (fourth region).
-/
import proofs.«125197_j20590073217153_1_alg».proof.Proof.Ideal.Run
import proofs.«125197_j20590073217153_1_alg».proof.Proof.Ideal.HostK
import proofs.«125197_j20590073217153_1_alg».proof.Proof.Ideal.Spec
import proofs.«125197_j20590073217153_1_alg».proof.Proof.Ideal.Spec1
import proofs.«125197_j20590073217153_1_alg».proof.Proof.Ideal.Value0
import proofs.«125197_j20590073217153_1_alg».proof.Proof.Ideal.Value1
import proofs.«125197_j20590073217153_1_alg».proof.Proof.Ideal.Value2
import proofs.«125197_j20590073217153_1_alg».proof.Proof.Ideal.Value3

set_option maxRecDepth 16384

noncomputable section

namespace Cert.KernelIdeal.Hand

open Idealize.ShloMosaic Idealize.ShloMosaic.TcCoe Idealize.SL.Sem
open Cert.KernelIdeal Cert.KernelIdeal.Gen Cert.KernelIdeal.Stages

variable (m : (ℓ : Loc nD τ sig) → Buf (Elt Ideal) ℓ) (c : Dev nD)

/-! ## Buffers no segment has written yet keep their contents -/

theorem keep5_main_arg0 : B5 m c (Proc.devRef .tc main_arg0) = m ((c : Thread nD τ).loc main_arg0) :=
  (B5_of m c main_arg0 (by decide)).trans ((B4_of m c main_arg0 (by decide)).trans ((B3_of m c main_arg0 (by decide)).trans ((B2_of m c main_arg0 (by decide)).trans ((B1_of m c main_arg0 (by decide))))))
theorem keep5_main_arg2 : B5 m c (Proc.devRef .tc main_arg2) = m ((c : Thread nD τ).loc main_arg2) :=
  (B5_of m c main_arg2 (by decide)).trans ((B4_of m c main_arg2 (by decide)).trans ((B3_of m c main_arg2 (by decide)).trans ((B2_of m c main_arg2 (by decide)).trans ((B1_of m c main_arg2 (by decide))))))
theorem keep6_main_arg8 : B6 m c (Proc.devRef .tc main_arg8) = m ((c : Thread nD τ).loc main_arg8) :=
  (B6_of_ne m c main_arg8 (by decide)).trans ((B5_of m c main_arg8 (by decide)).trans ((B4_of m c main_arg8 (by decide)).trans ((B3_of m c main_arg8 (by decide)).trans ((B2_of m c main_arg8 (by decide)).trans ((B1_of m c main_arg8 (by decide)))))))
theorem keep6_main_arg1 : B6 m c (Proc.devRef .tc main_arg1) = m ((c : Thread nD τ).loc main_arg1) :=
  (B6_of_ne m c main_arg1 (by decide)).trans ((B5_of m c main_arg1 (by decide)).trans ((B4_of m c main_arg1 (by decide)).trans ((B3_of m c main_arg1 (by decide)).trans ((B2_of m c main_arg1 (by decide)).trans ((B1_of m c main_arg1 (by decide)))))))
theorem keep6_main_arg9 : B6 m c (Proc.devRef .tc main_arg9) = m ((c : Thread nD τ).loc main_arg9) :=
  (B6_of_ne m c main_arg9 (by decide)).trans ((B5_of m c main_arg9 (by decide)).trans ((B4_of m c main_arg9 (by decide)).trans ((B3_of m c main_arg9 (by decide)).trans ((B2_of m c main_arg9 (by decide)).trans ((B1_of m c main_arg9 (by decide)))))))
theorem keep6_main_v12 : B6 m c (Proc.devRef .tc main_v12) = B5 m c (Proc.devRef .tc main_v12) :=
  (B6_of_ne m c main_v12 (by decide))
theorem keep8_main_arg5 : B8 m c (Proc.devRef .tc main_arg5) = m ((c : Thread nD τ).loc main_arg5) :=
  (B8_of_ne m c main_arg5 (by decide)).trans ((B7_of m c main_arg5 (by decide)).trans ((B6_of_ne m c main_arg5 (by decide)).trans ((B5_of m c main_arg5 (by decide)).trans ((B4_of m c main_arg5 (by decide)).trans ((B3_of m c main_arg5 (by decide)).trans ((B2_of m c main_arg5 (by decide)).trans ((B1_of m c main_arg5 (by decide)))))))))
theorem keep8_main_arg3 : B8 m c (Proc.devRef .tc main_arg3) = m ((c : Thread nD τ).loc main_arg3) :=
  (B8_of_ne m c main_arg3 (by decide)).trans ((B7_of m c main_arg3 (by decide)).trans ((B6_of_ne m c main_arg3 (by decide)).trans ((B5_of m c main_arg3 (by decide)).trans ((B4_of m c main_arg3 (by decide)).trans ((B3_of m c main_arg3 (by decide)).trans ((B2_of m c main_arg3 (by decide)).trans ((B1_of m c main_arg3 (by decide)))))))))
theorem keep8_main_arg4 : B8 m c (Proc.devRef .tc main_arg4) = m ((c : Thread nD τ).loc main_arg4) :=
  (B8_of_ne m c main_arg4 (by decide)).trans ((B7_of m c main_arg4 (by decide)).trans ((B6_of_ne m c main_arg4 (by decide)).trans ((B5_of m c main_arg4 (by decide)).trans ((B4_of m c main_arg4 (by decide)).trans ((B3_of m c main_arg4 (by decide)).trans ((B2_of m c main_arg4 (by decide)).trans ((B1_of m c main_arg4 (by decide)))))))))
theorem keep9_main_v31_0 : B9 m c (Proc.devRef .tc main_v31_0) = B8 m c (Proc.devRef .tc main_v31_0) :=
  (B9_of m c main_v31_0 (by decide))
theorem keep10_main_arg10 : B10 m c (Proc.devRef .tc main_arg10) = m ((c : Thread nD τ).loc main_arg10) :=
  (B10_of_ne m c main_arg10 (by decide)).trans ((B9_of m c main_arg10 (by decide)).trans ((B8_of_ne m c main_arg10 (by decide)).trans ((B7_of m c main_arg10 (by decide)).trans ((B6_of_ne m c main_arg10 (by decide)).trans ((B5_of m c main_arg10 (by decide)).trans ((B4_of m c main_arg10 (by decide)).trans ((B3_of m c main_arg10 (by decide)).trans ((B2_of m c main_arg10 (by decide)).trans ((B1_of m c main_arg10 (by decide)))))))))))
theorem keep13_main_arg6 : B13 m c (Proc.devRef .tc main_arg6) = m ((c : Thread nD τ).loc main_arg6) :=
  (B13_of m c main_arg6 (by decide)).trans ((B12_of m c main_arg6 (by decide)).trans ((B11_of m c main_arg6 (by decide)).trans ((B10_of_ne m c main_arg6 (by decide)).trans ((B9_of m c main_arg6 (by decide)).trans ((B8_of_ne m c main_arg6 (by decide)).trans ((B7_of m c main_arg6 (by decide)).trans ((B6_of_ne m c main_arg6 (by decide)).trans ((B5_of m c main_arg6 (by decide)).trans ((B4_of m c main_arg6 (by decide)).trans ((B3_of m c main_arg6 (by decide)).trans ((B2_of m c main_arg6 (by decide)).trans ((B1_of m c main_arg6 (by decide))))))))))))))
theorem keep13_main_arg7 : B13 m c (Proc.devRef .tc main_arg7) = m ((c : Thread nD τ).loc main_arg7) :=
  (B13_of m c main_arg7 (by decide)).trans ((B12_of m c main_arg7 (by decide)).trans ((B11_of m c main_arg7 (by decide)).trans ((B10_of_ne m c main_arg7 (by decide)).trans ((B9_of m c main_arg7 (by decide)).trans ((B8_of_ne m c main_arg7 (by decide)).trans ((B7_of m c main_arg7 (by decide)).trans ((B6_of_ne m c main_arg7 (by decide)).trans ((B5_of m c main_arg7 (by decide)).trans ((B4_of m c main_arg7 (by decide)).trans ((B3_of m c main_arg7 (by decide)).trans ((B2_of m c main_arg7 (by decide)).trans ((B1_of m c main_arg7 (by decide))))))))))))))

/-! ## The values at the boundaries -/

/-- The kernel program's result in terms of its arguments. -/
def resultK : (⟨S128x15, .f32⟩ : BufTy).Contents (Elt Ideal) :=
  let x := m ((c : Thread nD τ).loc main_arg0)
  let w := m ((c : Thread nD τ).loc main_arg1)
  let wc := m ((c : Thread nD τ).loc main_arg2)
  let gw := m ((c : Thread nD τ).loc main_arg3)
  let gb := m ((c : Thread nD τ).loc main_arg4)
  let gms := m ((c : Thread nD τ).loc main_arg5)
  let wl := m ((c : Thread nD τ).loc main_arg6)
  let wcls := m ((c : Thread nD τ).loc main_arg7)
  let src := m ((c : Thread nD τ).loc main_arg8)
  let dst := m ((c : Thread nD τ).loc main_arg9)
  let gid := m ((c : Thread nD τ).loc main_arg10)
  let y := Spec.leakyAll (agg (F := Ideal) (Spec.proj x wc (col (F := Ideal) (Stages.norm src))) src w dst (Stages.norm dst))
  Spec.mlp (pool (F := Ideal) (Spec.normalize y (row (F := Ideal) (meanVec (F := Ideal) (Spec.colsum y))) (row (F := Ideal) (varVec (F := Ideal) (Spec.colsum y) (Spec.colsumsq y) gms)) (row gw) (row gb) (row gms)) gid) wl wcls

/-- After the first region the projected rows. -/
theorem at6_v14 : B6 m c (Proc.devRef .tc main_v14)
    = Spec.proj (m ((c : Thread nD τ).loc main_arg0)) (m ((c : Thread nD τ).loc main_arg2)) (col (F := Ideal) (Stages.norm (F := Ideal) (m ((c : Thread nD τ).loc main_arg8)))) := by
  refine (B6_arr m c 3).trans ((value0 (E5 m) c).trans ?_)
  show Spec.proj (B5 m c (Proc.devRef .tc main_arg0)) (B5 m c (Proc.devRef .tc main_arg2)) (B5 m c (Proc.devRef .tc main_v13)) = _
  rw [keep5_main_arg0, keep5_main_arg2, show B5 m c (Proc.devRef .tc main_v13) = col (F := Ideal) (Stages.norm (F := Ideal) (m ((c : Thread nD τ).loc main_arg8))) from read_v13 (B0 m c)]

/-- Before the second region the aggregated messages. -/
theorem at7_v30 : B7 m c (Proc.devRef .tc main_v30)
    = agg (F := Ideal) (Spec.proj (m ((c : Thread nD τ).loc main_arg0)) (m ((c : Thread nD τ).loc main_arg2)) (col (F := Ideal) (Stages.norm (F := Ideal) (m ((c : Thread nD τ).loc main_arg8)))))
        (m ((c : Thread nD τ).loc main_arg8)) (m ((c : Thread nD τ).loc main_arg1)) (m ((c : Thread nD τ).loc main_arg9))
        (Stages.norm (F := Ideal) (m ((c : Thread nD τ).loc main_arg9))) := by
  refine (read_v30 (B6 m c)).trans ?_
  rw [at6_v14, keep6_main_arg8, keep6_main_arg1, keep6_main_arg9, keep6_main_v12,
    show B5 m c (Proc.devRef .tc main_v12) = Stages.norm (F := Ideal) (m ((c : Thread nD τ).loc main_arg9)) from read_v12 (B0 m c)]

/-- After the second region: the LeakyReLU of the aggregated messages, its column sums and sums of squares. -/
theorem at8_v31_0 : B8 m c (Proc.devRef .tc main_v31_0) = Spec.leakyAll (B7 m c (Proc.devRef .tc main_v30)) :=
  (B8_arr m c 1).trans (value1_y (E7 m) c)
theorem at8_v31_1 : B8 m c (Proc.devRef .tc main_v31_1) = Spec.colsum (Spec.leakyAll (B7 m c (Proc.devRef .tc main_v30))) :=
  (B8_arr m c 2).trans (value1_s (E7 m) c)
theorem at8_v31_2 : B8 m c (Proc.devRef .tc main_v31_2) = Spec.colsumsq (Spec.leakyAll (B7 m c (Proc.devRef .tc main_v30))) :=
  (B8_arr m c 3).trans (value1_ss (E7 m) c)

/-- After the third region the normalised rows. -/
theorem at10_v50 : B10 m c (Proc.devRef .tc main_v50)
    = Spec.normalize (Spec.leakyAll (B7 m c (Proc.devRef .tc main_v30)))
        (row (F := Ideal) (meanVec (F := Ideal) (Spec.colsum (Spec.leakyAll (B7 m c (Proc.devRef .tc main_v30))))))
        (row (F := Ideal) (varVec (F := Ideal) (Spec.colsum (Spec.leakyAll (B7 m c (Proc.devRef .tc main_v30)))) (Spec.colsumsq (Spec.leakyAll (B7 m c (Proc.devRef .tc main_v30))))
          (m ((c : Thread nD τ).loc main_arg5))))
        (row (F := Ideal) (m ((c : Thread nD τ).loc main_arg3))) (row (F := Ideal) (m ((c : Thread nD τ).loc main_arg4))) (row (F := Ideal) (m ((c : Thread nD τ).loc main_arg5))) := by
  refine (B10_arr m c 6).trans ((value2 (E9 m) c).trans ?_)
  show Spec.normalize (B9 m c (Proc.devRef .tc main_v31_0)) (B9 m c (Proc.devRef .tc main_v45)) (B9 m c (Proc.devRef .tc main_v46))
    (B9 m c (Proc.devRef .tc main_v47)) (B9 m c (Proc.devRef .tc main_v48)) (B9 m c (Proc.devRef .tc main_v49)) = _
  rw [keep9_main_v31_0, at8_v31_0,
    show B9 m c (Proc.devRef .tc main_v45) = _ from read_v45 (B8 m c),
    show B9 m c (Proc.devRef .tc main_v46) = _ from read_v46 (B8 m c),
    show B9 m c (Proc.devRef .tc main_v47) = _ from read_v47 (B8 m c),
    show B9 m c (Proc.devRef .tc main_v48) = _ from read_v48 (B8 m c),
    show B9 m c (Proc.devRef .tc main_v49) = _ from read_v49 (B8 m c),
    at8_v31_1, at8_v31_2, keep8_main_arg5, keep8_main_arg3, keep8_main_arg4]

/-- After the last region the result array. -/
theorem at14_v62 : (data3 (F := Ideal) (E13 m) c).arrAt 3 cfg3.N = resultK m c := by
  refine (value3 (E13 m) c).trans ?_
  show Spec.mlp (B13 m c (Proc.devRef .tc main_v61)) (B13 m c (Proc.devRef .tc main_arg6)) (B13 m c (Proc.devRef .tc main_arg7)) = _
  rw [keep13_main_arg6, keep13_main_arg7, show B13 m c (Proc.devRef .tc main_v61) = _ from read_v61 (B10 m c), at10_v50, keep10_main_arg10, at7_v30]
  rfl

end Cert.KernelIdeal.Hand

end
-- ==== Proof.LibAllReal.lean ====
/-
  Vectors of extended reals all of whose entries are real numbers.

  At the ideal instance a float is an extended real.  Many algebraic identities (for example the
  expansion of a centred second moment) hold over the reals but fail at an infinity, so a proof
  that uses one must first know that the quantities in play are real numbers.  This file records,
  once and in general, that the operations a program is built from send real entries to real
  entries: constants of finite words, every pure re-indexing, the arithmetic operations, maximum,
  select, real powers, finite sums (reductions, contractions, accumulating scatters) and the
  quotient by a nonzero real.

  `IsReal x` says that the extended real `x` is (the image of) a real number; `AllReal v` says it
  of every entry of the family `v`.  The index type of a family is arbitrary, so the statements
  apply to the vectors `S.Idx → EReal` (that is, `FVec Ideal S φ`) of every shape `S`.
-/
import Mathlib.Tactic
import Idealize.ShloMosaic.PureOps.Ideal
import Idealize.ShloMosaic.PureOps.Ideal.Laws
import Idealize.ShloMosaic.PureOps.Contract
import Idealize.ShloMosaic.PureOps.ShapeOps

namespace Cert.Proof.AllReal

open Idealize.ShloMosaic
open scoped BigOperators

/-! ## One extended real -/

/-- The extended real `x` is (the image of) a real number. -/
def IsReal (x : EReal) : Prop := ∃ r : ℝ, x = (r : EReal)

/-- Every entry of the family `v` is a real number. -/
def AllReal {ι : Type*} (v : ι → EReal) : Prop := ∀ i, IsReal (v i)

/-- Unfolding: every entry is the image of some real. -/
theorem allReal_iff {ι : Type*} (v : ι → EReal) : AllReal v ↔ ∀ i, ∃ r : ℝ, v i = (r : EReal) := Iff.rfl

/-- The image of a real is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is neither infinity, and conversely. -/
theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | top => exact absurd rfl ht
    | coe r => exact ⟨r, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases max_choice x y with h | h <;> rw [h] <;> assumption

/-- The lesser of two reals is real: it is one of them. -/
theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) := IsReal.max hx hx.neg

/-- A real to a real power (`Ideal.pow`, which on two reals is `Real.rpow`) is real. -/
theorem IsReal.pow {x y : EReal} (hx : IsReal x) (hy : IsReal y) : IsReal (Ideal.pow x y) := by
  obtain ⟨a, rfl⟩ := hx; obtain ⟨b, rfl⟩ := hy; exact ⟨Real.rpow a b, Ideal.pow_coe_coe a b⟩

/-- The quotient (`Ideal.div`) of a real by a NONZERO real is real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- Either branch of a choice between two reals is real. -/
theorem IsReal.ite {p : Prop} [Decidable p] {x y : EReal} (hx : IsReal x) (hy : IsReal y) :
    IsReal (if p then x else y) := by
  split_ifs <;> assumption

/-- A finite sum of reals is real. -/
theorem isReal_sum {κ : Type*} (s : Finset κ) (f : κ → EReal) (h : ∀ k ∈ s, IsReal (f k)) :
    IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-! ## Finite words -/

/-- An IEEE-style word whose exponent field is not all ones denotes a real number (a zero, a
    subnormal or a normal: a dyadic rational). -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

/-- A 32-bit float word whose exponent field is not `255` denotes a real number. -/
theorem isReal_ofBits_f32 (b : BitVec 32) (h : (b.extractLsb' 23 8).toNat ≠ 255) :
    IsReal (Ideal.ofBits .f32 b) :=
  isReal_ieee 8 23 b h

/-- A bfloat16 word whose exponent field is not `255` denotes a real number. -/
theorem isReal_ofBits_bf16 (b : BitVec 16) (h : (b.extractLsb' 7 8).toNat ≠ 255) :
    IsReal (Ideal.ofBits .bf16 b) :=
  isReal_ieee 8 7 b h

/-- The word of `0.0`. -/
theorem isReal_f32_zero : IsReal (Ideal.ofBits .f32 0x00000000#32) := isReal_ofBits_f32 _ (by decide)
/-- The word of `1.0`. -/
theorem isReal_f32_one : IsReal (Ideal.ofBits .f32 0x3F800000#32) := isReal_ofBits_f32 _ (by decide)
/-- The word of `-0.5`. -/
theorem isReal_f32_negHalf : IsReal (Ideal.ofBits .f32 0xBF000000#32) := isReal_ofBits_f32 _ (by decide)
/-- The word of `2.0`. -/
theorem isReal_f32_two : IsReal (Ideal.ofBits .f32 0x40000000#32) := isReal_ofBits_f32 _ (by decide)
/-- The word of `50000.0`. -/
theorem isReal_f32_50000 : IsReal (Ideal.ofBits .f32 0x47435000#32) := isReal_ofBits_f32 _ (by decide)
/-- The word `0x3C23D70A` (the float nearest `0.01`). -/
theorem isReal_f32_3C23D70A : IsReal (Ideal.ofBits .f32 0x3C23D70A#32) := isReal_ofBits_f32 _ (by decide)
/-- The word `0x3727C5AC` (the float nearest `1e-5`). -/
theorem isReal_f32_3727C5AC : IsReal (Ideal.ofBits .f32 0x3727C5AC#32) := isReal_ofBits_f32 _ (by decide)

/-! ## Constants and splats -/

/-- The splat of one real value is all real. -/
theorem allReal_broadcast (S : Shape) {x : EReal} (hx : IsReal x) : AllReal (broadcast S x) :=
  fun _ => hx

/-- A constant vector of a word that denotes a real is all real. -/
theorem allReal_constant (S : Shape) (φ : FTy) (w : BitVec φ.bits) (h : IsReal (Ideal.ofBits φ w)) :
    AllReal (constant (F := Ideal) S φ w) :=
  fun _ => h

/-- A constant `f32` vector of a finite word is all real. -/
theorem allReal_constant_f32 (S : Shape) (w : BitVec 32) (h : (w.extractLsb' 23 8).toNat ≠ 255) :
    AllReal (constant (F := Ideal) S .f32 w) :=
  allReal_constant S .f32 w (isReal_ofBits_f32 w h)

/-- The splat of the scalar constant of a finite `f32` word is all real. -/
theorem allReal_broadcast_ofBits_f32 (S : Shape) (w : BitVec 32) (h : (w.extractLsb' 23 8).toNat ≠ 255) :
    AllReal (broadcast S (Scalar.ofBits (F := Ideal) .f32 w)) :=
  allReal_broadcast S (isReal_ofBits_f32 w h)

/-! ## Re-indexings -/

/-- THE re-indexing lemma: if every entry of `out` is some entry of `inp`, and `inp` is all real,
    so is `out`. -/
theorem allReal_of_reindex {ι κ : Type*} {inp : κ → EReal} {out : ι → EReal}
    (h : ∀ i, ∃ j, out i = inp j) (hin : AllReal inp) : AllReal out := fun i => by
  obtain ⟨j, hj⟩ := h i
  rw [hj]; exact hin j

/-- Composition with any index map. -/
theorem allReal_comp {ι κ : Type*} {inp : κ → EReal} (f : ι → κ) (hin : AllReal inp) :
    AllReal (fun i => inp (f i)) :=
  allReal_of_reindex (fun i => ⟨f i, rfl⟩) hin

/-- `stablehlo.gather`: each result entry is an operand entry. -/
theorem allReal_gather {s si t : Shape} {w : Nat} (d : GatherDims s si t) (x : s.Idx → EReal) (idx : IVec si w)
    (hx : AllReal x) : AllReal (Host.gather d x idx) :=
  allReal_of_reindex (fun j => ⟨d.operandIdx j idx, rfl⟩) hx

/-- `stablehlo.broadcast_in_dim`. -/
theorem allReal_broadcastInDim {s : Shape} (t : Shape) (dims : Fin s.rank → Fin t.rank)
    (h : s.BroadcastsInDim t dims) (x : s.Idx → EReal) (hx : AllReal x) :
    AllReal (broadcastInDim t dims h x) :=
  allReal_of_reindex (inp := x) (fun _ => ⟨_, rfl⟩) hx

/-- `vector.broadcast` of a vector. -/
theorem allReal_broadcastTo {s : Shape} (t : Shape) (x : s.Idx → EReal) (h : s.Broadcasts t) (hx : AllReal x) :
    AllReal (broadcastTo t x h) :=
  allReal_of_reindex (inp := x) (fun _ => ⟨_, rfl⟩) hx

/-- `vector.shape_cast` (and the host's `reshape`, which is the same re-indexing). -/
theorem allReal_shapeCast {s : Shape} (t : Shape) (x : s.Idx → EReal) (h : s.ShapeCasts t) (hx : AllReal x) :
    AllReal (shapeCast t x h) :=
  allReal_of_reindex (fun j => ⟨Shape.reshapeEquiv h j, rfl⟩) hx

/-- `tpu.transpose`. -/
theorem allReal_transpose {s : Shape} (t : Shape) (perm : List (Fin s.rank)) (x : s.Idx → EReal)
    (h : s.Transposes perm t) (hx : AllReal x) : AllReal (transpose t perm x h) :=
  allReal_of_reindex (fun j => ⟨h.src j, rfl⟩) hx

/-- A widening format change is the identity at the ideal instance. -/
theorem allReal_extf {s : Shape} {φ : FTy} (ψ : FTy) (x : FVec Ideal s φ) (h : φ.bits < ψ.bits) (hx : AllReal x) :
    AllReal (extf ψ x h) :=
  fun i => hx i

/-- A narrowing format change is the identity at the ideal instance. -/
theorem allReal_truncf {s : Shape} {φ : FTy} (ψ : FTy) (x : FVec Ideal s φ) (h : ψ.bits < φ.bits) (hx : AllReal x) :
    AllReal (truncf ψ x h) :=
  fun i => hx i

/-! ## Elementwise arithmetic -/

section Elementwise
variable {s : Shape} {φ : FTy}

/-- `mulf`. -/
theorem allReal_mulf {x y : FVec Ideal s φ} (hx : AllReal x) (hy : AllReal y) : AllReal (mulf x y) :=
  fun i => (hx i).mul (hy i)

/-- `addf`. -/
theorem allReal_addf {x y : FVec Ideal s φ} (hx : AllReal x) (hy : AllReal y) : AllReal (addf x y) :=
  fun i => (hx i).add (hy i)

/-- `subf`. -/
theorem allReal_subf {x y : FVec Ideal s φ} (hx : AllReal x) (hy : AllReal y) : AllReal (subf x y) :=
  fun i => (hx i).sub (hy i)

/-- `maximumf` (the host's `stablehlo.maximum` is printed with the same function). -/
theorem allReal_maximumf {x y : FVec Ideal s φ} (hx : AllReal x) (hy : AllReal y) : AllReal (maximumf x y) :=
  fun i => (hx i).max (hy i)

/-- `minimumf`. -/
theorem allReal_minimumf {x y : FVec Ideal s φ} (hx : AllReal x) (hy : AllReal y) : AllReal (minimumf x y) :=
  fun i => (hx i).min (hy i)

/-- `negf`. -/
theorem allReal_negf {x : FVec Ideal s φ} (hx : AllReal x) : AllReal (negf x) :=
  fun i => (hx i).neg

/-- The host's `negate`. -/
theorem allReal_host_negf {x : FVec Ideal s φ} (hx : AllReal x) : AllReal (Host.negf x) :=
  fun i => (hx i).neg

/-- `absf`. -/
theorem allReal_absf {x : FVec Ideal s φ} (hx : AllReal x) : AllReal (absf x) :=
  fun i => (hx i).abs

/-- The host's `abs`. -/
theorem allReal_host_absf {x : FVec Ideal s φ} (hx : AllReal x) : AllReal (Host.absf x) :=
  fun i => (hx i).abs

/-- `arith.select`, lane by lane: whichever branch is taken is real. -/
theorem allReal_select (c : IVec s 1) {a b : s.Idx → EReal} (ha : AllReal a) (hb : AllReal b) :
    AllReal (select c a b) := fun i => by
  unfold Idealize.ShloMosaic.select Idealize.ShloMosaic.Scalar.select
  exact (ha i).ite (hb i)

/-- The kernel's `math.powf`. -/
theorem allReal_powf {x y : FVec Ideal s φ} (hx : AllReal x) (hy : AllReal y) : AllReal (powf x y) :=
  fun i => (hx i).pow (hy i)

/-- The host's `stablehlo.power`. -/
theorem allReal_host_powf {x y : FVec Ideal s φ} (hx : AllReal x) (hy : AllReal y) : AllReal (Host.powf x y) :=
  fun i => (hx i).pow (hy i)

/-- The kernel's `arith.divf` by a vector with no zero entry. -/
theorem allReal_divf {x y : FVec Ideal s φ} (hx : AllReal x) (hy : AllReal y) (h0 : ∀ i, y i ≠ 0) :
    AllReal (divf x y) :=
  fun i => (hx i).div (hy i) (h0 i)

/-- The host's `stablehlo.divide` by a vector with no zero entry. -/
theorem allReal_host_divf {x y : FVec Ideal s φ} (hx : AllReal x) (hy : AllReal y) (h0 : ∀ i, y i ≠ 0) :
    AllReal (Host.divf x y) :=
  fun i => (hx i).div (hy i) (h0 i)

end Elementwise

/-! ## Finite sums: scatters, contractions, reductions -/

/-- The host's accumulating scatter: each operand entry plus a finite sum of update entries. -/
theorem allReal_scatterAdd {s si u : Shape} {w : Nat} {φ : FTy} (d : ScatterDims s si u) (x : FVec Ideal s φ)
    (idx : IVec si w) (upd : FVec Ideal u φ) (hx : AllReal x) (hu : AllReal upd) :
    AllReal (Host.scatterAdd d x idx upd) := fun i => by
  change IsReal (x i + Finset.sum _ _)
  exact (hx i).add (isReal_sum _ _ fun j _ => hu j)

/-- `tpu.matmul`: the accumulator plus a finite sum of products. -/
theorem allReal_matmul {sl sr so : Shape} {φ₁ φ₂ : FTy} (d : DotDims sl sr so) (prec : Option ContractPrecision)
    (lhs : FVec Ideal sl φ₁) (rhs : FVec Ideal sr φ₂) (acc : FVec Ideal so .f32)
    (hl : AllReal lhs) (hr : AllReal rhs) (ha : AllReal acc) : AllReal (matmul d prec lhs rhs acc) := fun j => by
  change IsReal (acc j + ∑ k : d.contr.Idx, lhs (d.lhsIdx j k) * rhs (d.rhsIdx j k))
  exact (ha j).add (isReal_sum _ _ fun k _ => (hl _).mul (hr _))

/-- `tpu.matmul` into the zero accumulator. -/
theorem allReal_matmul_zero {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (matmul d prec lhs rhs (constant so .f32 0x00000000#32)) :=
  allReal_matmul d prec lhs rhs _ hl hr (allReal_constant so .f32 _ isReal_f32_zero)

/-- The host's `dot_general`: a finite sum of products. -/
theorem allReal_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := fun j => by
  have h := Ideal.dotGeneral_apply d prec .single lhs rhs j
  change IsReal (FloatOps.dotGeneral d prec .single lhs rhs j)
  rw [h]
  exact isReal_sum _ _ fun k _ => (hl _).mul (hr _)

/-- `vector.multi_reduction <add>`: a finite sum of source entries. -/
theorem allReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hs : AllReal src) : AllReal (multiReduction .add axes t src acc h hφ hacc) := fun j => by
  have e : multiReduction .add axes t src acc h hφ hacc j = Ideal.reduceAdd h src j := rfl
  rw [e]
  unfold Ideal.reduceAdd
  exact isReal_sum _ _ fun i _ => hs i

/-- The host's float `stablehlo.reduce … add`: the initial value plus a finite sum of operand entries. -/
theorem allReal_host_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := fun j => by
  change IsReal (init _ + Finset.sum _ _)
  exact (hi _).add (isReal_sum _ _ fun i _ => hx i)

end Cert.Proof.AllReal
-- ==== Proof.Ideal.ArgsReal.lean ====
/-
  From the precondition to the entries: every float argument holds only real numbers.

  The precondition says, of each float argument array `x`, that the conjunction over all entries
  of `|x i| < +∞` is true.  An extended real whose absolute value is below `+∞` is neither
  infinity, hence a real number; so each of the eight float arguments is all real.
-/
import proofs.«125197_j20590073217153_1_alg».proof.Defs
import proofs.«125197_j20590073217153_1_alg».proof.Proof.Gen.Pre_finite_inputs
import proofs.«125197_j20590073217153_1_alg».proof.Proof.LibAllReal
import Idealize.ShloMosaic.Lib.ReduceAll
import Idealize.ShloMosaic.Lib.ValueIdx

namespace Cert.Proof.ArgsReal

open Idealize.ShloMosaic Idealize.SL.Sem
open Cert.Proof.AllReal

/-- The shape of rank zero has exactly one index. -/
instance : Subsingleton Cert.Pre_finite_inputs.S_.Idx := ⟨fun a b => funext fun d => d.elim0⟩

/-- The word `0x7F800000` denotes `+∞`. -/
theorem ofBits_inf : Ideal.ofBits .f32 0x7F800000#32 = ⊤ := by simp [Ideal.ofBits, Ideal.ieee]

/-- An extended real whose absolute value `max x (-x)` compares below `+∞` is a real number: at
    either infinity the absolute value is `+∞` itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- One conjunct of the printed predicate, read back: if the conjunction over all entries of
    `|x i| < +∞` is true then `x` is all real. -/
theorem allReal_of_all_abs_lt_inf {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x)
            (broadcastInDim S ![] hb (constant Cert.Pre_finite_inputs.S_ .f32 0x7F800000#32)))
          (constantI Cert.Pre_finite_inputs.S_ 1 1#1) hr hu ValueIdx.ix0 = 1#1) :
    AllReal x := fun i =>
  isReal_of_abs_lt_inf (x i) (Host.reduce_andi_all _ _ hr hu ValueIdx.ix0 e i)

/-- Under the precondition each of the eight float arguments of the idealized kernel, on every
    device, holds only real numbers. -/
theorem args_real
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : FVec Ideal Cert.KernelIdeal.S50000x128 .f32)
    ∧ AllReal (m ((c.tc : Thread Cert.KernelIdeal.nD Cert.KernelIdeal.τ).loc Cert.KernelIdeal.main_arg1) : FVec Ideal Cert.KernelIdeal.S800000 .f32)
    ∧ AllReal (m ((c.tc : Thread Cert.KernelIdeal.nD Cert.KernelIdeal.τ).loc Cert.KernelIdeal.main_arg2) : FVec Ideal Cert.KernelIdeal.S128x128 .f32)
    ∧ AllReal (m ((c.tc : Thread Cert.KernelIdeal.nD Cert.KernelIdeal.τ).loc Cert.KernelIdeal.main_arg3) : FVec Ideal Cert.KernelIdeal.S128 .f32)
    ∧ AllReal (m ((c.tc : Thread Cert.KernelIdeal.nD Cert.KernelIdeal.τ).loc Cert.KernelIdeal.main_arg4) : FVec Ideal Cert.KernelIdeal.S128 .f32)
    ∧ AllReal (m ((c.tc : Thread Cert.KernelIdeal.nD Cert.KernelIdeal.τ).loc Cert.KernelIdeal.main_arg5) : FVec Ideal Cert.KernelIdeal.S128 .f32)
    ∧ AllReal (m ((c.tc : Thread Cert.KernelIdeal.nD Cert.KernelIdeal.τ).loc Cert.KernelIdeal.main_arg6) : FVec Ideal Cert.KernelIdeal.S64x128 .f32)
    ∧ AllReal (m ((c.tc : Thread Cert.KernelIdeal.nD Cert.KernelIdeal.τ).loc Cert.KernelIdeal.main_arg7) : FVec Ideal Cert.KernelIdeal.S15x64 .f32) := by
  have e := congrFun (h c) ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨e0, e1⟩, e2⟩, e3⟩, e4⟩, e5⟩, e6⟩, e7⟩ := e
  exact ⟨allReal_of_all_abs_lt_inf _ _ _ _ e0, allReal_of_all_abs_lt_inf _ _ _ _ e1,
    allReal_of_all_abs_lt_inf _ _ _ _ e2, allReal_of_all_abs_lt_inf _ _ _ _ e3,
    allReal_of_all_abs_lt_inf _ _ _ _ e4, allReal_of_all_abs_lt_inf _ _ _ _ e5,
    allReal_of_all_abs_lt_inf _ _ _ _ e6, allReal_of_all_abs_lt_inf _ _ _ _ e7⟩

end Cert.Proof.ArgsReal
-- ==== Proof.Ideal.YReal.lean ====
/-
  Every entry of the LeakyReLU'd aggregated messages is a real number.  Each operation on the way from the finite inputs
  sends reals to reals: a power of two reals, a maximum, a scatter-add (an entry plus a finite sum of entries), a gather
  (a selection), products, finite sums of products, and a selection between an entry and a multiple of it.
-/
import proofs.«125197_j20590073217153_1_alg».proof.Proof.LibAllReal
import proofs.«125197_j20590073217153_1_alg».proof.Proof.Ideal.ArgsReal
import proofs.«125197_j20590073217153_1_alg».proof.Proof.Ideal.HostK
import proofs.«125197_j20590073217153_1_alg».proof.Proof.Ideal.Spec
import proofs.«125197_j20590073217153_1_alg».proof.Proof.Ideal.Spec1

noncomputable section

namespace Cert.Proof.YReal

open Idealize.ShloMosaic Idealize.ShloMosaic.TcCoe Idealize.SL.Sem
open Cert.KernelIdeal Cert.KernelIdeal.Stages Cert.Proof.AllReal

/-- A degree normaliser max(deg,1)^(-1/2) is real at every node, whatever the index vector. -/
theorem norm_real (idx : (⟨S800000, .i32⟩ : BufTy).Contents (Elt Ideal)) : AllReal (Stages.norm (F := Ideal) idx) := by
  unfold Stages.norm
  exact allReal_host_powf
    (allReal_maximumf (allReal_broadcastInDim _ _ _ _ (allReal_constant_f32 _ _ (by decide)))
      (allReal_scatterAdd _ _ _ _ (allReal_broadcastInDim _ _ _ _ (allReal_constant_f32 _ _ (by decide)))
        (allReal_broadcastInDim _ _ _ _ (allReal_constant_f32 _ _ (by decide)))))
    (allReal_broadcastInDim _ _ _ _ (allReal_constant_f32 _ _ (by decide)))

/-- Laid out as a column it has the same entries. -/
theorem col_real {n : (⟨S50000, .f32⟩ : BufTy).Contents (Elt Ideal)} (hn : AllReal n) : AllReal (col (F := Ideal) n) :=
  allReal_shapeCast _ _ _ hn

/-- A projected entry (∑ₖ x(i,k)·w(k,j))·n(i) is real when the factors are. -/
theorem proj_real {x : FVec Ideal S50000x128 .f32} {w : FVec Ideal S128x128 .f32} {n : FVec Ideal S50000x1 .f32}
    (hx : AllReal x) (hw : AllReal w) (hn : AllReal n) : AllReal (Spec.proj x w n) := by
  intro i
  unfold Spec.proj Spec.projAt
  exact IsReal.mul (isReal_sum _ _ fun k _ => IsReal.mul (hx _) (hw _)) (hn _)

/-- The aggregated messages are real when the projected rows, the edge weights and the destination normaliser are. -/
theorem agg_real {h : (⟨S50000x128, .f32⟩ : BufTy).Contents (Elt Ideal)} (src : (⟨S800000, .i32⟩ : BufTy).Contents (Elt Ideal))
    {w : (⟨S800000, .f32⟩ : BufTy).Contents (Elt Ideal)} (dst : (⟨S800000, .i32⟩ : BufTy).Contents (Elt Ideal))
    {nd : (⟨S50000, .f32⟩ : BufTy).Contents (Elt Ideal)} (hh : AllReal h) (hw : AllReal w) (hnd : AllReal nd) :
    AllReal (agg (F := Ideal) h src w dst nd) := by
  unfold agg
  exact allReal_mulf
    (allReal_scatterAdd _ _ _ _ (allReal_broadcastInDim _ _ _ _ (allReal_constant_f32 _ _ (by decide)))
      (allReal_mulf (allReal_gather _ _ _ hh) (allReal_broadcastInDim _ _ _ _ (allReal_broadcastInDim _ _ _ _ hw))))
    (allReal_broadcastInDim _ _ _ _ (allReal_broadcastInDim _ _ _ _ hnd))

/-- LeakyReLU of a real is that real or a real multiple of it. -/
theorem leaky_real {z : EReal} (hz : IsReal z) : IsReal (Spec.leaky z) := by
  unfold Spec.leaky Scalar.select
  split
  · exact hz
  · exact IsReal.mul isReal_f32_3C23D70A hz

theorem leakyAll_real {a : FVec Ideal S50000x128 .f32} (ha : AllReal a) : AllReal (Spec.leakyAll a) :=
  fun i => leaky_real (ha i)

/-- Under the precondition the LeakyReLU'd aggregated messages, as the kernel's program computes them, are real. -/
theorem y_real (m : (ℓ : Loc nD τ sig) → Buf (Elt Ideal) ℓ) (hpre : Cert.Pre_KernelIdeal m) (c : Dev nD) :
    AllReal (Spec.leakyAll (agg (F := Ideal)
      (Spec.proj (m ((c : Thread nD τ).loc main_arg0)) (m ((c : Thread nD τ).loc main_arg2)) (col (Stages.norm (m ((c : Thread nD τ).loc main_arg8)))))
      (m ((c : Thread nD τ).loc main_arg8)) (m ((c : Thread nD τ).loc main_arg1)) (m ((c : Thread nD τ).loc main_arg9))
      (Stages.norm (m ((c : Thread nD τ).loc main_arg9))))) := by
  obtain ⟨h0, h1, h2, _, _, _, _, _⟩ := Cert.Proof.ArgsReal.args_real m hpre c
  exact leakyAll_real (agg_real _ _ (proj_real h0 h2 (col_real (norm_real _))) h1 (norm_real _))

/-- and so is the scale vector, an input. -/
theorem gms_real (m : (ℓ : Loc nD τ sig) → Buf (Elt Ideal) ℓ) (hpre : Cert.Pre_KernelIdeal m) (c : Dev nD) :
    AllReal (m ((c : Thread nD τ).loc main_arg5) : FVec Ideal S128 .f32) := by
  obtain ⟨_, _, _, _, _, h5, _, _⟩ := Cert.Proof.ArgsReal.args_real m hpre c
  exact h5

end Cert.Proof.YReal

end
-- ==== Proof.Ideal.BridgeDots.lean ====
/- The kernel's program and the reference compute the same arrays, stage by stage, on the extended reals.

   The host stretches of the kernel's program that the reference also has (the degree normaliser, the
   aggregation over edges, the per-graph mean) are the same operations on the same operands.  The two stages a
   kernel region computes are compared entry by entry: the projection (a matrix product, each row scaled by
   its normaliser) and the two-layer head (two matrix products against transposed weights with a leaky
   rectifier between them). -/
import proofs.«125197_j20590073217153_1_alg».proof.Proof.Ideal.HostK
import proofs.«125197_j20590073217153_1_alg».proof.Proof.Ideal.RefStages
import proofs.«125197_j20590073217153_1_alg».proof.Proof.Ideal.Spec
import proofs.«125197_j20590073217153_1_alg».proof.Proof.LibInnerProducts
import Idealize.ShloMosaic.Lib.Pipeline.Value
import Idealize.ShloMosaic.Lib.ValueIdx
import Idealize.ShloMosaic.Lib.ValueLayout
import Idealize.ShloMosaic.Lib.IdealHost

noncomputable section

namespace Cert.Proof.Bridge

open Idealize.ShloMosaic Idealize.ShloMosaic.ValueIdx Idealize.ShloMosaic.InnerProducts
open scoped BigOperators

/-! ## The stretches both programs have -/

/-- The degree normaliser is the same term in both programs (the reference's clip passes its bound through an
    identity). -/
theorem norm_eq (idx : IVec Cert.KernelIdeal.S800000 32) :
    Cert.KernelIdeal.Stages.norm (F := Ideal) idx = Cert.ReferenceIdeal.Stages.norm (F := Ideal) idx := rfl

/-- The aggregation over edges is the same term in both programs. -/
theorem agg_eq (h : FVec Ideal Cert.KernelIdeal.S50000x128 .f32) (src : IVec Cert.KernelIdeal.S800000 32)
    (w : FVec Ideal Cert.KernelIdeal.S800000 .f32) (dst : IVec Cert.KernelIdeal.S800000 32)
    (nd : FVec Ideal Cert.KernelIdeal.S50000 .f32) :
    Cert.KernelIdeal.Stages.agg (F := Ideal) h src w dst nd = Cert.ReferenceIdeal.Stages.agg (F := Ideal) h src w dst nd := rfl

/-- The per-graph mean is the same term in both programs. -/
theorem pool_eq (xn : FVec Ideal Cert.KernelIdeal.S50000x128 .f32) (gid : IVec Cert.KernelIdeal.S50000 32) :
    Cert.KernelIdeal.Stages.pool (F := Ideal) xn gid = Cert.ReferenceIdeal.Stages.pool (F := Ideal) xn gid := rfl

/-! ## The projection -/

/-- A vector of 50000 entries laid out as a column reads, at `(p, 0)`, the vector at `p`. -/
theorem col_apply (ns : FVec Ideal Cert.KernelIdeal.S50000 .f32) (p : Fin 50000) :
    Cert.KernelIdeal.Stages.col (F := Ideal) ns (ix2 p (0 : Fin 1)) = ns (ix1 p) := by
  unfold Cert.KernelIdeal.Stages.col
  refine shapeCast_apply ns _ (ix2 p (0 : Fin 1)) (ix1 p) ?_
  rw [Shape.rowMajor_val_one, Shape.rowMajor_val_two]
  show p.val = p.val * 1 + 0
  omega

/-- The same vector spread over the rows of a 50000×128 array through a column reads, at `(p, q)`, the vector at `p`. -/
theorem rowScale_apply (ns : FVec Ideal Cert.ReferenceIdeal.S50000 .f32)
    (h1 : Cert.ReferenceIdeal.S50000.BroadcastsInDim Cert.ReferenceIdeal.S50000x1 ![0])
    (h2 : Cert.ReferenceIdeal.S50000x1.BroadcastsInDim Cert.ReferenceIdeal.S50000x128 ![0, 1]) (p : Fin 50000) (q : Fin 128) :
    broadcastInDim Cert.ReferenceIdeal.S50000x128 ![0, 1] h2 (broadcastInDim Cert.ReferenceIdeal.S50000x1 ![0] h1 ns) (ix2 p q)
      = ns (ix1 p) := by
  rw [broadcastInDim_apply ![0, 1] h2 _ (ix2 p q) (ix2 p (0 : Fin 1)) (fun a => by match a with | ⟨0, _⟩ => rfl | ⟨1, _⟩ => rfl),
    broadcastInDim_apply ![0] h1 ns (ix2 p (0 : Fin 1)) (ix1 p) (fun a => by match a with | ⟨0, _⟩ => rfl)]

/-- Entry `(p, q)` on both sides: the inner product of row `p` of `x` with column `q` of `wc`, times `ns p`. -/
theorem proj_eq (x : FVec Ideal Cert.KernelIdeal.S50000x128 .f32) (wc : FVec Ideal Cert.KernelIdeal.S128x128 .f32)
    (ns : FVec Ideal Cert.KernelIdeal.S50000 .f32) :
    Cert.KernelIdeal.Spec.proj x wc (Cert.KernelIdeal.Stages.col (F := Ideal) ns)
      = Cert.ReferenceIdeal.Stages.proj (F := Ideal) x wc ns := by
  funext i
  obtain ⟨p, q, rfl⟩ : ∃ (p : Fin 50000) (q : Fin 128), i = ix2 p q := ⟨i 0, i 1, eq_ix2 i⟩
  show Cert.KernelIdeal.Spec.projAt x wc (Cert.KernelIdeal.Stages.col (F := Ideal) ns) p q = _
  unfold Cert.KernelIdeal.Spec.projAt Cert.ReferenceIdeal.Stages.proj
  rw [col_apply]
  refine Eq.symm ((mulf_apply _ _ (ix2 p q)).trans ?_)
  rw [rowScale_apply]
  refine congrArg (fun z => z * ns (ix1 p)) ?_
  exact InnerProducts.dotGeneral_apply Cert.ReferenceIdeal.dot_S50000x128_S128x128_S50000x128_1_0_0_1_n_n rfl none x wc p q

/-! ## The two-layer head -/

/-- The host's rectifier (compare with a zero splat, scale by a slope splat, select) at an entry. -/
theorem leaky_host_apply (H : FVec Ideal Cert.ReferenceIdeal.S128x64 .f32)
    (hb : Cert.ReferenceIdeal.S_.BroadcastsInDim Cert.ReferenceIdeal.S128x64 ![]) (g : Fin 128) (k : Fin 64) :
    select (cmpf .oge H (broadcastInDim Cert.ReferenceIdeal.S128x64 ![] hb (constant (F := Ideal) Cert.ReferenceIdeal.S_ .f32 0x00000000#32))) H
        (mulf (broadcastInDim Cert.ReferenceIdeal.S128x64 ![] hb (constant (F := Ideal) Cert.ReferenceIdeal.S_ .f32 0x3C23D70A#32)) H) (ix2 g k)
      = Cert.KernelIdeal.Spec.leaky (H (ix2 g k)) := by
  unfold Cert.KernelIdeal.Spec.leaky
  rw [select_apply, cmpf_apply, mulf_apply, broadcastInDim_scalar_apply, broadcastInDim_scalar_apply]
  rfl

/-- Entry `(g, o)` on both sides: each host product takes its weight matrix transposed, so the contraction runs
    along the weight's ROWS, as in the kernel. -/
theorem mlp_eq (p : FVec Ideal Cert.KernelIdeal.S128x128 .f32) (wl : FVec Ideal Cert.KernelIdeal.S64x128 .f32)
    (wcls : FVec Ideal Cert.KernelIdeal.S15x64 .f32) :
    Cert.KernelIdeal.Spec.mlp p wl wcls = Cert.ReferenceIdeal.Stages.mlp (F := Ideal) p wl wcls := by
  funext i
  obtain ⟨g, o, rfl⟩ : ∃ (g : Fin 128) (o : Fin 15), i = ix2 g o := ⟨i 0, i 1, eq_ix2 i⟩
  show Cert.KernelIdeal.Spec.mlpAt p wl wcls g o = _
  unfold Cert.KernelIdeal.Spec.mlpAt Cert.ReferenceIdeal.Stages.mlp
  refine Eq.symm ((InnerProducts.dotGeneral_apply Cert.ReferenceIdeal.dot_S128x64_S64x15_S128x15_1_0_0_1_n_n rfl none _ _ g o).trans ?_)
  refine Finset.sum_congr rfl fun k _ => ?_
  rw [transpose_ix2_apply]
  refine congrArg (fun z => z * wcls (ix2 o k)) ?_
  refine (leaky_host_apply _ _ g k).trans ?_
  refine congrArg Cert.KernelIdeal.Spec.leaky ?_
  refine (InnerProducts.dotGeneral_apply Cert.ReferenceIdeal.dot_S128x128_S128x64_S128x64_1_0_0_1_n_n rfl none p _ g k).trans ?_
  refine Finset.sum_congr rfl fun d _ => ?_
  rw [transpose_ix2_apply]

end Cert.Proof.Bridge

end
-- ==== Proof.VarianceLaw.lean ====
/-
  The variance identity on the extended reals.

  For real entries `y i`, a real scale `g` and a nonzero real `N` equal to the number of
  entries, the centred second moment `(1/N) ∑ (y i − g·mean)²` with `mean = (∑ y i)/N`
  equals `(∑ y i²)/N + mean²·(g² − 2g)`.  Over the reals this is the usual expansion of the
  square; on the extended reals it holds because every term is (the image of) a real number,
  so each operation is the image of the real one.  The division is the library's `Ideal.div`,
  which for a nonzero real divisor is multiplication by the real reciprocal.
-/
import Mathlib.Tactic
import Idealize.ShloMosaic.PureOps.Ideal

namespace Cert.Proof.Variance

open Idealize.ShloMosaic
open scoped BigOperators

/-- The image in the extended reals of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The image of a sum over a finite type. -/
theorem coe_sum {ι : Type*} [Fintype ι] (f : ι → ℝ) :
    ((∑ i, f i : ℝ) : EReal) = ∑ i, (f i : EReal) :=
  coe_finset_sum Finset.univ f

/-- `Ideal.div` of (the image of) a real by (the image of) a nonzero real is the image of the
    real quotient. -/
theorem div_coe_coe (x : ℝ) {N : ℝ} (hN : N ≠ 0) :
    Ideal.div (x : EReal) (N : EReal) = ((x / N : ℝ) : EReal) := by
  rw [Ideal.div_coe hN, ← EReal.coe_mul]
  congr 1
  field_simp

/-- The literal `2` of the extended reals is the image of the real `2`. -/
theorem two_eq_coe : (2 : EReal) = ((2 : ℝ) : EReal) := by norm_cast

/-- THE REAL IDENTITY: with `N` the (nonzero) number of entries,
    `(∑ (y i − g·m)²)/N = (∑ y i²)/N + m²·(g² − 2g)` for `m = (∑ y i)/N`. -/
theorem variance_real {ι : Type*} [Fintype ι] (y : ι → ℝ) (g N : ℝ) (hN : N ≠ 0)
    (hcard : (Fintype.card ι : ℝ) = N) :
    (∑ i, (y i - g * ((∑ i, y i) / N)) * (y i - g * ((∑ i, y i) / N))) / N
      = (∑ i, y i * y i) / N
        + ((∑ i, y i) / N * ((∑ i, y i) / N)) * (g * g - 2 * g) := by
  set S : ℝ := ∑ i, y i with hS
  set Q : ℝ := ∑ i, y i * y i with hQ
  have hexp : ∀ i, (y i - g * (S / N)) * (y i - g * (S / N))
      = y i * y i - (2 * g * (S / N)) * y i + (g * (S / N)) * (g * (S / N)) := by
    intro i; ring
  have hsum : (∑ i, (y i - g * (S / N)) * (y i - g * (S / N)))
      = Q - (2 * g * (S / N)) * S + N * ((g * (S / N)) * (g * (S / N))) := by
    simp only [hexp]
    rw [Finset.sum_add_distrib, Finset.sum_sub_distrib, ← Finset.mul_sum, Finset.sum_const,
      Finset.card_univ, nsmul_eq_mul, hcard]
  rw [hsum]
  field_simp
  ring

/-- THE IDENTITY ON THE EXTENDED REALS, with the operations spelled as the library spells them
    at the ideal instance (`Ideal.div` for the divisions by `N`; the extended reals' own
    product, sum and difference). -/
theorem variance_fold {ι : Type*} [Fintype ι] (y : ι → ℝ) (g N : ℝ) (hN : N ≠ 0)
    (hcard : (Fintype.card ι : ℝ) = N) :
    Ideal.div (∑ i, ((y i : EReal) - (g : EReal) * Ideal.div (∑ i, (y i : EReal)) (N : EReal))
        * ((y i : EReal) - (g : EReal) * Ideal.div (∑ i, (y i : EReal)) (N : EReal))) (N : EReal)
      = Ideal.div (∑ i, (y i : EReal) * (y i : EReal)) (N : EReal)
        + (Ideal.div (∑ i, (y i : EReal)) (N : EReal) * Ideal.div (∑ i, (y i : EReal)) (N : EReal))
          * ((g : EReal) * (g : EReal) - (2 : EReal) * (g : EReal)) := by
  rw [← coe_sum y, div_coe_coe _ hN, two_eq_coe]
  simp only [← EReal.coe_mul, ← EReal.coe_sub, ← coe_sum, div_coe_coe _ hN, ← EReal.coe_add]
  rw [variance_real y g N hN hcard]

end Cert.Proof.Variance
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.Ideal.BridgeNorm.lean ====
/- The leaky rectifier and the column-wise normalization agree between the kernel's program and the reference,
   on the extended reals.

   The rectifier is the same three operations at every entry.  The normalization differs in how the column
   variance is obtained: the reference centres the entries and averages the squares, the kernel's program
   averages the raw squares and corrects by `mean² · (g² − 2 g)`.  For real entries these are equal (the
   expansion of the square); every other step reads the same entry on both sides. -/
import proofs.«125197_j20590073217153_1_alg».proof.Proof.Ideal.BridgeDots
import proofs.«125197_j20590073217153_1_alg».proof.Proof.Ideal.Spec1
import proofs.«125197_j20590073217153_1_alg».proof.Proof.VarianceLaw
import proofs.«125197_j20590073217153_1_alg».proof.Proof.LibWords
import proofs.«125197_j20590073217153_1_alg».proof.Proof.LibAllReal

noncomputable section

namespace Cert.Proof.Bridge

open Idealize.ShloMosaic Idealize.ShloMosaic.ValueIdx
open scoped BigOperators

/-! ## The rectifier -/

/-- Entry by entry both sides compare with the zero word, scale by the slope word, and select. -/
theorem leaky_eq (a : FVec Ideal Cert.KernelIdeal.S50000x128 .f32) :
    Cert.KernelIdeal.Spec.leakyAll a = Cert.ReferenceIdeal.Stages.leaky (F := Ideal) a := by
  funext i
  unfold Cert.KernelIdeal.Spec.leakyAll Cert.ReferenceIdeal.Stages.leaky Cert.KernelIdeal.Spec.leaky
  rw [select_apply, cmpf_apply, mulf_apply, broadcastInDim_scalar_apply, broadcastInDim_scalar_apply]
  rfl

/-! ## The column law -/

/-- For a column of real entries and a real scale `g`, the mean of the squares of the entries centred at
    `g · mean` is the mean of the raw squares plus `mean² · (g² − 2 g)`; the divisor is the word of 50000, the
    number of entries, and the 2 is the word of 2. -/
theorem column_variance (v : Fin 50000 → EReal) (g : EReal) (hv : ∀ i, ∃ r : ℝ, v i = (r : EReal)) (hg : ∃ r : ℝ, g = (r : EReal)) :
    Ideal.div (∑ k, (v k - g * Ideal.div (∑ k, v k) (Ideal.ofBits .f32 0x47435000#32)) * (v k - g * Ideal.div (∑ k, v k) (Ideal.ofBits .f32 0x47435000#32))) (Ideal.ofBits .f32 0x47435000#32)
      = Ideal.div (∑ k, v k * v k) (Ideal.ofBits .f32 0x47435000#32)
        + (Ideal.div (∑ k, v k) (Ideal.ofBits .f32 0x47435000#32) * Ideal.div (∑ k, v k) (Ideal.ofBits .f32 0x47435000#32)) * (g * g - Ideal.ofBits .f32 0x40000000#32 * g) := by
  obtain ⟨y, rfl⟩ := Cert.Proof.Words.exists_real_family hv
  obtain ⟨r, rfl⟩ := hg
  rw [Cert.Proof.Words.ofBits_f32_50000, Cert.Proof.Words.ofBits_f32_two, ← Cert.Proof.Variance.two_eq_coe]
  exact Cert.Proof.Variance.variance_fold y r 50000 (by norm_num) (by simp)

/-! ## The kernel's program, read at an entry -/

/-- A vector of 128 entries laid out as a row reads, at `(0, j)`, the vector at `j`; -/
theorem row_apply (v : FVec Ideal Cert.KernelIdeal.S128 .f32) (j : Fin 128) :
    Cert.KernelIdeal.Stages.row (F := Ideal) v (ix2 (0 : Fin 1) j) = v (ix1 j) := by
  unfold Cert.KernelIdeal.Stages.row
  exact shapeCast_a_1a_apply v _ 0 j

/-- and a row read as a vector reads, at `j`, the row at `(0, j)`. -/
theorem vec_apply (r : FVec Ideal Cert.KernelIdeal.S1x128 .f32) (j : Fin 128) :
    Cert.KernelIdeal.Stages.vec (F := Ideal) r (ix1 j) = r (ix2 (0 : Fin 1) j) := by
  unfold Cert.KernelIdeal.Stages.vec
  exact shapeCast_1a_a_apply r _ j

/-- The column mean: the column sum over the word of 50000. -/
theorem meanVec_apply (s : FVec Ideal Cert.KernelIdeal.S1x128 .f32) (j : Fin 128) :
    Cert.KernelIdeal.Stages.meanVec (F := Ideal) s (ix1 j) = Ideal.div (s (ix2 (0 : Fin 1) j)) (Ideal.ofBits .f32 0x47435000#32) := by
  unfold Cert.KernelIdeal.Stages.meanVec
  rw [hostDivf_apply, vec_apply, broadcastInDim_scalar_apply]
  rfl

/-- The column variance as the program folds it. -/
theorem varVec_apply (s ss : FVec Ideal Cert.KernelIdeal.S1x128 .f32) (g : FVec Ideal Cert.KernelIdeal.S128 .f32) (j : Fin 128) :
    Cert.KernelIdeal.Stages.varVec (F := Ideal) s ss g (ix1 j)
      = Ideal.div (ss (ix2 (0 : Fin 1) j)) (Ideal.ofBits .f32 0x47435000#32)
        + (Cert.KernelIdeal.Stages.meanVec (F := Ideal) s (ix1 j) * Cert.KernelIdeal.Stages.meanVec (F := Ideal) s (ix1 j))
          * (g (ix1 j) * g (ix1 j) - Ideal.ofBits .f32 0x40000000#32 * g (ix1 j)) := by
  unfold Cert.KernelIdeal.Stages.varVec
  simp only [addf_apply, mulf_apply, subf_apply, hostDivf_apply, vec_apply, broadcastInDim_scalar_apply]
  rfl

/-! ## The reference, read at an entry -/

/-- A vector of 128 entries spread over the 50000 rows through a row reads, at `(i, j)`, the vector at `j`. -/
theorem rowSpread_apply (v : FVec Ideal Cert.ReferenceIdeal.S128 .f32)
    (h1 : Cert.ReferenceIdeal.S128.BroadcastsInDim Cert.ReferenceIdeal.S1x128 ![1])
    (h2 : Cert.ReferenceIdeal.S1x128.BroadcastsInDim Cert.ReferenceIdeal.S50000x128 ![0, 1]) (i : Fin 50000) (j : Fin 128) :
    broadcastInDim Cert.ReferenceIdeal.S50000x128 ![0, 1] h2 (broadcastInDim Cert.ReferenceIdeal.S1x128 ![1] h1 v) (ix2 i j)
      = v (ix1 j) := by
  rw [broadcastInDim_apply ![0, 1] h2 _ (ix2 i j) (ix2 (0 : Fin 1) j) (fun a => by match a with | ⟨0, _⟩ => rfl | ⟨1, _⟩ => rfl),
    broadcastInDim_apply ![1] h1 v (ix2 (0 : Fin 1) j) (ix1 j) (fun a => by match a with | ⟨0, _⟩ => rfl)]

/-- The host's sum down the columns from the zero word reads, at `j`, the sum of column `j`. -/
theorem hostColSum_apply (x : FVec Ideal Cert.ReferenceIdeal.S50000x128 .f32)
    (h' : Cert.ReferenceIdeal.S50000x128.ReducesTo [0] Cert.ReferenceIdeal.S128) (hu : 0 < Cert.ReferenceIdeal.S_.numel) (j : Fin 128) :
    Host.reduceAdd x (constant (F := Ideal) Cert.ReferenceIdeal.S_ .f32 0x00000000#32) h' hu (ix1 j)
      = ∑ k : Fin 50000, x (ix2 k j) := by
  have h : Cert.ReferenceIdeal.S50000x128.Reduces [0] Cert.ReferenceIdeal.S128 := ⟨h'.1, by decide, h'.2⟩
  rw [hostReduceAdd_apply]
  refine (Ideal.hostReduceAdd_single h' h x _ (ix1 j)).trans ?_
  rw [constant_apply, Ideal.ofBits_zero_f32, zero_add]
  show ∑ k : Fin 50000, x (h.lift (ix1 j) k) = ∑ k : Fin 50000, x (ix2 k j)
  refine Finset.sum_congr rfl fun k _ => congrArg x (funext fun a => Fin.ext ?_)
  match a with
  | ⟨0, _⟩ => rfl
  | ⟨1, _⟩ => rfl

theorem colMean_apply (y : FVec Ideal Cert.ReferenceIdeal.S50000x128 .f32) (j : Fin 128) :
    Cert.ReferenceIdeal.Stages.colMean (F := Ideal) y (ix1 j) = Ideal.div (∑ k : Fin 50000, y (ix2 k j)) (Ideal.ofBits .f32 0x47435000#32) := by
  unfold Cert.ReferenceIdeal.Stages.colMean
  rw [hostDivf_apply, hostColSum_apply, broadcastInDim_scalar_apply]
  rfl

theorem centered_apply (y : FVec Ideal Cert.ReferenceIdeal.S50000x128 .f32) (gms : FVec Ideal Cert.ReferenceIdeal.S128 .f32)
    (i : Fin 50000) (j : Fin 128) :
    Cert.ReferenceIdeal.Stages.centered (F := Ideal) y gms (ix2 i j)
      = y (ix2 i j) - gms (ix1 j) * Cert.ReferenceIdeal.Stages.colMean (F := Ideal) y (ix1 j) := by
  unfold Cert.ReferenceIdeal.Stages.centered
  rw [subf_apply, rowSpread_apply, mulf_apply]

theorem colVar_apply (cen : FVec Ideal Cert.ReferenceIdeal.S50000x128 .f32) (j : Fin 128) :
    Cert.ReferenceIdeal.Stages.colVar (F := Ideal) cen (ix1 j)
      = Ideal.div (∑ k : Fin 50000, cen (ix2 k j) * cen (ix2 k j)) (Ideal.ofBits .f32 0x47435000#32) := by
  unfold Cert.ReferenceIdeal.Stages.colVar
  rw [hostDivf_apply, hostColSum_apply, broadcastInDim_scalar_apply]
  rfl

theorem scaleShift_apply (cen : FVec Ideal Cert.ReferenceIdeal.S50000x128 .f32) (vr gw gb : FVec Ideal Cert.ReferenceIdeal.S128 .f32)
    (i : Fin 50000) (j : Fin 128) :
    Cert.ReferenceIdeal.Stages.scaleShift (F := Ideal) cen vr gw gb (ix2 i j)
      = gw (ix1 j) * cen (ix2 i j) * Ideal.rsqrt (vr (ix1 j) + Ideal.ofBits .f32 0x3727C5AC#32) + gb (ix1 j) := by
  unfold Cert.ReferenceIdeal.Stages.scaleShift
  rw [addf_apply, mulf_apply, mulf_apply, rowSpread_apply, rowSpread_apply, rowSpread_apply]
  show _ * _ * Ideal.rsqrt (vr (ix1 j) + broadcastInDim Cert.ReferenceIdeal.S128 ![] _ (constant (F := Ideal) Cert.ReferenceIdeal.S_ .f32 0x3727C5AC#32) (ix1 j)) + _ = _
  rw [broadcastInDim_scalar_apply]
  rfl

/-! ## The normalization -/

/-- Entry `(i, j)` on both sides is `gw_j · (y_ij − g_j · mean_j) · rsqrt (var_j + ε) + gb_j` with the same
    `mean_j`; the two `var_j` are the two sides of the column law. -/
theorem normalize_eq (y : FVec Ideal Cert.KernelIdeal.S50000x128 .f32) (gw gb gms : FVec Ideal Cert.KernelIdeal.S128 .f32)
    (hy : Cert.Proof.AllReal.AllReal y) (hg : Cert.Proof.AllReal.AllReal gms) :
    Cert.KernelIdeal.Spec.normalize y
        (Cert.KernelIdeal.Stages.row (F := Ideal) (Cert.KernelIdeal.Stages.meanVec (F := Ideal) (Cert.KernelIdeal.Spec.colsum y)))
        (Cert.KernelIdeal.Stages.row (F := Ideal) (Cert.KernelIdeal.Stages.varVec (F := Ideal) (Cert.KernelIdeal.Spec.colsum y)
          (Cert.KernelIdeal.Spec.colsumsq y) gms))
        (Cert.KernelIdeal.Stages.row (F := Ideal) gw) (Cert.KernelIdeal.Stages.row (F := Ideal) gb)
        (Cert.KernelIdeal.Stages.row (F := Ideal) gms)
      = Cert.ReferenceIdeal.Stages.normalize (F := Ideal) y gw gb gms := by
  funext idx
  obtain ⟨i, j, rfl⟩ : ∃ (i : Fin 50000) (j : Fin 128), idx = ix2 i j := ⟨idx 0, idx 1, eq_ix2 idx⟩
  show Cert.KernelIdeal.Spec.normalizeAt y _ _ _ _ _ i j = _
  unfold Cert.KernelIdeal.Spec.normalizeAt Cert.ReferenceIdeal.Stages.normalize
  rw [scaleShift_apply, colVar_apply]
  simp only [centered_apply, colMean_apply]
  simp only [row_apply, varVec_apply, meanVec_apply]
  have hsum : Cert.KernelIdeal.Spec.colsum y (ix2 (0 : Fin 1) j) = ∑ k : Fin 50000, y (ix2 k j) := rfl
  have hsq : Cert.KernelIdeal.Spec.colsumsq y (ix2 (0 : Fin 1) j) = ∑ k : Fin 50000, y (ix2 k j) * y (ix2 k j) := rfl
  rw [hsum, hsq]
  rw [column_variance (fun k => y (ix2 k j)) (gms (ix1 j)) (fun k => hy (ix2 k j)) (hg (ix1 j))]

end Cert.Proof.Bridge

end
-- ==== Proof.Ideal.Agree.lean ====
/-
  The two idealized programs compute one function.  The kernel program's result is the two-layer perceptron of the pooled,
  normalised LeakyReLU'd aggregated messages with the variance folded as ss/N + mean²·(g² − 2g); the reference's is the same
  chain with the variance as the mean of the squared centred entries.  The degree normalisers, the message passing and the
  pooling are the same host operations on both sides; the projection and the perceptron are the same sums of products; the
  two variances agree because every entry of the LeakyReLU'd messages and of the scale vector is a real number under the
  precondition.
-/
import proofs.«125197_j20590073217153_1_alg».proof.Proof.Ideal.KernelValue
import proofs.«125197_j20590073217153_1_alg».proof.Proof.Ideal.YReal
import proofs.«125197_j20590073217153_1_alg».proof.Proof.Ideal.RefRun
import proofs.«125197_j20590073217153_1_alg».proof.Proof.Ideal.RefStages
import proofs.«125197_j20590073217153_1_alg».proof.Proof.Ideal.BridgeDots
import proofs.«125197_j20590073217153_1_alg».proof.Proof.Ideal.BridgeNorm

set_option maxRecDepth 16384

noncomputable section

namespace Cert.Proof.Value

open Idealize.ShloMosaic Idealize.ShloMosaic.TcCoe Idealize.SL.Sem

/-- The reference's result, at memories agreeing with the kernel program's on the arguments, is the kernel program's result. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Stages.result (F := Ideal) m' c = Cert.KernelIdeal.Hand.resultK m c := by
  obtain ⟨a0, a1, a2, a3, a4, a5, a6, a7, a8, a9, a10⟩ := hagree
  unfold Cert.ReferenceIdeal.Stages.result Cert.KernelIdeal.Hand.resultK
  rw [a0, a1, a2, a3, a4, a5, a6, a7, a8, a9, a10]
  rw [← Cert.Proof.Bridge.norm_eq, ← Cert.Proof.Bridge.norm_eq, ← Cert.Proof.Bridge.proj_eq, ← Cert.Proof.Bridge.agg_eq,
    ← Cert.Proof.Bridge.leaky_eq,
    ← Cert.Proof.Bridge.normalize_eq _ _ _ _ (Cert.Proof.YReal.y_real m hpre c) (Cert.Proof.YReal.gms_real m hpre c),
    ← Cert.Proof.Bridge.pool_eq, ← Cert.Proof.Bridge.mlp_eq]

end Cert.Proof.Value

end
-- ==== Proof.lean ====
/-
  A graph convolution (projection, message passing over 800000 edges, LeakyReLU), a GraphNorm over all 50000 nodes, a
  per-graph mean pooling and a two-layer perceptron: the kernel program runs the projection, the LeakyReLU with its column
  statistics, the normalisation and the perceptron as four tiled kernels and the rest on the host; the reference is plain
  host code.  The three programs run to the end with their arguments unchanged (the kernel programs as a chain of fourteen
  segments, the reference as a line of host operations); the idealization rewrote nothing; and on the extended reals the two
  idealized programs end with equal results, the folded variance ss/N + mean²·(g² − 2g) being the mean of the squared centred
  entries wherever the entries are real, which the finiteness of the inputs gives.
-/
import proofs.«125197_j20590073217153_1_alg».proof.Defs
import proofs.«125197_j20590073217153_1_alg».proof.Proof.Gen.Kernel
import proofs.«125197_j20590073217153_1_alg».proof.Proof.Gen.KernelIdeal
import proofs.«125197_j20590073217153_1_alg».proof.Proof.Gen.ReferenceIdeal
import proofs.«125197_j20590073217153_1_alg».proof.Proof.Gen.Pre_finite_inputs
import proofs.«125197_j20590073217153_1_alg».proof.Proof.Bits.Run
import proofs.«125197_j20590073217153_1_alg».proof.Proof.Ideal.Run
import proofs.«125197_j20590073217153_1_alg».proof.Proof.Ideal.RefFrame
import proofs.«125197_j20590073217153_1_alg».proof.Proof.Ideal.Agree
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Hand.frame_all m ρ

/-- So does the idealized kernel program (the same chain of segments read at the extended reals). -/
theorem frame_kernel_ideal : Cert.frame_KernelIdeal := fun m ρ _ => Cert.KernelIdeal.Hand.frame_all m ρ

/-- Both idealized programs run, keep their arguments, and end with the same result array. -/
theorem algebraic : Cert.algebraic_KernelIdeal_ReferenceIdeal := by
  intro m ρ m' ρ' hpre hagree
  refine ⟨fun c => Cert.KernelIdeal.Hand.resultK m c, ?_, ?_⟩
  · exact (θ_run Cert.KernelIdeal.defs _ _).mono
      (fun r h c => ⟨(h c).1.trans (Cert.KernelIdeal.Hand.at14_v62 m c), (h c).2⟩)
      (Cert.KernelIdeal.Hand.result_all m ρ)
  · exact (θ_run Cert.ReferenceIdeal.defs _ _).mono
      (fun r h c => ⟨(h c).1.trans (Cert.Proof.Value.results_agree m m' hpre c (hagree c)), (h c).2⟩)
      (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernel_ideal, Cert.Proof.RefSide.frame_reference, trivial, algebraic⟩

end Cert.Proof

end
